-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v85)) (v1 : (c : Dev Cert.KernelIdeal.nD) → Buf (Elt Ideal) ((c.tc : Thread Cert.KernelIdeal.nD Cert.KernelIdeal.τ).loc Cert.KernelIdeal.main_v68)) (v2 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_v68) = v1 c
          ∧ r.2.mem ((c.tc : Thread Cert.KernelIdeal.nD Cert.KernelIdeal.τ).loc Cert.KernelIdeal.main_v69) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v142) = v0 c
          ∧ r.2.mem ((c.tc : Thread Cert.ReferenceIdeal.nD Cert.ReferenceIdeal.τ).loc Cert.ReferenceIdeal.main_v125) = v1 c
          ∧ r.2.mem ((c.tc : Thread Cert.ReferenceIdeal.nD Cert.ReferenceIdeal.τ).loc Cert.ReferenceIdeal.main_v126) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S800000 : Shape := ⟨1, ![800000]⟩
abbrev S25000x64 : Shape := ⟨2, ![25000, 64]⟩
abbrev S3x64x64 : Shape := ⟨3, ![3, 64, 64]⟩
abbrev S3x64 : Shape := ⟨2, ![3, 64]⟩
abbrev S4096 : Shape := ⟨1, ![4096]⟩
abbrev S_ : Shape := ⟨0, ![]⟩

class Facts : Prop where
  bcast_S_S800000 : S_.BroadcastsInDim S800000 (![] : Fin 0 → Fin S800000.rank)
  reducesTo_S800000_S_d0 : S800000.ReducesTo [0] S_
  h_S_ : 0 < S_.numel
  bcast_S_S25000x64 : S_.BroadcastsInDim S25000x64 (![] : Fin 0 → Fin S25000x64.rank)
  reducesTo_S25000x64_S_d0_1 : S25000x64.ReducesTo [0, 1] S_
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_

variable [Facts]

def fn_part1 {F : FTy → Type} [FloatOps F] (main_arg6 : FVec F S3x64 .f32) (main_arg7 : FVec F S3x64x64 .f32) (main_arg8 : FVec F S3x64 .f32) (main_v13 : IVec S_ 1) (main_v16 : IVec S3x64x64 1) : IVec S_ 1 :=
  let main_c_5 : IVec S_ 1 := constantI S_ 1 1#1
  let main_v17 : IVec S_ 1 := (fun x v => Host.reduce IntOp.andi x v reducesTo_S3x64x64_S_d0_1_2 h_S_) main_v16 main_c_5
  let main_v18 : IVec S_ 1 := andi main_v13 main_v17
  let main_v19 : FVec F S3x64 .f32 := Host.absf main_arg6
  let main_cst_6 : FVec F S_ .f32 := constant S_ .f32 0x7F800000#32
  let main_v20 : FVec F S3x64 .f32 := broadcastInDim S3x64 ![] bcast_S_S3x64 main_cst_6
  let main_v21 : IVec S3x64 1 := cmpf .olt main_v19 main_v20
  let main_c_7 : IVec S_ 1 := constantI S_ 1 1#1
  let main_v22 : IVec S_ 1 := (fun x v => Host.reduce IntOp.andi x v reducesTo_S3x64_S_d0_1 h_S_) main_v21 main_c_7
  let main_v23 : IVec S_ 1 := andi main_v18 main_v22
  let main_v24 : FVec F S3x64x64 .f32 := Host.absf main_arg7
  let main_cst_8 : FVec F S_ .f32 := constant S_ .f32 0x7F800000#32
  let main_v25 : FVec F S3x64x64 .f32 := broadcastInDim S3x64x64 ![] bcast_S_S3x64x64 main_cst_8
  let main_v26 : IVec S3x64x64 1 := cmpf .olt main_v24 main_v25
  let main_c_9 : IVec S_ 1 := constantI S_ 1 1#1
  let main_v27 : IVec S_ 1 := (fun x v => Host.reduce IntOp.andi x v reducesTo_S3x64x64_S_d0_1_2 h_S_) main_v26 main_c_9
  let main_v28 : IVec S_ 1 := andi main_v23 main_v27
  let main_v29 : FVec F S3x64 .f32 := Host.absf main_arg8
  let main_cst_10 : FVec F S_ .f32 := constant S_ .f32 0x7F800000#32
  let main_v30 : FVec F S3x64 .f32 := broadcastInDim S3x64 ![] bcast_S_S3x64 main_cst_10
  let main_v31 : IVec S3x64 1 := cmpf .olt main_v29 main_v30
  let main_c_11 : IVec S_ 1 := constantI S_ 1 1#1
  let main_v32 : IVec S_ 1 := (fun x v => Host.reduce IntOp.andi x v reducesTo_S3x64_S_d0_1 h_S_) main_v31 main_c_11
  let main_v33 : IVec S_ 1 := andi main_v28 main_v32
  main_v33

def fn {F : FTy → Type} [FloatOps F] (main_arg0 : IVec S800000 32) (main_arg1 : IVec S800000 32) (main_arg2 : FVec F S800000 .f32) (main_arg3 : FVec F S25000x64 .f32) (main_arg4 : FVec F S25000x64 .f32) (main_arg5 : FVec F S3x64x64 .f32) (main_arg6 : FVec F S3x64 .f32) (main_arg7 : FVec F S3x64x64 .f32) (main_arg8 : FVec F S3x64 .f32) (main_arg9 : IVec S4096 32) (main_arg10 : IVec S4096 32) : IVec S_ 1 :=
  let main_v0 : FVec F S800000 .f32 := Host.absf main_arg2
  let main_cst : FVec F S_ .f32 := constant S_ .f32 0x7F800000#32
  let main_v1 : FVec F S800000 .f32 := broadcastInDim S800000 ![] bcast_S_S800000 main_cst
  let main_v2 : IVec S800000 1 := cmpf .olt main_v0 main_v1
  let main_c : IVec S_ 1 := constantI S_ 1 1#1
  let main_v3 : IVec S_ 1 := (fun x v => Host.reduce IntOp.andi x v reducesTo_S800000_S_d0 h_S_) main_v2 main_c
  let main_v4 : FVec F S25000x64 .f32 := Host.absf main_arg3
  let main_cst_0 : FVec F S_ .f32 := constant S_ .f32 0x7F800000#32
  let main_v5 : FVec F S25000x64 .f32 := broadcastInDim S25000x64 ![] bcast_S_S25000x64 main_cst_0
  let main_v6 : IVec S25000x64 1 := cmpf .olt main_v4 main_v5
  let main_c_1 : IVec S_ 1 := constantI S_ 1 1#1
  let main_v7 : IVec S_ 1 := (fun x v => Host.reduce IntOp.andi x v reducesTo_S25000x64_S_d0_1 h_S_) main_v6 main_c_1
  let main_v8 : IVec S_ 1 := andi main_v3 main_v7
  let main_v9 : FVec F S25000x64 .f32 := Host.absf main_arg4
  let main_cst_2 : FVec F S_ .f32 := constant S_ .f32 0x7F800000#32
  let main_v10 : FVec F S25000x64 .f32 := broadcastInDim S25000x64 ![] bcast_S_S25000x64 main_cst_2
  let main_v11 : IVec S25000x64 1 := cmpf .olt main_v9 main_v10
  let main_c_3 : IVec S_ 1 := constantI S_ 1 1#1
  let main_v12 : IVec S_ 1 := (fun x v => Host.reduce IntOp.andi x v reducesTo_S25000x64_S_d0_1 h_S_) main_v11 main_c_3
  let main_v13 : IVec S_ 1 := andi main_v8 main_v12
  let main_v14 : FVec F S3x64x64 .f32 := Host.absf main_arg5
  let main_cst_4 : FVec F S_ .f32 := constant S_ .f32 0x7F800000#32
  let main_v15 : FVec F S3x64x64 .f32 := broadcastInDim S3x64x64 ![] bcast_S_S3x64x64 main_cst_4
  let main_v16 : IVec S3x64x64 1 := cmpf .olt main_v14 main_v15
  fn_part1 (F := F) main_arg6 main_arg7 main_arg8 main_v13 main_v16
-- ==== Kernel.lean ====
abbrev S800000 : Shape := ⟨1, ![800000]⟩
abbrev S25000x64 : Shape := ⟨2, ![25000, 64]⟩
abbrev S3x64x64 : Shape := ⟨3, ![3, 64, 64]⟩
abbrev S3x64 : Shape := ⟨2, ![3, 64]⟩
abbrev S4096 : Shape := ⟨1, ![4096]⟩
abbrev S50000x64 : Shape := ⟨2, ![50000, 64]⟩
abbrev S800000x1 : Shape := ⟨2, ![800000, 1]⟩
abbrev S_ : Shape := ⟨0, ![]⟩
abbrev S800000x64 : Shape := ⟨2, ![800000, 64]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S5000x64 : Shape := ⟨2, ![5000, 64]⟩
abbrev S5000 : Shape := ⟨1, ![5000]⟩
abbrev S5000x1 : Shape := ⟨2, ![5000, 1]⟩
abbrev S50000x256 : Shape := ⟨2, ![50000, 256]⟩
abbrev S25000x256 : Shape := ⟨2, ![25000, 256]⟩
abbrev S4096x1 : Shape := ⟨2, ![4096, 1]⟩
abbrev S4096x256 : Shape := ⟨2, ![4096, 256]⟩

abbrev nBuf : Space → Nat
  | .hbm => 114
  | .vmem => 36
  | .smem => 0
  | _ => 0

abbrev bufTy : (tb : Table) → Fin (tcTables nBuf tb) → BufTy
  | .hbm, ⟨0, _⟩ => ⟨S800000, .i32⟩
  | .hbm, ⟨1, _⟩ => ⟨S800000, .i32⟩
  | .hbm, ⟨2, _⟩ => ⟨S800000, .f32⟩
  | .hbm, ⟨3, _⟩ => ⟨S25000x64, .f32⟩
  | .hbm, ⟨4, _⟩ => ⟨S25000x64, .f32⟩
  | .hbm, ⟨5, _⟩ => ⟨S3x64x64, .f32⟩
  | .hbm, ⟨6, _⟩ => ⟨S3x64, .f32⟩
  | .hbm, ⟨7, _⟩ => ⟨S3x64x64, .f32⟩
  | .hbm, ⟨8, _⟩ => ⟨S3x64, .f32⟩
  | .hbm, ⟨9, _⟩ => ⟨S4096, .i32⟩
  | .hbm, ⟨10, _⟩ => ⟨S4096, .i32⟩
  | .hbm, ⟨11, _⟩ => ⟨S50000x64, .f32⟩
  | .hbm, ⟨12, _⟩ => ⟨S800000x1, .f32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x64, .f32⟩
  | .hbm, ⟨22, _⟩ => ⟨S800000x64, .f32⟩
  | .hbm, ⟨23, _⟩ => ⟨S800000x64, .f32⟩
  | .hbm, ⟨24, _⟩ => ⟨S_, .f32⟩
  | .hbm, ⟨25, _⟩ => ⟨S50000x64, .f32⟩
  | .hbm, ⟨26, _⟩ => ⟨S800000x1, .i32⟩
  | .hbm, ⟨27, _⟩ => ⟨S50000x64, .f32⟩
  | .hbm, ⟨28, _⟩ => ⟨S1x64x64, .f32⟩
  | .hbm, ⟨29, _⟩ => ⟨S64x64, .f32⟩
  | .hbm, ⟨30, _⟩ => ⟨S1x64, .f32⟩
  | .hbm, ⟨31, _⟩ => ⟨S64, .f32⟩
  | .hbm, ⟨32, _⟩ => ⟨S1x64x64, .f32⟩
  | .hbm, ⟨33, _⟩ => ⟨S64x64, .f32⟩
  | .hbm, ⟨34, _⟩ => ⟨S1x64, .f32⟩
  | .hbm, ⟨35, _⟩ => ⟨S64, .f32⟩
  | .hbm, ⟨36, _⟩ => ⟨S50000x64, .f32⟩
  | .hbm, ⟨37, _⟩ => ⟨S50000x64, .f32⟩
  | .hbm, ⟨38, _⟩ => ⟨S800000x1, .f32⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S800000x64, .f32⟩
  | .hbm, ⟨48, _⟩ => ⟨S800000x64, .f32⟩
  | .hbm, ⟨49, _⟩ => ⟨S800000x64, .f32⟩
  | .hbm, ⟨50, _⟩ => ⟨S_, .f32⟩
  | .hbm, ⟨51, _⟩ => ⟨S50000x64, .f32⟩
  | .hbm, ⟨52, _⟩ => ⟨S800000x1, .i32⟩
  | .hbm, ⟨53, _⟩ => ⟨S50000x64, .f32⟩
  | .hbm, ⟨54, _⟩ => ⟨S1x64x64, .f32⟩
  | .hbm, ⟨55, _⟩ => ⟨S64x64, .f32⟩
  | .hbm, ⟨56, _⟩ => ⟨S1x64, .f32⟩
  | .hbm, ⟨57, _⟩ => ⟨S64, .f32⟩
  | .hbm, ⟨58, _⟩ => ⟨S1x64x64, .f32⟩
  | .hbm, ⟨59, _⟩ => ⟨S64x64, .f32⟩
  | .hbm, ⟨60, _⟩ => ⟨S1x64, .f32⟩
  | .hbm, ⟨61, _⟩ => ⟨S64, .f32⟩
  | .hbm, ⟨62, _⟩ => ⟨S50000x64, .f32⟩
  | .hbm, ⟨63, _⟩ => ⟨S50000x64, .f32⟩
  | .hbm, ⟨64, _⟩ => ⟨S800000x1, .f32⟩
  | .hbm, ⟨65, _⟩ => ⟨S_, .i32⟩
  | .hbm, ⟨66, _⟩ => ⟨S800000, .i32⟩
  | .hbm, ⟨67, _⟩ => ⟨S800000, .i1⟩
  | .hbm, ⟨68, _⟩ => ⟨S_, .i32⟩
  | .hbm, ⟨69, _⟩ => ⟨S800000, .i32⟩
  | .hbm, ⟨70, _⟩ => ⟨S800000, .i32⟩
  | .hbm, ⟨71, _⟩ => ⟨S800000, .i32⟩
  | .hbm, ⟨72, _⟩ => ⟨S800000x1, .i32⟩
  | .hbm, ⟨73, _⟩ => ⟨S800000x64, .f32⟩
  | .hbm, ⟨74, _⟩ => ⟨S800000x64, .f32⟩
  | .hbm, ⟨75, _⟩ => ⟨S800000x64, .f32⟩
  | .hbm, ⟨76, _⟩ => ⟨S_, .f32⟩
  | .hbm, ⟨77, _⟩ => ⟨S50000x64, .f32⟩
  | .hbm, ⟨78, _⟩ => ⟨S800000x1, .i32⟩
  | .hbm, ⟨79, _⟩ => ⟨S50000x64, .f32⟩
  | .hbm, ⟨80, _⟩ => ⟨S1x64x64, .f32⟩
  | .hbm, ⟨81, _⟩ => ⟨S64x64, .f32⟩
  | .hbm, ⟨82, _⟩ => ⟨S1x64, .f32⟩
  | .hbm, ⟨83, _⟩ => ⟨S64, .f32⟩
  | .hbm, ⟨84, _⟩ => ⟨S1x64x64, .f32⟩
  | .hbm, ⟨85, _⟩ => ⟨S64x64, .f32⟩
  | .hbm, ⟨86, _⟩ => ⟨S1x64, .f32⟩
  | .hbm, ⟨87, _⟩ => ⟨S64, .f32⟩
  | .hbm, ⟨88, _⟩ => ⟨S50000x64, .f32⟩
  | .hbm, ⟨89, _⟩ => ⟨S50000x64, .f32⟩
  | .hbm, ⟨90, _⟩ => ⟨S50000x256, .f32⟩
  | .hbm, ⟨91, _⟩ => ⟨S25000x256, .f32⟩
  | .hbm, ⟨92, _⟩ => ⟨S25000x256, .f32⟩
  | .hbm, ⟨93, _⟩ => ⟨S_, .i32⟩
  | .hbm, ⟨94, _⟩ => ⟨S4096, .i32⟩
  | .hbm, ⟨95, _⟩ => ⟨S4096, .i1⟩
  | .hbm, ⟨96, _⟩ => ⟨S_, .i32⟩
  | .hbm, ⟨97, _⟩ => ⟨S4096, .i32⟩
  | .hbm, ⟨98, _⟩ => ⟨S4096, .i32⟩
  | .hbm, ⟨99, _⟩ => ⟨S4096, .i32⟩
  | .hbm, ⟨100, _⟩ => ⟨S4096x1, .i32⟩
  | .hbm, ⟨101, _⟩ => ⟨S4096x256, .f32⟩
  | .hbm, ⟨102, _⟩ => ⟨S_, .i32⟩
  | .hbm, ⟨103, _⟩ => ⟨S4096, .i32⟩
  | .hbm, ⟨104, _⟩ => ⟨S4096, .i1⟩
  | .hbm, ⟨105, _⟩ => ⟨S_, .i32⟩
  | .hbm, ⟨106, _⟩ => ⟨S4096, .i32⟩
  | .hbm, ⟨107, _⟩ => ⟨S4096, .i32⟩
  | .hbm, ⟨108, _⟩ => ⟨S4096, .i32⟩
  | .hbm, ⟨109, _⟩ => ⟨S4096x1, .i32⟩
  | .hbm, ⟨110, _⟩ => ⟨S4096x256, .f32⟩
  | .hbm, ⟨111, _⟩ => ⟨S4096x256, .f32⟩
  | .hbm, ⟨112, _⟩ => ⟨S_, .f32⟩
  | .hbm, ⟨113, _⟩ => ⟨S4096, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S64, .f32⟩
  | .local _ .vmem, ⟨6, _⟩ => ⟨S64x64, .f32⟩
  | .local _ .vmem, ⟨7, _⟩ => ⟨S64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S64x64, .f32⟩
  | .local _ .vmem, ⟨17, _⟩ => ⟨S64, .f32⟩
  | .local _ .vmem, ⟨18, _⟩ => ⟨S64x64, .f32⟩
  | .local _ .vmem, ⟨19, _⟩ => ⟨S64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S64x64, .f32⟩
  | .local _ .vmem, ⟨29, _⟩ => ⟨S64, .f32⟩
  | .local _ .vmem, ⟨30, _⟩ => ⟨S64x64, .f32⟩
  | .local _ .vmem, ⟨31, _⟩ => ⟨S64, .f32⟩
  | .local _ .vmem, ⟨32, _⟩ => ⟨S5000x64, .f32⟩
  | .local _ .vmem, ⟨33, _⟩ => ⟨S5000x64, .f32⟩
  | .local _ .vmem, ⟨34, _⟩ => ⟨S5000x64, .f32⟩
  | .local _ .vmem, ⟨35, _⟩ => ⟨S5000x64, .f32⟩
  | _, _ => ⟨S800000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_c_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22_0 : Ref sig .tc := ⟨.hbm, 36, rfl⟩
abbrev main_v22_1 : Ref sig .tc := ⟨.hbm, 37, rfl⟩
abbrev main_v23 : Ref sig .tc := ⟨.hbm, 38, rfl⟩
abbrev main_c_1 : Ref sig .tc := ⟨.hbm, 39, rfl⟩
abbrev main_v24 : Ref sig .tc := ⟨.hbm, 40, rfl⟩
abbrev main_v25 : Ref sig .tc := ⟨.hbm, 41, rfl⟩
abbrev main_c_2 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_3 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44_0 : Ref sig .tc := ⟨.hbm, 62, rfl⟩
abbrev main_v44_1 : Ref sig .tc := ⟨.hbm, 63, rfl⟩
abbrev main_v45 : Ref sig .tc := ⟨.hbm, 64, rfl⟩
abbrev main_c_4 : Ref sig .tc := ⟨.hbm, 65, rfl⟩
abbrev main_v46 : Ref sig .tc := ⟨.hbm, 66, rfl⟩
abbrev main_v47 : Ref sig .tc := ⟨.hbm, 67, rfl⟩
abbrev main_c_5 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_6 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66_0 : Ref sig .tc := ⟨.hbm, 88, rfl⟩
abbrev main_v66_1 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_c_7 : Ref sig .tc := ⟨.hbm, 93, rfl⟩
abbrev main_v70 : Ref sig .tc := ⟨.hbm, 94, rfl⟩
abbrev main_v71 : Ref sig .tc := ⟨.hbm, 95, rfl⟩
abbrev main_c_8 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_c_9 : Ref sig .tc := ⟨.hbm, 102, rfl⟩
abbrev main_v77 : Ref sig .tc := ⟨.hbm, 103, rfl⟩
abbrev main_v78 : Ref sig .tc := ⟨.hbm, 104, rfl⟩
abbrev main_c_10 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_cst_11 : Ref sig .tc := ⟨.hbm, 112, rfl⟩
abbrev main_v85 : Ref sig .tc := ⟨.hbm, 113, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc1_stg7_0 : Ref sig .tc := ⟨.vmem, 22, rfl⟩
abbrev cc1_stg7_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg6_0 : Ref sig .tc := ⟨.vmem, 32, rfl⟩
abbrev cc2_stg6_1 : Ref sig .tc := ⟨.vmem, 33, rfl⟩
abbrev cc2_stg7_0 : Ref sig .tc := ⟨.vmem, 34, rfl⟩
abbrev cc2_stg7_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc1_sem7_0 : DmaSem sig := 22
abbrev cc1_sem7_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem3_0 : DmaSem sig := 29
abbrev cc2_sem4_0 : DmaSem sig := 30
abbrev cc2_sem5_0 : DmaSem sig := 31
abbrev cc2_sem6_0 : DmaSem sig := 32
abbrev cc2_sem6_1 : DmaSem sig := 33
abbrev cc2_sem7_0 : DmaSem sig := 34
abbrev cc2_sem7_1 : DmaSem sig := 35

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S5000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S5000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S5000x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  concatenates_S25000x64_S25000x64_S50000x64_d0 : Shape.Concatenates [S25000x64, S25000x64] S50000x64 0
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bitsLt_bf16_f32 : FTy.bits .bf16 < FTy.bits .f32
  inb_S64_S64_0 : ∀ a, (![0] : Fin 1 → Nat) a + S64.size a ≤ S64.size a
  h_S64 : 0 < S64.numel
  shapeCasts_S64_S64 : S64.ShapeCasts S64
  shapeCasts_S64_S1x64 : S64.ShapeCasts S1x64
  broadcasts_S1x64_S5000x64 : S1x64.Broadcasts S5000x64
  reduces_S5000x64_S5000 : S5000x64.Reduces [1] S5000
  shapeCasts_S5000_S5000x1 : S5000.ShapeCasts S5000x1
  broadcasts_S5000x1_S5000x64 : S5000x1.Broadcasts S5000x64
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  concatenates_S50000x64_S50000x64_S50000x64_S50000x64_S50000x256_d1 : Shape.Concatenates [S50000x64, S50000x64, S50000x64, S50000x64] S50000x256 1
  slices_S50000x256_S25000x256_0_0 : S50000x256.Slices ![0, 0] S25000x256
  slices_S50000x256_S25000x256_25000_0 : S50000x256.Slices ![25000, 0] S25000x256
  bcast_S_S4096 : S_.BroadcastsInDim S4096 (![] : Fin 0 → Fin S4096.rank)
  bcast_S4096_S4096x1_0 : S4096.BroadcastsInDim S4096x1 (![0] : Fin 1 → Fin S4096x1.rank)
  reducesTo_S4096x256_S4096_d1 : S4096x256.ReducesTo [1] S4096
  h_S_ : 0 < S_.numel
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x64_S5000x64_1_0_0_1_n_n_wf : DotDims.WF S5000x64 S64x64 S5000x64 [1] [0] [0] [1] [] []
  gather_S25000x256_S4096x1_S4096x256_1_0_n_n_0_1_1256_wf : GatherDims.WF S25000x256 S4096x1 S4096x256 [1] [0] [] [0] [] 1 ![1, 256]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .f32 = 32 ∨ (Rect.block (s := S50000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S50000x64.size a
  hwx0_6 : ∀ i : grid0.Coords, EltTy.bits .f32 = 32 ∨ (Rect.block (s := S50000x64) S5000x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x64.size a ≤ S50000x64.size a
  hwx0_7 : ∀ i : grid0.Coords, EltTy.bits .f32 = 32 ∨ (Rect.block (s := S50000x64) S5000x64.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64.size a ≤ S64.size a
  hwx1_5 : ∀ i : grid1.Coords, EltTy.bits .f32 = 32 ∨ (Rect.block (s := S64) S64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S50000x64.size a
  hwx1_6 : ∀ i : grid1.Coords, EltTy.bits .f32 = 32 ∨ (Rect.block (s := S50000x64) S5000x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x64.size a ≤ S50000x64.size a
  hwx1_7 : ∀ i : grid1.Coords, EltTy.bits .f32 = 32 ∨ (Rect.block (s := S50000x64) S5000x64.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S50000x64.size a
  hwx2_1 : ∀ i : grid2.Coords, EltTy.bits .f32 = 32 ∨ (Rect.block (s := S50000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64.size a ≤ S64.size a
  hwx2_3 : ∀ i : grid2.Coords, EltTy.bits .f32 = 32 ∨ (Rect.block (s := S64) S64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64.size a ≤ S64.size a
  hwx2_5 : ∀ i : grid2.Coords, EltTy.bits .f32 = 32 ∨ (Rect.block (s := S64) S64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x64.size a ≤ S50000x64.size a
  hwx2_6 : ∀ i : grid2.Coords, EltTy.bits .f32 = 32 ∨ (Rect.block (s := S50000x64) S5000x64.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x64.size a ≤ S50000x64.size a
  hwx2_7 : ∀ i : grid2.Coords, EltTy.bits .f32 = 32 ∨ (Rect.block (s := S50000x64) S5000x64.size (cc2_transform_7 i) (hinb2_7 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S25000x256_S4096x1_S4096x256_1_0_n_n_0_1_1256 : GatherDims S25000x256 S4096x1 S4096x256 where
  offsetDims := [1]
  collapsedSliceDims := [0]
  operandBatchingDims := []
  startIndicesBatchingDims := []
  startIndexMap := [0]
  indexVectorDim := 1
  sliceSizes := ![1, 256]
  wf := gather_S25000x256_S4096x1_S4096x256_1_0_n_n_0_1_1256_wf

abbrev win0_0 : Pipeline.Window sig grid0 :=
  Pipeline.Window.ofSpec (Memref.whole main_v0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22_0) S5000x64.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v22_1) S5000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v22_0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v37) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v39) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v41) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v44_0) S5000x64.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v44_1) S5000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v44_0) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v57) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v59) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v61) S64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v63) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v65) S64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v66_0) S5000x64.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v66_1) S5000x64.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S800000 : Shape := ⟨1, ![800000]⟩
abbrev S25000x64 : Shape := ⟨2, ![25000, 64]⟩
abbrev S3x64x64 : Shape := ⟨3, ![3, 64, 64]⟩
abbrev S3x64 : Shape := ⟨2, ![3, 64]⟩
abbrev S4096 : Shape := ⟨1, ![4096]⟩
abbrev S50000x64 : Shape := ⟨2, ![50000, 64]⟩
abbrev S800000x1 : Shape := ⟨2, ![800000, 1]⟩
abbrev S_ : Shape := ⟨0, ![]⟩
abbrev S800000x64 : Shape := ⟨2, ![800000, 64]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S50000 : Shape := ⟨1, ![50000]⟩
abbrev S50000x1 : Shape := ⟨2, ![50000, 1]⟩
abbrev S50000x256 : Shape := ⟨2, ![50000, 256]⟩
abbrev S25000x256 : Shape := ⟨2, ![25000, 256]⟩
abbrev S4096x1 : Shape := ⟨2, ![4096, 1]⟩
abbrev S4096x256 : Shape := ⟨2, ![4096, 256]⟩

abbrev nBuf : Space → Nat
  | .hbm => 216
  | .vmem => 0
  | .smem => 0
  | _ => 0

abbrev hbmTy0_0 (i : Nat) : BufTy := match i % 128 with
  | 0 => ⟨S800000, .i32⟩
  | 1 => ⟨S800000, .i32⟩
  | 2 => ⟨S800000, .f32⟩
  | 3 => ⟨S25000x64, .f32⟩
  | 4 => ⟨S25000x64, .f32⟩
  | 5 => ⟨S3x64x64, .f32⟩
  | 6 => ⟨S3x64, .f32⟩
  | 7 => ⟨S3x64x64, .f32⟩
  | 8 => ⟨S3x64, .f32⟩
  | 9 => ⟨S4096, .i32⟩
  | 10 => ⟨S4096, .i32⟩
  | 11 => ⟨S50000x64, .f32⟩
  | 12 => ⟨S800000x1, .f32⟩
  | 13 => ⟨S_, .i32⟩
  | 14 => ⟨S800000, .i32⟩
  | 15 => ⟨S800000, .i1⟩
  | 16 => ⟨S_, .i32⟩
  | 17 => ⟨S800000, .i32⟩
  | 18 => ⟨S800000, .i32⟩
  | 19 => ⟨S800000, .i32⟩
  | 20 => ⟨S800000x1, .i32⟩
  | 21 => ⟨S800000x64, .f32⟩
  | 22 => ⟨S800000x64, .f32⟩
  | 23 => ⟨S800000x64, .f32⟩
  | 24 => ⟨S_, .f32⟩
  | 25 => ⟨S50000x64, .f32⟩
  | 26 => ⟨S800000x1, .i32⟩
  | 27 => ⟨S50000x64, .f32⟩
  | 28 => ⟨S1x64x64, .f32⟩
  | 29 => ⟨S64x64, .f32⟩
  | 30 => ⟨S50000x64, .f32⟩
  | 31 => ⟨S1x64, .f32⟩
  | 32 => ⟨S64, .f32⟩
  | 33 => ⟨S1x64, .f32⟩
  | 34 => ⟨S50000x64, .f32⟩
  | 35 => ⟨S50000x64, .f32⟩
  | 36 => ⟨S_, .f32⟩
  | 37 => ⟨S_, .f32⟩
  | 38 => ⟨S50000x64, .f32⟩
  | 39 => ⟨S50000x64, .i1⟩
  | 40 => ⟨S_, .f32⟩
  | 41 => ⟨S50000x64, .f32⟩
  | 42 => ⟨S50000x64, .f32⟩
  | 43 => ⟨S50000x64, .f32⟩
  | 44 => ⟨S50000x64, .f32⟩
  | 45 => ⟨S1x64x64, .f32⟩
  | 46 => ⟨S64x64, .f32⟩
  | 47 => ⟨S50000x64, .f32⟩
  | 48 => ⟨S1x64, .f32⟩
  | 49 => ⟨S64, .f32⟩
  | 50 => ⟨S1x64, .f32⟩
  | 51 => ⟨S50000x64, .f32⟩
  | 52 => ⟨S50000x64, .f32⟩
  | 53 => ⟨S_, .f32⟩
  | 54 => ⟨S_, .f32⟩
  | 55 => ⟨S50000x64, .f32⟩
  | 56 => ⟨S50000x64, .i1⟩
  | 57 => ⟨S_, .f32⟩
  | 58 => ⟨S50000x64, .f32⟩
  | 59 => ⟨S50000x64, .f32⟩
  | 60 => ⟨S50000x64, .f32⟩
  | 61 => ⟨S50000x64, .f32⟩
  | 62 => ⟨S50000x64, .f32⟩
  | 63 => ⟨S_, .f32⟩
  | 64 => ⟨S50000, .f32⟩
  | 65 => ⟨S50000x1, .f32⟩
  | 66 => ⟨S_, .f32⟩
  | 67 => ⟨S50000x1, .f32⟩
  | 68 => ⟨S50000x1, .f32⟩
  | 69 => ⟨S50000x1, .f32⟩
  | 70 => ⟨S50000x64, .f32⟩
  | 71 => ⟨S50000x64, .f32⟩
  | 72 => ⟨S800000x1, .f32⟩
  | 73 => ⟨S_, .i32⟩
  | 74 => ⟨S800000, .i32⟩
  | 75 => ⟨S800000, .i1⟩
  | 76 => ⟨S_, .i32⟩
  | 77 => ⟨S800000, .i32⟩
  | 78 => ⟨S800000, .i32⟩
  | 79 => ⟨S800000, .i32⟩
  | 80 => ⟨S800000x1, .i32⟩
  | 81 => ⟨S800000x64, .f32⟩
  | 82 => ⟨S800000x64, .f32⟩
  | 83 => ⟨S800000x64, .f32⟩
  | 84 => ⟨S_, .f32⟩
  | 85 => ⟨S50000x64, .f32⟩
  | 86 => ⟨S800000x1, .i32⟩
  | 87 => ⟨S50000x64, .f32⟩
  | 88 => ⟨S1x64x64, .f32⟩
  | 89 => ⟨S64x64, .f32⟩
  | 90 => ⟨S50000x64, .f32⟩
  | 91 => ⟨S1x64, .f32⟩
  | 92 => ⟨S64, .f32⟩
  | 93 => ⟨S1x64, .f32⟩
  | 94 => ⟨S50000x64, .f32⟩
  | 95 => ⟨S50000x64, .f32⟩
  | 96 => ⟨S_, .f32⟩
  | 97 => ⟨S_, .f32⟩
  | 98 => ⟨S50000x64, .f32⟩
  | 99 => ⟨S50000x64, .i1⟩
  | 100 => ⟨S_, .f32⟩
  | 101 => ⟨S50000x64, .f32⟩
  | 102 => ⟨S50000x64, .f32⟩
  | 103 => ⟨S50000x64, .f32⟩
  | 104 => ⟨S50000x64, .f32⟩
  | 105 => ⟨S1x64x64, .f32⟩
  | 106 => ⟨S64x64, .f32⟩
  | 107 => ⟨S50000x64, .f32⟩
  | 108 => ⟨S1x64, .f32⟩
  | 109 => ⟨S64, .f32⟩
  | 110 => ⟨S1x64, .f32⟩
  | 111 => ⟨S50000x64, .f32⟩
  | 112 => ⟨S50000x64, .f32⟩
  | 113 => ⟨S_, .f32⟩
  | 114 => ⟨S_, .f32⟩
  | 115 => ⟨S50000x64, .f32⟩
  | 116 => ⟨S50000x64, .i1⟩
  | 117 => ⟨S_, .f32⟩
  | 118 => ⟨S50000x64, .f32⟩
  | 119 => ⟨S50000x64, .f32⟩
  | 120 => ⟨S50000x64, .f32⟩
  | 121 => ⟨S50000x64, .f32⟩
  | 122 => ⟨S50000x64, .f32⟩
  | 123 => ⟨S_, .f32⟩
  | 124 => ⟨S50000, .f32⟩
  | 125 => ⟨S50000x1, .f32⟩
  | 126 => ⟨S_, .f32⟩
  | 127 => ⟨S50000x1, .f32⟩
  | _ => ⟨S800000, .i32⟩

abbrev hbmTy0_1 (i : Nat) : BufTy := match i % 128 with
  | 0 => ⟨S50000x1, .f32⟩
  | 1 => ⟨S50000x1, .f32⟩
  | 2 => ⟨S50000x64, .f32⟩
  | 3 => ⟨S50000x64, .f32⟩
  | 4 => ⟨S800000x1, .f32⟩
  | 5 => ⟨S_, .i32⟩
  | 6 => ⟨S800000, .i32⟩
  | 7 => ⟨S800000, .i1⟩
  | 8 => ⟨S_, .i32⟩
  | 9 => ⟨S800000, .i32⟩
  | 10 => ⟨S800000, .i32⟩
  | 11 => ⟨S800000, .i32⟩
  | 12 => ⟨S800000x1, .i32⟩
  | 13 => ⟨S800000x64, .f32⟩
  | 14 => ⟨S800000x64, .f32⟩
  | 15 => ⟨S800000x64, .f32⟩
  | 16 => ⟨S_, .f32⟩
  | 17 => ⟨S50000x64, .f32⟩
  | 18 => ⟨S800000x1, .i32⟩
  | 19 => ⟨S50000x64, .f32⟩
  | 20 => ⟨S1x64x64, .f32⟩
  | 21 => ⟨S64x64, .f32⟩
  | 22 => ⟨S50000x64, .f32⟩
  | 23 => ⟨S1x64, .f32⟩
  | 24 => ⟨S64, .f32⟩
  | 25 => ⟨S1x64, .f32⟩
  | 26 => ⟨S50000x64, .f32⟩
  | 27 => ⟨S50000x64, .f32⟩
  | 28 => ⟨S_, .f32⟩
  | 29 => ⟨S_, .f32⟩
  | 30 => ⟨S50000x64, .f32⟩
  | 31 => ⟨S50000x64, .i1⟩
  | 32 => ⟨S_, .f32⟩
  | 33 => ⟨S50000x64, .f32⟩
  | 34 => ⟨S50000x64, .f32⟩
  | 35 => ⟨S50000x64, .f32⟩
  | 36 => ⟨S50000x64, .f32⟩
  | 37 => ⟨S1x64x64, .f32⟩
  | 38 => ⟨S64x64, .f32⟩
  | 39 => ⟨S50000x64, .f32⟩
  | 40 => ⟨S1x64, .f32⟩
  | 41 => ⟨S64, .f32⟩
  | 42 => ⟨S1x64, .f32⟩
  | 43 => ⟨S50000x64, .f32⟩
  | 44 => ⟨S50000x64, .f32⟩
  | 45 => ⟨S_, .f32⟩
  | 46 => ⟨S_, .f32⟩
  | 47 => ⟨S50000x64, .f32⟩
  | 48 => ⟨S50000x64, .i1⟩
  | 49 => ⟨S_, .f32⟩
  | 50 => ⟨S50000x64, .f32⟩
  | 51 => ⟨S50000x64, .f32⟩
  | 52 => ⟨S50000x64, .f32⟩
  | 53 => ⟨S50000x64, .f32⟩
  | 54 => ⟨S50000x64, .f32⟩
  | 55 => ⟨S_, .f32⟩
  | 56 => ⟨S50000, .f32⟩
  | 57 => ⟨S50000x1, .f32⟩
  | 58 => ⟨S_, .f32⟩
  | 59 => ⟨S50000x1, .f32⟩
  | 60 => ⟨S50000x1, .f32⟩
  | 61 => ⟨S50000x1, .f32⟩
  | 62 => ⟨S50000x64, .f32⟩
  | 63 => ⟨S50000x64, .f32⟩
  | 64 => ⟨S50000x256, .f32⟩
  | 65 => ⟨S25000x256, .f32⟩
  | 66 => ⟨S25000x256, .f32⟩
  | 67 => ⟨S_, .i32⟩
  | 68 => ⟨S4096, .i32⟩
  | 69 => ⟨S4096, .i1⟩
  | 70 => ⟨S_, .i32⟩
  | 71 => ⟨S4096, .i32⟩
  | 72 => ⟨S4096, .i32⟩
  | 73 => ⟨S4096, .i32⟩
  | 74 => ⟨S4096x1, .i32⟩
  | 75 => ⟨S4096x256, .f32⟩
  | 76 => ⟨S_, .i32⟩
  | 77 => ⟨S4096, .i32⟩
  | 78 => ⟨S4096, .i1⟩
  | 79 => ⟨S_, .i32⟩
  | 80 => ⟨S4096, .i32⟩
  | 81 => ⟨S4096, .i32⟩
  | 82 => ⟨S4096, .i32⟩
  | 83 => ⟨S4096x1, .i32⟩
  | 84 => ⟨S4096x256, .f32⟩
  | 85 => ⟨S4096x256, .f32⟩
  | 86 => ⟨S_, .f32⟩
  | 87 => ⟨S4096, .f32⟩
  | _ => ⟨S800000, .i32⟩

abbrev hbmTy (i : Nat) : BufTy := match i / 128 with
  | 0 => hbmTy0_0 i
  | 1 => hbmTy0_1 i
  | _ => ⟨S800000, .i32⟩

abbrev bufTy : (tb : Table) → Fin (tcTables nBuf tb) → BufTy
  | .hbm, ⟨i, _⟩ => hbmTy i
  | _, _ => ⟨S800000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_c_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_1 : Ref sig .tc := ⟨.hbm, 36, rfl⟩
abbrev main_call0_cst : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_2 : Ref sig .tc := ⟨.hbm, 53, rfl⟩
abbrev main_call1_cst : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_call1_v3 : Ref sig .tc := ⟨.hbm, 58, rfl⟩
abbrev main_call1_v4 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_cst_3 : Ref sig .tc := ⟨.hbm, 63, rfl⟩
abbrev main_v35 : Ref sig .tc := ⟨.hbm, 64, rfl⟩
abbrev main_v36 : Ref sig .tc := ⟨.hbm, 65, rfl⟩
abbrev main_cst_4 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_c_5 : Ref sig .tc := ⟨.hbm, 73, rfl⟩
abbrev main_v43 : Ref sig .tc := ⟨.hbm, 74, rfl⟩
abbrev main_v44 : Ref sig .tc := ⟨.hbm, 75, rfl⟩
abbrev main_c_6 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_cst_7 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_cst_8 : Ref sig .tc := ⟨.hbm, 96, rfl⟩
abbrev main_call2_cst : Ref sig .tc := ⟨.hbm, 97, rfl⟩
abbrev main_call2_v0 : Ref sig .tc := ⟨.hbm, 98, rfl⟩
abbrev main_call2_v1 : Ref sig .tc := ⟨.hbm, 99, rfl⟩
abbrev main_call2_v2 : Ref sig .tc := ⟨.hbm, 100, rfl⟩
abbrev main_call2_v3 : Ref sig .tc := ⟨.hbm, 101, rfl⟩
abbrev main_call2_v4 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_cst_9 : Ref sig .tc := ⟨.hbm, 113, rfl⟩
abbrev main_call3_cst : Ref sig .tc := ⟨.hbm, 114, rfl⟩
abbrev main_call3_v0 : Ref sig .tc := ⟨.hbm, 115, rfl⟩
abbrev main_call3_v1 : Ref sig .tc := ⟨.hbm, 116, rfl⟩
abbrev main_call3_v2 : Ref sig .tc := ⟨.hbm, 117, rfl⟩
abbrev main_call3_v3 : Ref sig .tc := ⟨.hbm, 118, rfl⟩
abbrev main_call3_v4 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_cst_10 : Ref sig .tc := ⟨.hbm, 123, rfl⟩
abbrev main_v76 : Ref sig .tc := ⟨.hbm, 124, rfl⟩
abbrev main_v77 : Ref sig .tc := ⟨.hbm, 125, rfl⟩
abbrev main_cst_11 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_c_12 : Ref sig .tc := ⟨.hbm, 133, rfl⟩
abbrev main_v84 : Ref sig .tc := ⟨.hbm, 134, rfl⟩
abbrev main_v85 : Ref sig .tc := ⟨.hbm, 135, rfl⟩
abbrev main_c_13 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_cst_14 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_cst_15 : Ref sig .tc := ⟨.hbm, 156, rfl⟩
abbrev main_call4_cst : Ref sig .tc := ⟨.hbm, 157, rfl⟩
abbrev main_call4_v0 : Ref sig .tc := ⟨.hbm, 158, rfl⟩
abbrev main_call4_v1 : Ref sig .tc := ⟨.hbm, 159, rfl⟩
abbrev main_call4_v2 : Ref sig .tc := ⟨.hbm, 160, rfl⟩
abbrev main_call4_v3 : Ref sig .tc := ⟨.hbm, 161, rfl⟩
abbrev main_call4_v4 : Ref sig .tc := ⟨.hbm, 162, rfl⟩
abbrev main_v104 : Ref sig .tc := ⟨.hbm, 163, rfl⟩
abbrev main_v105 : Ref sig .tc := ⟨.hbm, 164, rfl⟩
abbrev main_v106 : Ref sig .tc := ⟨.hbm, 165, rfl⟩
abbrev main_v107 : Ref sig .tc := ⟨.hbm, 166, rfl⟩
abbrev main_v108 : Ref sig .tc := ⟨.hbm, 167, rfl⟩
abbrev main_v109 : Ref sig .tc := ⟨.hbm, 168, rfl⟩
abbrev main_v110 : Ref sig .tc := ⟨.hbm, 169, rfl⟩
abbrev main_v111 : Ref sig .tc := ⟨.hbm, 170, rfl⟩
abbrev main_v112 : Ref sig .tc := ⟨.hbm, 171, rfl⟩
abbrev main_v113 : Ref sig .tc := ⟨.hbm, 172, rfl⟩
abbrev main_cst_16 : Ref sig .tc := ⟨.hbm, 173, rfl⟩
abbrev main_call5_cst : Ref sig .tc := ⟨.hbm, 174, rfl⟩
abbrev main_call5_v0 : Ref sig .tc := ⟨.hbm, 175, rfl⟩
abbrev main_call5_v1 : Ref sig .tc := ⟨.hbm, 176, rfl⟩
abbrev main_call5_v2 : Ref sig .tc := ⟨.hbm, 177, rfl⟩
abbrev main_call5_v3 : Ref sig .tc := ⟨.hbm, 178, rfl⟩
abbrev main_call5_v4 : Ref sig .tc := ⟨.hbm, 179, rfl⟩
abbrev main_v114 : Ref sig .tc := ⟨.hbm, 180, rfl⟩
abbrev main_v115 : Ref sig .tc := ⟨.hbm, 181, rfl⟩
abbrev main_v116 : Ref sig .tc := ⟨.hbm, 182, rfl⟩
abbrev main_cst_17 : Ref sig .tc := ⟨.hbm, 183, rfl⟩
abbrev main_v117 : Ref sig .tc := ⟨.hbm, 184, rfl⟩
abbrev main_v118 : Ref sig .tc := ⟨.hbm, 185, rfl⟩
abbrev main_cst_18 : Ref sig .tc := ⟨.hbm, 186, rfl⟩
abbrev main_v119 : Ref sig .tc := ⟨.hbm, 187, rfl⟩
abbrev main_v120 : Ref sig .tc := ⟨.hbm, 188, rfl⟩
abbrev main_v121 : Ref sig .tc := ⟨.hbm, 189, rfl⟩
abbrev main_v122 : Ref sig .tc := ⟨.hbm, 190, rfl⟩
abbrev main_v123 : Ref sig .tc := ⟨.hbm, 191, rfl⟩
abbrev main_v124 : Ref sig .tc := ⟨.hbm, 192, rfl⟩
abbrev main_v125 : Ref sig .tc := ⟨.hbm, 193, rfl⟩
abbrev main_v126 : Ref sig .tc := ⟨.hbm, 194, rfl⟩
abbrev main_c_19 : Ref sig .tc := ⟨.hbm, 195, rfl⟩
abbrev main_v127 : Ref sig .tc := ⟨.hbm, 196, rfl⟩
abbrev main_v128 : Ref sig .tc := ⟨.hbm, 197, rfl⟩
abbrev main_c_20 : Ref sig .tc := ⟨.hbm, 198, rfl⟩
abbrev main_v129 : Ref sig .tc := ⟨.hbm, 199, rfl⟩
abbrev main_v130 : Ref sig .tc := ⟨.hbm, 200, rfl⟩
abbrev main_v131 : Ref sig .tc := ⟨.hbm, 201, rfl⟩
abbrev main_v132 : Ref sig .tc := ⟨.hbm, 202, rfl⟩
abbrev main_v133 : Ref sig .tc := ⟨.hbm, 203, rfl⟩
abbrev main_c_21 : Ref sig .tc := ⟨.hbm, 204, rfl⟩
abbrev main_v134 : Ref sig .tc := ⟨.hbm, 205, rfl⟩
abbrev main_v135 : Ref sig .tc := ⟨.hbm, 206, rfl⟩
abbrev main_c_22 : Ref sig .tc := ⟨.hbm, 207, rfl⟩
abbrev main_v136 : Ref sig .tc := ⟨.hbm, 208, rfl⟩
abbrev main_v137 : Ref sig .tc := ⟨.hbm, 209, rfl⟩
abbrev main_v138 : Ref sig .tc := ⟨.hbm, 210, rfl⟩
abbrev main_v139 : Ref sig .tc := ⟨.hbm, 211, rfl⟩
abbrev main_v140 : Ref sig .tc := ⟨.hbm, 212, rfl⟩
abbrev main_v141 : Ref sig .tc := ⟨.hbm, 213, rfl⟩
abbrev main_cst_23 : Ref sig .tc := ⟨.hbm, 214, rfl⟩
abbrev main_v142 : Ref sig .tc := ⟨.hbm, 215, rfl⟩

abbrev nD : Nat := 1
abbrev τ : Topo := Topo.v7x

variable {F : FTy → Type} [FloatOps F]

class Facts₀ : Prop where
  concatenates_S25000x64_S25000x64_S50000x64_d0 : Shape.Concatenates [S25000x64, S25000x64] S50000x64 0
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S50000_d1 : S50000x64.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x64_0_1 : S50000x1.BroadcastsInDim S50000x64 (![0, 1] : Fin 2 → Fin S50000x64.rank)
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  concatenates_S50000x64_S50000x64_S50000x64_S50000x64_S50000x256_d1 : Shape.Concatenates [S50000x64, S50000x64, S50000x64, S50000x64] S50000x256 1
  slices_S50000x256_S25000x256_0_0 : S50000x256.Slices ![0, 0] S25000x256
  slices_S50000x256_S25000x256_25000_0 : S50000x256.Slices ![25000, 0] S25000x256
  bcast_S_S4096 : S_.BroadcastsInDim S4096 (![] : Fin 0 → Fin S4096.rank)
  bcast_S4096_S4096x1_0 : S4096.BroadcastsInDim S4096x1 (![0] : Fin 1 → Fin S4096x1.rank)
  reducesTo_S4096x256_S4096_d1 : S4096x256.ReducesTo [1] S4096
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []
  gather_S25000x256_S4096x1_S4096x256_1_0_n_n_0_1_1256_wf : GatherDims.WF S25000x256 S4096x1 S4096x256 [1] [0] [] [0] [] 1 ![1, 256]

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S25000x256_S4096x1_S4096x256_1_0_n_n_0_1_1256 : GatherDims S25000x256 S4096x1 S4096x256 where
  offsetDims := [1]
  collapsedSliceDims := [0]
  operandBatchingDims := []
  startIndicesBatchingDims := []
  startIndexMap := [0]
  indexVectorDim := 1
  sliceSizes := ![1, 256]
  wf := gather_S25000x256_S4096x1_S4096x256_1_0_n_n_0_1_1256_wf

class Facts : Prop extends Facts₀ where

variable [Facts]
-- ==== Proof.BitsTile0.lean ====
/-
  One layer's tile kernel as the pipeline runs it, for launch 0 of the program.

  A grid point hands the body eight staging buffers: a tile of 5000 rows of the node embeddings and of the aggregated
  messages, the two 64×64 weight matrices and the two bias vectors (inputs), and two output tiles. The body reads the six
  inputs whole, and stores into the first output the tile's new embeddings and into the second their normalised copy;
  it also reads each output buffer once before storing, a value it never uses. So after the body each output buffer
  holds exactly its one whole-tile store, a pure function of the six input blocks, and every input buffer is as found.
  From that: the proof data of the launch (what each window's buffer holds after every point), and the obligation the
  launch theorem asks of the body at every grid point.
-/
import proofs.«103830_j35493609734828_1_alg».proof.Proof.Gen.Kernel.Launch
import proofs.«103830_j35493609734828_1_alg».proof.Proof.Gen.Kernel.Skeleton
import proofs.«103830_j35493609734828_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the core's buffer contents when the launch is entered
variable (V : (c : Dev nD) → (b : Ref sig .tc) → Buf (Elt F) ((c : Thread nD τ).loc b))

/-! ## The windows' blocks -/

/-- Window `w`'s block at grid point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not: where it is not
    fetched its block index has not moved, so the block kept from the point before is this point's. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not: where it is not
    fetched its block index has not moved, so the block kept from the point before is this point's. -/
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not: where it is not
    fetched its block index has not moved, so the block kept from the point before is this point's. -/
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not: where it is not
    fetched its block index has not moved, so the block kept from the point before is this point's. -/
theorem before0_3_of {c : Dev nD} (dat : Dat τ (Elt F) Unit ℕ (Pipeline.UD sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not: where it is not
    fetched its block index has not moved, so the block kept from the point before is this point's. -/
theorem before0_4_of {c : Dev nD} (dat : Dat τ (Elt F) Unit ℕ (Pipeline.UD sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not: where it is not
    fetched its block index has not moved, so the block kept from the point before is this point's. -/
theorem before0_5_of {c : Dev nD} (dat : Dat τ (Elt F) Unit ℕ (Pipeline.UD sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev rT0 : Rect S5000x64 := Rect.unit (s := S5000x64) ![0, 0] S5000x64.size inb_S5000x64_S5000x64_0_0
abbrev rM0 : Rect S64x64 := Rect.unit (s := S64x64) ![0, 0] S64x64.size inb_S64x64_S64x64_0_0
abbrev rB0 : Rect S64 := Rect.unit (s := S64) ![0] S64.size inb_S64_S64_0

/-! ## What the body leaves in each output buffer -/

/-- The tile's new embeddings, from the six input blocks (embeddings, messages, the first weight matrix and bias, the
    second weight matrix and bias). -/
def ego0 (x0 x1 : Vec F S5000x64 .f32) (x2 : Vec F S64x64 .f32) (x3 : Vec F S64 .f32) (x4 : Vec F S64x64 .f32) (x5 : Vec F S64 .f32) : FVec F S5000x64 .f32 :=
  k0_pay2 (View.ld x0 rT0) (View.ld x1 rT0) (View.ld x2 rM0) (View.ld x4 rM0) (View.ld x3 rB0) (View.ld x5 rB0)

/-- Their floored squared lengths, one per row. -/
def sq0 (x0 x1 : Vec F S5000x64 .f32) (x2 : Vec F S64x64 .f32) (x3 : Vec F S64 .f32) (x4 : Vec F S64x64 .f32) (x5 : Vec F S64 .f32) : FVec F S5000x1 .f32 :=
  k0_pay3 (View.ld x0 rT0) (View.ld x1 rT0) (View.ld x2 rM0) (View.ld x4 rM0) (View.ld x3 rB0) (View.ld x5 rB0)

/-- Output window 6's buffer after the body: its one whole-tile store, the new embeddings. -/
def out0_6 (x0 x1 : Vec F S5000x64 .f32) (x2 : Vec F S64x64 .f32) (x3 : Vec F S64 .f32) (x4 : Vec F S64x64 .f32) (x5 : Vec F S64 .f32) : Vec F S5000x64 .f32 :=
  View.canon [⟨rT0, ego0 x0 x1 x2 x3 x4 x5⟩]

/-- Output window 7's buffer after the body: its one whole-tile store, the normalised new embeddings. -/
def out0_7 (x0 x1 : Vec F S5000x64 .f32) (x2 : Vec F S64x64 .f32) (x3 : Vec F S64 .f32) (x4 : Vec F S64x64 .f32) (x5 : Vec F S64 .f32) : Vec F S5000x64 .f32 :=
  View.canon [⟨rT0, k0_pay1 (ego0 x0 x1 x2 x3 x4 x5) (sq0 x0 x1 x2 x3 x4 x5)⟩]

/-- A whole-tile store covers the tile. -/
theorem cover0 (p0 : Vec F S5000x64 .f32) (y : S5000x64.Idx) :
    ∃ pc ∈ ([⟨rT0, p0⟩] : List (View.Piece (Elt F) S5000x64 .f32)), y ∈ pc.1.set :=
  View.cover_of_tiled [⟨rT0, p0⟩] S5000x64.size (by rfl) y

/-! ## The body's triple -/

set_option maxHeartbeats 1000000 in
/-- The body on whole staging buffers — the inputs' at contents `x0 … x5`, the outputs' at anything — runs to the
    continuation holding the inputs' as they were and the outputs' at `out0_6`, `out0_7` of the inputs. -/
theorem sound_kernel0 (c : Dev nD) (E : Set ℕ) (i : grid0.Coords)
    (arg1 : Memref sig .tc .vmem S5000x64 .f32) (harg1 : arg1.IsWhole) (arg2 : Memref sig .tc .vmem S5000x64 .f32) (harg2 : arg2.IsWhole)
    (arg3 : Memref sig .tc .vmem S64x64 .f32) (harg3 : arg3.IsWhole) (arg4 : Memref sig .tc .vmem S64 .f32) (harg4 : arg4.IsWhole)
    (arg5 : Memref sig .tc .vmem S64x64 .f32) (harg5 : arg5.IsWhole) (arg6 : Memref sig .tc .vmem S64 .f32) (harg6 : arg6.IsWhole)
    (arg7 : Memref sig .tc .vmem S5000x64 .f32) (harg7 : arg7.IsWhole) (arg8 : Memref sig .tc .vmem S5000x64 .f32) (harg8 : arg8.IsWhole)
    (x0 x1 : Vec F S5000x64 .f32) (x2 : Vec F S64x64 .f32) (x3 : Vec F S64 .f32) (x4 : Vec F S64x64 .f32) (x5 : Vec F S64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out0_6 x0 x1 x2 x3 x4 x5) ∗ owns (c : Thread nD τ) arg8 fullShare (out0_7 x0 x1 x2 x3 x4 x5)) -∗ K ⟨⟩))
      ⊢ wp frame (wpE (defs₀ (F := F)) Variants.none c none) E (cc0__layer_kernel i arg1 harg1 arg2 harg2 arg3 harg3 arg4 harg4 arg5 harg5 arg6 harg6 arg7 harg7 arg8 harg8) K := by
  simp only [cc0__layer_kernel_eq_skeleton]; unfold cc0__layer_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover0 _)
  iexists _; isplitr
  swap; · iexact H7
  ipureintro
  exact View.read_writes_eq_canon _ _ _ (cover0 _)

/-! ## The launch's proof data -/

/-- The proof data of launch 0 on core `c`: the arrays as the launch finds them; after the body at point `t` each input's
    buffer at its block and each output's at its whole-tile store of the input blocks; the invariant the scoped rest and
    the generator register, untouched; nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
    | ⟨7, _⟩ => out0_7 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any point: the inputs' buffers hold their blocks, so the triple applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ (grid0.coords t) _ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The launch theorem's obligation on the body, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.BitsTile1.lean ====
/-
  One layer's tile kernel as the pipeline runs it, for launch 1 of the program.

  A grid point hands the body eight staging buffers: a tile of 5000 rows of the node embeddings and of the aggregated
  messages, the two 64×64 weight matrices and the two bias vectors (inputs), and two output tiles. The body reads the six
  inputs whole, and stores into the first output the tile's new embeddings and into the second their normalised copy;
  it also reads each output buffer once before storing, a value it never uses. So after the body each output buffer
  holds exactly its one whole-tile store, a pure function of the six input blocks, and every input buffer is as found.
  From that: the proof data of the launch (what each window's buffer holds after every point), and the obligation the
  launch theorem asks of the body at every grid point.
-/
import proofs.«103830_j35493609734828_1_alg».proof.Proof.Gen.Kernel.Launch
import proofs.«103830_j35493609734828_1_alg».proof.Proof.Gen.Kernel.Skeleton
import proofs.«103830_j35493609734828_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the core's buffer contents when the launch is entered
variable (V : (c : Dev nD) → (b : Ref sig .tc) → Buf (Elt F) ((c : Thread nD τ).loc b))

/-! ## The windows' blocks -/

/-- Window `w`'s block at grid point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: where it is not
    fetched its block index has not moved, so the block kept from the point before is this point's. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not: where it is not
    fetched its block index has not moved, so the block kept from the point before is this point's. -/
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not: where it is not
    fetched its block index has not moved, so the block kept from the point before is this point's. -/
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not: where it is not
    fetched its block index has not moved, so the block kept from the point before is this point's. -/
theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not: where it is not
    fetched its block index has not moved, so the block kept from the point before is this point's. -/
theorem before1_4_of {c : Dev nD} (dat : Dat τ (Elt F) Unit ℕ (Pipeline.UD sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not: where it is not
    fetched its block index has not moved, so the block kept from the point before is this point's. -/
theorem before1_5_of {c : Dev nD} (dat : Dat τ (Elt F) Unit ℕ (Pipeline.UD sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev rT1 : Rect S5000x64 := Rect.unit (s := S5000x64) ![0, 0] S5000x64.size inb_S5000x64_S5000x64_0_0
abbrev rM1 : Rect S64x64 := Rect.unit (s := S64x64) ![0, 0] S64x64.size inb_S64x64_S64x64_0_0
abbrev rB1 : Rect S64 := Rect.unit (s := S64) ![0] S64.size inb_S64_S64_0

/-! ## What the body leaves in each output buffer -/

/-- The tile's new embeddings, from the six input blocks (embeddings, messages, the first weight matrix and bias, the
    second weight matrix and bias). -/
def ego1 (x0 x1 : Vec F S5000x64 .f32) (x2 : Vec F S64x64 .f32) (x3 : Vec F S64 .f32) (x4 : Vec F S64x64 .f32) (x5 : Vec F S64 .f32) : FVec F S5000x64 .f32 :=
  k1_pay2 (View.ld x0 rT1) (View.ld x1 rT1) (View.ld x2 rM1) (View.ld x4 rM1) (View.ld x3 rB1) (View.ld x5 rB1)

/-- Their floored squared lengths, one per row. -/
def sq1 (x0 x1 : Vec F S5000x64 .f32) (x2 : Vec F S64x64 .f32) (x3 : Vec F S64 .f32) (x4 : Vec F S64x64 .f32) (x5 : Vec F S64 .f32) : FVec F S5000x1 .f32 :=
  k1_pay3 (View.ld x0 rT1) (View.ld x1 rT1) (View.ld x2 rM1) (View.ld x4 rM1) (View.ld x3 rB1) (View.ld x5 rB1)

/-- Output window 6's buffer after the body: its one whole-tile store, the new embeddings. -/
def out1_6 (x0 x1 : Vec F S5000x64 .f32) (x2 : Vec F S64x64 .f32) (x3 : Vec F S64 .f32) (x4 : Vec F S64x64 .f32) (x5 : Vec F S64 .f32) : Vec F S5000x64 .f32 :=
  View.canon [⟨rT1, ego1 x0 x1 x2 x3 x4 x5⟩]

/-- Output window 7's buffer after the body: its one whole-tile store, the normalised new embeddings. -/
def out1_7 (x0 x1 : Vec F S5000x64 .f32) (x2 : Vec F S64x64 .f32) (x3 : Vec F S64 .f32) (x4 : Vec F S64x64 .f32) (x5 : Vec F S64 .f32) : Vec F S5000x64 .f32 :=
  View.canon [⟨rT1, k1_pay1 (ego1 x0 x1 x2 x3 x4 x5) (sq1 x0 x1 x2 x3 x4 x5)⟩]

/-- A whole-tile store covers the tile. -/
theorem cover1 (p0 : Vec F S5000x64 .f32) (y : S5000x64.Idx) :
    ∃ pc ∈ ([⟨rT1, p0⟩] : List (View.Piece (Elt F) S5000x64 .f32)), y ∈ pc.1.set :=
  View.cover_of_tiled [⟨rT1, p0⟩] S5000x64.size (by rfl) y

/-! ## The body's triple -/

set_option maxHeartbeats 1000000 in
/-- The body on whole staging buffers — the inputs' at contents `x0 … x5`, the outputs' at anything — runs to the
    continuation holding the inputs' as they were and the outputs' at `out1_6`, `out1_7` of the inputs. -/
theorem sound_kernel1 (c : Dev nD) (E : Set ℕ) (i : grid1.Coords)
    (arg1 : Memref sig .tc .vmem S5000x64 .f32) (harg1 : arg1.IsWhole) (arg2 : Memref sig .tc .vmem S5000x64 .f32) (harg2 : arg2.IsWhole)
    (arg3 : Memref sig .tc .vmem S64x64 .f32) (harg3 : arg3.IsWhole) (arg4 : Memref sig .tc .vmem S64 .f32) (harg4 : arg4.IsWhole)
    (arg5 : Memref sig .tc .vmem S64x64 .f32) (harg5 : arg5.IsWhole) (arg6 : Memref sig .tc .vmem S64 .f32) (harg6 : arg6.IsWhole)
    (arg7 : Memref sig .tc .vmem S5000x64 .f32) (harg7 : arg7.IsWhole) (arg8 : Memref sig .tc .vmem S5000x64 .f32) (harg8 : arg8.IsWhole)
    (x0 x1 : Vec F S5000x64 .f32) (x2 : Vec F S64x64 .f32) (x3 : Vec F S64 .f32) (x4 : Vec F S64x64 .f32) (x5 : Vec F S64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out1_6 x0 x1 x2 x3 x4 x5) ∗ owns (c : Thread nD τ) arg8 fullShare (out1_7 x0 x1 x2 x3 x4 x5)) -∗ K ⟨⟩))
      ⊢ wp frame (wpE (defs₀ (F := F)) Variants.none c none) E (cc1__layer_kernel i arg1 harg1 arg2 harg2 arg3 harg3 arg4 harg4 arg5 harg5 arg6 harg6 arg7 harg7 arg8 harg8) K := by
  simp only [cc1__layer_kernel_eq_skeleton]; unfold cc1__layer_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover1 _)
  iexists _; isplitr
  swap; · iexact H7
  ipureintro
  exact View.read_writes_eq_canon _ _ _ (cover1 _)

/-! ## The launch's proof data -/

/-- The proof data of launch 1 on core `c`: the arrays as the launch finds them; after the body at point `t` each input's
    buffer at its block and each output's at its whole-tile store of the input blocks; the invariant the scoped rest and
    the generator register, untouched; nothing owed; full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
    | ⟨7, _⟩ => out1_7 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' buffers hold their blocks, so the triple applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ (grid1.coords t) _ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The launch theorem's obligation on the body, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.BitsTile2.lean ====
/-
  One layer's tile kernel as the pipeline runs it, for launch 2 of the program.

  A grid point hands the body eight staging buffers: a tile of 5000 rows of the node embeddings and of the aggregated
  messages, the two 64×64 weight matrices and the two bias vectors (inputs), and two output tiles. The body reads the six
  inputs whole, and stores into the first output the tile's new embeddings and into the second their normalised copy;
  it also reads each output buffer once before storing, a value it never uses. So after the body each output buffer
  holds exactly its one whole-tile store, a pure function of the six input blocks, and every input buffer is as found.
  From that: the proof data of the launch (what each window's buffer holds after every point), and the obligation the
  launch theorem asks of the body at every grid point.
-/
import proofs.«103830_j35493609734828_1_alg».proof.Proof.Gen.Kernel.Launch
import proofs.«103830_j35493609734828_1_alg».proof.Proof.Gen.Kernel.Skeleton
import proofs.«103830_j35493609734828_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the core's buffer contents when the launch is entered
variable (V : (c : Dev nD) → (b : Ref sig .tc) → Buf (Elt F) ((c : Thread nD τ).loc b))

/-! ## The windows' blocks -/

/-- Window `w`'s block at grid point `t`, read off its array as the launch finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not: where it is not
    fetched its block index has not moved, so the block kept from the point before is this point's. -/
theorem before2_0_of {c : Dev nD} (dat : Dat τ (Elt F) Unit ℕ (Pipeline.UD sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not: where it is not
    fetched its block index has not moved, so the block kept from the point before is this point's. -/
theorem before2_1_of {c : Dev nD} (dat : Dat τ (Elt F) Unit ℕ (Pipeline.UD sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not: where it is not
    fetched its block index has not moved, so the block kept from the point before is this point's. -/
theorem before2_2_of {c : Dev nD} (dat : Dat τ (Elt F) Unit ℕ (Pipeline.UD sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not: where it is not
    fetched its block index has not moved, so the block kept from the point before is this point's. -/
theorem before2_3_of {c : Dev nD} (dat : Dat τ (Elt F) Unit ℕ (Pipeline.UD sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not: where it is not
    fetched its block index has not moved, so the block kept from the point before is this point's. -/
theorem before2_4_of {c : Dev nD} (dat : Dat τ (Elt F) Unit ℕ (Pipeline.UD sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not: where it is not
    fetched its block index has not moved, so the block kept from the point before is this point's. -/
theorem before2_5_of {c : Dev nD} (dat : Dat τ (Elt F) Unit ℕ (Pipeline.UD sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer whole -/

abbrev rT2 : Rect S5000x64 := Rect.unit (s := S5000x64) ![0, 0] S5000x64.size inb_S5000x64_S5000x64_0_0
abbrev rM2 : Rect S64x64 := Rect.unit (s := S64x64) ![0, 0] S64x64.size inb_S64x64_S64x64_0_0
abbrev rB2 : Rect S64 := Rect.unit (s := S64) ![0] S64.size inb_S64_S64_0

/-! ## What the body leaves in each output buffer -/

/-- The tile's new embeddings, from the six input blocks (embeddings, messages, the first weight matrix and bias, the
    second weight matrix and bias). -/
def ego2 (x0 x1 : Vec F S5000x64 .f32) (x2 : Vec F S64x64 .f32) (x3 : Vec F S64 .f32) (x4 : Vec F S64x64 .f32) (x5 : Vec F S64 .f32) : FVec F S5000x64 .f32 :=
  k2_pay2 (View.ld x0 rT2) (View.ld x1 rT2) (View.ld x2 rM2) (View.ld x4 rM2) (View.ld x3 rB2) (View.ld x5 rB2)

/-- Their floored squared lengths, one per row. -/
def sq2 (x0 x1 : Vec F S5000x64 .f32) (x2 : Vec F S64x64 .f32) (x3 : Vec F S64 .f32) (x4 : Vec F S64x64 .f32) (x5 : Vec F S64 .f32) : FVec F S5000x1 .f32 :=
  k2_pay3 (View.ld x0 rT2) (View.ld x1 rT2) (View.ld x2 rM2) (View.ld x4 rM2) (View.ld x3 rB2) (View.ld x5 rB2)

/-- Output window 6's buffer after the body: its one whole-tile store, the new embeddings. -/
def out2_6 (x0 x1 : Vec F S5000x64 .f32) (x2 : Vec F S64x64 .f32) (x3 : Vec F S64 .f32) (x4 : Vec F S64x64 .f32) (x5 : Vec F S64 .f32) : Vec F S5000x64 .f32 :=
  View.canon [⟨rT2, ego2 x0 x1 x2 x3 x4 x5⟩]

/-- Output window 7's buffer after the body: its one whole-tile store, the normalised new embeddings. -/
def out2_7 (x0 x1 : Vec F S5000x64 .f32) (x2 : Vec F S64x64 .f32) (x3 : Vec F S64 .f32) (x4 : Vec F S64x64 .f32) (x5 : Vec F S64 .f32) : Vec F S5000x64 .f32 :=
  View.canon [⟨rT2, k2_pay1 (ego2 x0 x1 x2 x3 x4 x5) (sq2 x0 x1 x2 x3 x4 x5)⟩]

/-- A whole-tile store covers the tile. -/
theorem cover2 (p0 : Vec F S5000x64 .f32) (y : S5000x64.Idx) :
    ∃ pc ∈ ([⟨rT2, p0⟩] : List (View.Piece (Elt F) S5000x64 .f32)), y ∈ pc.1.set :=
  View.cover_of_tiled [⟨rT2, p0⟩] S5000x64.size (by rfl) y

/-! ## The body's triple -/

set_option maxHeartbeats 1000000 in
/-- The body on whole staging buffers — the inputs' at contents `x0 … x5`, the outputs' at anything — runs to the
    continuation holding the inputs' as they were and the outputs' at `out2_6`, `out2_7` of the inputs. -/
theorem sound_kernel2 (c : Dev nD) (E : Set ℕ) (i : grid2.Coords)
    (arg1 : Memref sig .tc .vmem S5000x64 .f32) (harg1 : arg1.IsWhole) (arg2 : Memref sig .tc .vmem S5000x64 .f32) (harg2 : arg2.IsWhole)
    (arg3 : Memref sig .tc .vmem S64x64 .f32) (harg3 : arg3.IsWhole) (arg4 : Memref sig .tc .vmem S64 .f32) (harg4 : arg4.IsWhole)
    (arg5 : Memref sig .tc .vmem S64x64 .f32) (harg5 : arg5.IsWhole) (arg6 : Memref sig .tc .vmem S64 .f32) (harg6 : arg6.IsWhole)
    (arg7 : Memref sig .tc .vmem S5000x64 .f32) (harg7 : arg7.IsWhole) (arg8 : Memref sig .tc .vmem S5000x64 .f32) (harg8 : arg8.IsWhole)
    (x0 x1 : Vec F S5000x64 .f32) (x2 : Vec F S64x64 .f32) (x3 : Vec F S64 .f32) (x4 : Vec F S64x64 .f32) (x5 : Vec F S64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out2_6 x0 x1 x2 x3 x4 x5) ∗ owns (c : Thread nD τ) arg8 fullShare (out2_7 x0 x1 x2 x3 x4 x5)) -∗ K ⟨⟩))
      ⊢ wp frame (wpE (defs₀ (F := F)) Variants.none c none) E (cc2__layer_kernel i arg1 harg1 arg2 harg2 arg3 harg3 arg4 harg4 arg5 harg5 arg6 harg6 arg7 harg7 arg8 harg8) K := by
  simp only [cc2__layer_kernel_eq_skeleton]; unfold cc2__layer_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover2 _)
  iexists _; isplitr
  swap; · iexact H7
  ipureintro
  exact View.read_writes_eq_canon _ _ _ (cover2 _)

/-! ## The launch's proof data -/

/-- The proof data of launch 2 on core `c`: the arrays as the launch finds them; after the body at point `t` each input's
    buffer at its block and each output's at its whole-tile store of the input blocks; the invariant the scoped rest and
    the generator register, untouched; nothing owed; full shares. -/
def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
    | ⟨7, _⟩ => out2_7 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]
theorem after2_7 (c : Dev nD) (t : Fin cfg2.N) : (dat2 V c).after 7 t = out2_7 (iblk2 V c 0 t) (iblk2 V c 1 t) (iblk2 V c 2 t) (iblk2 V c 3 t) (iblk2 V c 4 t) (iblk2 V c 5 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

/-- The body at any point: the inputs' buffers hold their blocks, so the triple applies; the invariant and the core's
    dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ (grid2.coords t) _ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The launch theorem's obligation on the body, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.BitsRun.lean ====
/-
  The whole program's run: four stretches of host operations around three launches of the layer kernel.

  Between two items a core holds every unscoped buffer whole at named contents: the launch memory; then each host
  stretch's operations applied in order; then, after a launch, the same contents with the launch's arrays replaced by what
  its write-backs leave. The contents at the last boundary are what every final memory holds — the three results and,
  because no host operation and no launch writes an argument, each argument as launched.
-/
import proofs.«103830_j35493609734828_1_alg».proof.Proof.BitsTile0
import proofs.«103830_j35493609734828_1_alg».proof.Proof.BitsTile1
import proofs.«103830_j35493609734828_1_alg».proof.Proof.BitsTile2
import proofs.«103830_j35493609734828_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m (c, b)
abbrev V0 : (c : Dev nD) → (b : Ref sig .tc) → Buf (Elt F) ((c : Thread nD τ).loc b) := fun c b => W0 m c b

/-- After the host stretch 0: its operations applied in order. -/
def W1 (c : Dev nD) : Valuation τ sig (Elt F) := StableHlo.after hostOps0 (W0 m c)
abbrev V1 : (c : Dev nD) → (b : Ref sig .tc) → Buf (Elt F) ((c : Thread nD τ).loc b) := fun c b => W1 m c b
theorem W1_of (c : Dev nD) (r : Ref sig .tc) (h : r ∉ hostOps0_W) : W1 m c (Proc.devRef .tc r) = W0 m c (Proc.devRef .tc r) :=
  StableHlo.after_of_writes_sub hostOps0 _ hostOps0_writes h

/-- At launch 0's exit: its arrays at what the pipeline leaves (the inputs as entered, each output's write-backs folded),
    every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the host stretch 1: its operations applied in order. -/
def W3 (c : Dev nD) : Valuation τ sig (Elt F) := StableHlo.after hostOps1 (W2 m c)
abbrev V3 : (c : Dev nD) → (b : Ref sig .tc) → Buf (Elt F) ((c : Thread nD τ).loc b) := fun c b => W3 m c b
theorem W3_of (c : Dev nD) (r : Ref sig .tc) (h : r ∉ hostOps1_W) : W3 m c (Proc.devRef .tc r) = W2 m c (Proc.devRef .tc r) :=
  StableHlo.after_of_writes_sub hostOps1 _ hostOps1_writes h

/-- At launch 1's exit: its arrays at what the pipeline leaves (the inputs as entered, each output's write-backs folded),
    every other buffer as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the host stretch 2: its operations applied in order. -/
def W5 (c : Dev nD) : Valuation τ sig (Elt F) := StableHlo.after hostOps2 (W4 m c)
abbrev V5 : (c : Dev nD) → (b : Ref sig .tc) → Buf (Elt F) ((c : Thread nD τ).loc b) := fun c b => W5 m c b
theorem W5_of (c : Dev nD) (r : Ref sig .tc) (h : r ∉ hostOps2_W) : W5 m c (Proc.devRef .tc r) = W4 m c (Proc.devRef .tc r) :=
  StableHlo.after_of_writes_sub hostOps2 _ hostOps2_writes h

/-- At launch 2's exit: its arrays at what the pipeline leaves (the inputs as entered, each output's write-backs folded),
    every other buffer as entered. -/
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev V6 : (c : Dev nD) → (b : Ref sig .tc) → Buf (Elt F) ((c : Thread nD τ).loc b) := fun c b => W6 m c b
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)

/-- After the host stretch 3: its operations applied in order. -/
def W7 (c : Dev nD) : Valuation τ sig (Elt F) := StableHlo.after hostOps3 (W6 m c)
abbrev V7 : (c : Dev nD) → (b : Ref sig .tc) → Buf (Elt F) ((c : Thread nD τ).loc b) := fun c b => W7 m c b
theorem W7_of (c : Dev nD) (r : Ref sig .tc) (h : r ∉ hostOps3_W) : W7 m c (Proc.devRef .tc r) = W6 m c (Proc.devRef .tc r) :=
  StableHlo.after_of_writes_sub hostOps3 _ hostOps3_writes h

/-! ### The arguments end as launched -/

theorem W7_main_arg0 (c : Dev nD) : W7 m c (Proc.devRef .tc main_arg0) = m ((c : Thread nD τ).loc main_arg0) :=
  calc W7 m c (Proc.devRef .tc main_arg0)
    _ = W6 m c (Proc.devRef .tc main_arg0) := W7_of m c main_arg0 (by decide)
    _ = W5 m c (Proc.devRef .tc main_arg0) := W6_of_ne m c main_arg0 (by decide)
    _ = W4 m c (Proc.devRef .tc main_arg0) := W5_of m c main_arg0 (by decide)
    _ = W3 m c (Proc.devRef .tc main_arg0) := W4_of_ne m c main_arg0 (by decide)
    _ = W2 m c (Proc.devRef .tc main_arg0) := W3_of m c main_arg0 (by decide)
    _ = W1 m c (Proc.devRef .tc main_arg0) := W2_of_ne m c main_arg0 (by decide)
    _ = W0 m c (Proc.devRef .tc main_arg0) := W1_of m c main_arg0 (by decide)
    _ = m ((c : Thread nD τ).loc main_arg0) := rfl
theorem W7_main_arg1 (c : Dev nD) : W7 m c (Proc.devRef .tc main_arg1) = m ((c : Thread nD τ).loc main_arg1) :=
  calc W7 m c (Proc.devRef .tc main_arg1)
    _ = W6 m c (Proc.devRef .tc main_arg1) := W7_of m c main_arg1 (by decide)
    _ = W5 m c (Proc.devRef .tc main_arg1) := W6_of_ne m c main_arg1 (by decide)
    _ = W4 m c (Proc.devRef .tc main_arg1) := W5_of m c main_arg1 (by decide)
    _ = W3 m c (Proc.devRef .tc main_arg1) := W4_of_ne m c main_arg1 (by decide)
    _ = W2 m c (Proc.devRef .tc main_arg1) := W3_of m c main_arg1 (by decide)
    _ = W1 m c (Proc.devRef .tc main_arg1) := W2_of_ne m c main_arg1 (by decide)
    _ = W0 m c (Proc.devRef .tc main_arg1) := W1_of m c main_arg1 (by decide)
    _ = m ((c : Thread nD τ).loc main_arg1) := rfl
theorem W7_main_arg2 (c : Dev nD) : W7 m c (Proc.devRef .tc main_arg2) = m ((c : Thread nD τ).loc main_arg2) :=
  calc W7 m c (Proc.devRef .tc main_arg2)
    _ = W6 m c (Proc.devRef .tc main_arg2) := W7_of m c main_arg2 (by decide)
    _ = W5 m c (Proc.devRef .tc main_arg2) := W6_of_ne m c main_arg2 (by decide)
    _ = W4 m c (Proc.devRef .tc main_arg2) := W5_of m c main_arg2 (by decide)
    _ = W3 m c (Proc.devRef .tc main_arg2) := W4_of_ne m c main_arg2 (by decide)
    _ = W2 m c (Proc.devRef .tc main_arg2) := W3_of m c main_arg2 (by decide)
    _ = W1 m c (Proc.devRef .tc main_arg2) := W2_of_ne m c main_arg2 (by decide)
    _ = W0 m c (Proc.devRef .tc main_arg2) := W1_of m c main_arg2 (by decide)
    _ = m ((c : Thread nD τ).loc main_arg2) := rfl
theorem W7_main_arg3 (c : Dev nD) : W7 m c (Proc.devRef .tc main_arg3) = m ((c : Thread nD τ).loc main_arg3) :=
  calc W7 m c (Proc.devRef .tc main_arg3)
    _ = W6 m c (Proc.devRef .tc main_arg3) := W7_of m c main_arg3 (by decide)
    _ = W5 m c (Proc.devRef .tc main_arg3) := W6_of_ne m c main_arg3 (by decide)
    _ = W4 m c (Proc.devRef .tc main_arg3) := W5_of m c main_arg3 (by decide)
    _ = W3 m c (Proc.devRef .tc main_arg3) := W4_of_ne m c main_arg3 (by decide)
    _ = W2 m c (Proc.devRef .tc main_arg3) := W3_of m c main_arg3 (by decide)
    _ = W1 m c (Proc.devRef .tc main_arg3) := W2_of_ne m c main_arg3 (by decide)
    _ = W0 m c (Proc.devRef .tc main_arg3) := W1_of m c main_arg3 (by decide)
    _ = m ((c : Thread nD τ).loc main_arg3) := rfl
theorem W7_main_arg4 (c : Dev nD) : W7 m c (Proc.devRef .tc main_arg4) = m ((c : Thread nD τ).loc main_arg4) :=
  calc W7 m c (Proc.devRef .tc main_arg4)
    _ = W6 m c (Proc.devRef .tc main_arg4) := W7_of m c main_arg4 (by decide)
    _ = W5 m c (Proc.devRef .tc main_arg4) := W6_of_ne m c main_arg4 (by decide)
    _ = W4 m c (Proc.devRef .tc main_arg4) := W5_of m c main_arg4 (by decide)
    _ = W3 m c (Proc.devRef .tc main_arg4) := W4_of_ne m c main_arg4 (by decide)
    _ = W2 m c (Proc.devRef .tc main_arg4) := W3_of m c main_arg4 (by decide)
    _ = W1 m c (Proc.devRef .tc main_arg4) := W2_of_ne m c main_arg4 (by decide)
    _ = W0 m c (Proc.devRef .tc main_arg4) := W1_of m c main_arg4 (by decide)
    _ = m ((c : Thread nD τ).loc main_arg4) := rfl
theorem W7_main_arg5 (c : Dev nD) : W7 m c (Proc.devRef .tc main_arg5) = m ((c : Thread nD τ).loc main_arg5) :=
  calc W7 m c (Proc.devRef .tc main_arg5)
    _ = W6 m c (Proc.devRef .tc main_arg5) := W7_of m c main_arg5 (by decide)
    _ = W5 m c (Proc.devRef .tc main_arg5) := W6_of_ne m c main_arg5 (by decide)
    _ = W4 m c (Proc.devRef .tc main_arg5) := W5_of m c main_arg5 (by decide)
    _ = W3 m c (Proc.devRef .tc main_arg5) := W4_of_ne m c main_arg5 (by decide)
    _ = W2 m c (Proc.devRef .tc main_arg5) := W3_of m c main_arg5 (by decide)
    _ = W1 m c (Proc.devRef .tc main_arg5) := W2_of_ne m c main_arg5 (by decide)
    _ = W0 m c (Proc.devRef .tc main_arg5) := W1_of m c main_arg5 (by decide)
    _ = m ((c : Thread nD τ).loc main_arg5) := rfl
theorem W7_main_arg6 (c : Dev nD) : W7 m c (Proc.devRef .tc main_arg6) = m ((c : Thread nD τ).loc main_arg6) :=
  calc W7 m c (Proc.devRef .tc main_arg6)
    _ = W6 m c (Proc.devRef .tc main_arg6) := W7_of m c main_arg6 (by decide)
    _ = W5 m c (Proc.devRef .tc main_arg6) := W6_of_ne m c main_arg6 (by decide)
    _ = W4 m c (Proc.devRef .tc main_arg6) := W5_of m c main_arg6 (by decide)
    _ = W3 m c (Proc.devRef .tc main_arg6) := W4_of_ne m c main_arg6 (by decide)
    _ = W2 m c (Proc.devRef .tc main_arg6) := W3_of m c main_arg6 (by decide)
    _ = W1 m c (Proc.devRef .tc main_arg6) := W2_of_ne m c main_arg6 (by decide)
    _ = W0 m c (Proc.devRef .tc main_arg6) := W1_of m c main_arg6 (by decide)
    _ = m ((c : Thread nD τ).loc main_arg6) := rfl
theorem W7_main_arg7 (c : Dev nD) : W7 m c (Proc.devRef .tc main_arg7) = m ((c : Thread nD τ).loc main_arg7) :=
  calc W7 m c (Proc.devRef .tc main_arg7)
    _ = W6 m c (Proc.devRef .tc main_arg7) := W7_of m c main_arg7 (by decide)
    _ = W5 m c (Proc.devRef .tc main_arg7) := W6_of_ne m c main_arg7 (by decide)
    _ = W4 m c (Proc.devRef .tc main_arg7) := W5_of m c main_arg7 (by decide)
    _ = W3 m c (Proc.devRef .tc main_arg7) := W4_of_ne m c main_arg7 (by decide)
    _ = W2 m c (Proc.devRef .tc main_arg7) := W3_of m c main_arg7 (by decide)
    _ = W1 m c (Proc.devRef .tc main_arg7) := W2_of_ne m c main_arg7 (by decide)
    _ = W0 m c (Proc.devRef .tc main_arg7) := W1_of m c main_arg7 (by decide)
    _ = m ((c : Thread nD τ).loc main_arg7) := rfl
theorem W7_main_arg8 (c : Dev nD) : W7 m c (Proc.devRef .tc main_arg8) = m ((c : Thread nD τ).loc main_arg8) :=
  calc W7 m c (Proc.devRef .tc main_arg8)
    _ = W6 m c (Proc.devRef .tc main_arg8) := W7_of m c main_arg8 (by decide)
    _ = W5 m c (Proc.devRef .tc main_arg8) := W6_of_ne m c main_arg8 (by decide)
    _ = W4 m c (Proc.devRef .tc main_arg8) := W5_of m c main_arg8 (by decide)
    _ = W3 m c (Proc.devRef .tc main_arg8) := W4_of_ne m c main_arg8 (by decide)
    _ = W2 m c (Proc.devRef .tc main_arg8) := W3_of m c main_arg8 (by decide)
    _ = W1 m c (Proc.devRef .tc main_arg8) := W2_of_ne m c main_arg8 (by decide)
    _ = W0 m c (Proc.devRef .tc main_arg8) := W1_of m c main_arg8 (by decide)
    _ = m ((c : Thread nD τ).loc main_arg8) := rfl
theorem W7_main_arg9 (c : Dev nD) : W7 m c (Proc.devRef .tc main_arg9) = m ((c : Thread nD τ).loc main_arg9) :=
  calc W7 m c (Proc.devRef .tc main_arg9)
    _ = W6 m c (Proc.devRef .tc main_arg9) := W7_of m c main_arg9 (by decide)
    _ = W5 m c (Proc.devRef .tc main_arg9) := W6_of_ne m c main_arg9 (by decide)
    _ = W4 m c (Proc.devRef .tc main_arg9) := W5_of m c main_arg9 (by decide)
    _ = W3 m c (Proc.devRef .tc main_arg9) := W4_of_ne m c main_arg9 (by decide)
    _ = W2 m c (Proc.devRef .tc main_arg9) := W3_of m c main_arg9 (by decide)
    _ = W1 m c (Proc.devRef .tc main_arg9) := W2_of_ne m c main_arg9 (by decide)
    _ = W0 m c (Proc.devRef .tc main_arg9) := W1_of m c main_arg9 (by decide)
    _ = m ((c : Thread nD τ).loc main_arg9) := rfl
theorem W7_main_arg10 (c : Dev nD) : W7 m c (Proc.devRef .tc main_arg10) = m ((c : Thread nD τ).loc main_arg10) :=
  calc W7 m c (Proc.devRef .tc main_arg10)
    _ = W6 m c (Proc.devRef .tc main_arg10) := W7_of m c main_arg10 (by decide)
    _ = W5 m c (Proc.devRef .tc main_arg10) := W6_of_ne m c main_arg10 (by decide)
    _ = W4 m c (Proc.devRef .tc main_arg10) := W5_of m c main_arg10 (by decide)
    _ = W3 m c (Proc.devRef .tc main_arg10) := W4_of_ne m c main_arg10 (by decide)
    _ = W2 m c (Proc.devRef .tc main_arg10) := W3_of m c main_arg10 (by decide)
    _ = W1 m c (Proc.devRef .tc main_arg10) := W2_of_ne m c main_arg10 (by decide)
    _ = W0 m c (Proc.devRef .tc main_arg10) := W1_of m c main_arg10 (by decide)
    _ = m ((c : Thread nD τ).loc main_arg10) := rfl

/-! ## The proof data family and the thread state -/

abbrev adm : (p : Fin 3) → (pcfgs (F := F) p).Adm := fun p => (cfgs p).toPCfg_adm
/-- Every launch's proof data, each at the contents its launch is entered with. -/
def pdats : (p : Fin 3) → (c : Dev nD) → Dat τ (Elt F) Unit ℕ (Pipeline.UD sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
abbrev 𝒱₀ : Variants := Variants.none
abbrev L : GSem nD τ sig → Finset Unit := fun _ => ∅
abbrev lv : GSem nD τ sig → Unit → ℕ := fun _ _ => 0
/-- What rides beside the buffers through every item: the core's generator register at some state, and nothing owed. -/
abbrev R (c : Dev nD) : sProp 𝕄 := iprop((∃ r, prngReg c r) ∗ ∃ W, owes (c : Thread nD τ) (0 : CellTallies nD τ sig Unit) W)
/-- A host stretch as an item: its operations over the unscoped buffers from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W7 m c) ∗ ∃ r, prngReg c r)

/-! ## The launches as items -/

set_option backward.isDefEq.respectTransparency.types false in
/-- Launch 0 over the thread state: entered with every unscoped buffer at the contents of the boundary before it,
    left with them at the contents of the boundary after it. Its arrays are split out of the unscoped buffers and put back
    at what the write-backs leave; the generator register goes into the launch's invariant and comes out; nothing is owed;
    the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := Pipeline.UD sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 over the thread state: entered with every unscoped buffer at the contents of the boundary before it,
    left with them at the contents of the boundary after it. Its arrays are split out of the unscoped buffers and put back
    at what the write-backs leave; the generator register goes into the launch's invariant and comes out; nothing is owed;
    the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := Pipeline.UD sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 2 over the thread state: entered with every unscoped buffer at the contents of the boundary before it,
    left with them at the contents of the boundary after it. Its arrays are split out of the unscoped buffers and put back
    at what the write-backs leave; the generator register goes into the launch's invariant and comes out; nothing is owed;
    the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := Pipeline.UD sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := Pipeline.UD sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as items, and the run -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)) ]

set_option backward.isDefEq.respectTransparency.types false in
/-- THE RUN. From any memory with zero counters every weakly fair execution of the program terminates, nothing faulting,
    and every final memory holds each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pdats m) () cellOf_inj embL defs₀ 𝒱₀ L lv m ρ main (segs m)
    (fun c Q => by
      rewrite [main_chain c, Pipeline.Seg.run_eq_chain,
        show (segs m).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c => h c)

/-- The frame: every argument's buffer ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_arg0 (by decide))).trans (W7_main_arg0 m c),
     (h c _ (mem_uc main_arg1 (by decide))).trans (W7_main_arg1 m c),
     (h c _ (mem_uc main_arg2 (by decide))).trans (W7_main_arg2 m c),
     (h c _ (mem_uc main_arg3 (by decide))).trans (W7_main_arg3 m c),
     (h c _ (mem_uc main_arg4 (by decide))).trans (W7_main_arg4 m c),
     (h c _ (mem_uc main_arg5 (by decide))).trans (W7_main_arg5 m c),
     (h c _ (mem_uc main_arg6 (by decide))).trans (W7_main_arg6 m c),
     (h c _ (mem_uc main_arg7 (by decide))).trans (W7_main_arg7 m c),
     (h c _ (mem_uc main_arg8 (by decide))).trans (W7_main_arg8 m c),
     (h c _ (mem_uc main_arg9 (by decide))).trans (W7_main_arg9 m c),
     (h c _ (mem_uc main_arg10 (by decide))).trans (W7_main_arg10 m c)⟩) (run_all m ρ)

end Cert.Kernel.Hand

end
-- ==== Proof.IdealTile0.lean ====
/-
  One layer's tile kernel as the pipeline runs it, for launch 0 of the program.

  A grid point hands the body eight staging buffers: a tile of 5000 rows of the node embeddings and of the aggregated
  messages, the two 64×64 weight matrices and the two bias vectors (inputs), and two output tiles. The body reads the six
  inputs whole, and stores into the first output the tile's new embeddings and into the second their normalised copy;
  it also reads each output buffer once before storing, a value it never uses. So after the body each output buffer
  holds exactly its one whole-tile store, a pure function of the six input blocks, and every input buffer is as found.
  From that: the proof data of the launch (what each window's buffer holds after every point), and the obligation the
  launch theorem asks of the body at every grid point.
-/
import proofs.«103830_j35493609734828_1_alg».proof.Proof.Gen.KernelIdeal.Launch
import proofs.«103830_j35493609734828_1_alg».proof.Proof.Gen.KernelIdeal.Skeleton
import proofs.«103830_j35493609734828_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the core's buffer contents when the launch is entered
variable (V : (c : Dev nD) → (b : Ref sig .tc) → Buf (Elt F) ((c : Thread nD τ).loc b))

/-! ## The windows' blocks -/

/-- Window `w`'s block at grid point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not: where it is not
    fetched its block index has not moved, so the block kept from the point before is this point's. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not: where it is not
    fetched its block index has not moved, so the block kept from the point before is this point's. -/
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not: where it is not
    fetched its block index has not moved, so the block kept from the point before is this point's. -/
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not: where it is not
    fetched its block index has not moved, so the block kept from the point before is this point's. -/
theorem before0_3_of {c : Dev nD} (dat : Dat τ (Elt F) Unit ℕ (Pipeline.UD sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not: where it is not
    fetched its block index has not moved, so the block kept from the point before is this point's. -/
theorem before0_4_of {c : Dev nD} (dat : Dat τ (Elt F) Unit ℕ (Pipeline.UD sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not: where it is not
    fetched its block index has not moved, so the block kept from the point before is this point's. -/
theorem before0_5_of {c : Dev nD} (dat : Dat τ (Elt F) Unit ℕ (Pipeline.UD sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev rT0 : Rect S5000x64 := Rect.unit (s := S5000x64) ![0, 0] S5000x64.size inb_S5000x64_S5000x64_0_0
abbrev rM0 : Rect S64x64 := Rect.unit (s := S64x64) ![0, 0] S64x64.size inb_S64x64_S64x64_0_0
abbrev rB0 : Rect S64 := Rect.unit (s := S64) ![0] S64.size inb_S64_S64_0

/-! ## What the body leaves in each output buffer -/

/-- The tile's new embeddings, from the six input blocks (embeddings, messages, the first weight matrix and bias, the
    second weight matrix and bias). -/
def ego0 (x0 x1 : Vec F S5000x64 .f32) (x2 : Vec F S64x64 .f32) (x3 : Vec F S64 .f32) (x4 : Vec F S64x64 .f32) (x5 : Vec F S64 .f32) : FVec F S5000x64 .f32 :=
  k0_pay2 (View.ld x0 rT0) (View.ld x1 rT0) (View.ld x2 rM0) (View.ld x4 rM0) (View.ld x3 rB0) (View.ld x5 rB0)

/-- Their floored squared lengths, one per row. -/
def sq0 (x0 x1 : Vec F S5000x64 .f32) (x2 : Vec F S64x64 .f32) (x3 : Vec F S64 .f32) (x4 : Vec F S64x64 .f32) (x5 : Vec F S64 .f32) : FVec F S5000x1 .f32 :=
  k0_pay3 (View.ld x0 rT0) (View.ld x1 rT0) (View.ld x2 rM0) (View.ld x4 rM0) (View.ld x3 rB0) (View.ld x5 rB0)

/-- Output window 6's buffer after the body: its one whole-tile store, the new embeddings. -/
def out0_6 (x0 x1 : Vec F S5000x64 .f32) (x2 : Vec F S64x64 .f32) (x3 : Vec F S64 .f32) (x4 : Vec F S64x64 .f32) (x5 : Vec F S64 .f32) : Vec F S5000x64 .f32 :=
  View.canon [⟨rT0, ego0 x0 x1 x2 x3 x4 x5⟩]

/-- Output window 7's buffer after the body: its one whole-tile store, the normalised new embeddings. -/
def out0_7 (x0 x1 : Vec F S5000x64 .f32) (x2 : Vec F S64x64 .f32) (x3 : Vec F S64 .f32) (x4 : Vec F S64x64 .f32) (x5 : Vec F S64 .f32) : Vec F S5000x64 .f32 :=
  View.canon [⟨rT0, k0_pay1 (ego0 x0 x1 x2 x3 x4 x5) (sq0 x0 x1 x2 x3 x4 x5)⟩]

/-- A whole-tile store covers the tile. -/
theorem cover0 (p0 : Vec F S5000x64 .f32) (y : S5000x64.Idx) :
    ∃ pc ∈ ([⟨rT0, p0⟩] : List (View.Piece (Elt F) S5000x64 .f32)), y ∈ pc.1.set :=
  View.cover_of_tiled [⟨rT0, p0⟩] S5000x64.size (by rfl) y

/-! ## The body's triple -/

set_option maxHeartbeats 1000000 in
/-- The body on whole staging buffers — the inputs' at contents `x0 … x5`, the outputs' at anything — runs to the
    continuation holding the inputs' as they were and the outputs' at `out0_6`, `out0_7` of the inputs. -/
theorem sound_kernel0 (c : Dev nD) (E : Set ℕ) (i : grid0.Coords)
    (arg1 : Memref sig .tc .vmem S5000x64 .f32) (harg1 : arg1.IsWhole) (arg2 : Memref sig .tc .vmem S5000x64 .f32) (harg2 : arg2.IsWhole)
    (arg3 : Memref sig .tc .vmem S64x64 .f32) (harg3 : arg3.IsWhole) (arg4 : Memref sig .tc .vmem S64 .f32) (harg4 : arg4.IsWhole)
    (arg5 : Memref sig .tc .vmem S64x64 .f32) (harg5 : arg5.IsWhole) (arg6 : Memref sig .tc .vmem S64 .f32) (harg6 : arg6.IsWhole)
    (arg7 : Memref sig .tc .vmem S5000x64 .f32) (harg7 : arg7.IsWhole) (arg8 : Memref sig .tc .vmem S5000x64 .f32) (harg8 : arg8.IsWhole)
    (x0 x1 : Vec F S5000x64 .f32) (x2 : Vec F S64x64 .f32) (x3 : Vec F S64 .f32) (x4 : Vec F S64x64 .f32) (x5 : Vec F S64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out0_6 x0 x1 x2 x3 x4 x5) ∗ owns (c : Thread nD τ) arg8 fullShare (out0_7 x0 x1 x2 x3 x4 x5)) -∗ K ⟨⟩))
      ⊢ wp frame (wpE (defs₀ (F := F)) Variants.none c none) E (cc0__layer_kernel i arg1 harg1 arg2 harg2 arg3 harg3 arg4 harg4 arg5 harg5 arg6 harg6 arg7 harg7 arg8 harg8) K := by
  simp only [cc0__layer_kernel_eq_skeleton]; unfold cc0__layer_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover0 _)
  iexists _; isplitr
  swap; · iexact H7
  ipureintro
  exact View.read_writes_eq_canon _ _ _ (cover0 _)

/-! ## The launch's proof data -/

/-- The proof data of launch 0 on core `c`: the arrays as the launch finds them; after the body at point `t` each input's
    buffer at its block and each output's at its whole-tile store of the input blocks; the invariant the scoped rest and
    the generator register, untouched; nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
    | ⟨7, _⟩ => out0_7 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any point: the inputs' buffers hold their blocks, so the triple applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ (grid0.coords t) _ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The launch theorem's obligation on the body, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.IdealTile1.lean ====
/-
  One layer's tile kernel as the pipeline runs it, for launch 1 of the program.

  A grid point hands the body eight staging buffers: a tile of 5000 rows of the node embeddings and of the aggregated
  messages, the two 64×64 weight matrices and the two bias vectors (inputs), and two output tiles. The body reads the six
  inputs whole, and stores into the first output the tile's new embeddings and into the second their normalised copy;
  it also reads each output buffer once before storing, a value it never uses. So after the body each output buffer
  holds exactly its one whole-tile store, a pure function of the six input blocks, and every input buffer is as found.
  From that: the proof data of the launch (what each window's buffer holds after every point), and the obligation the
  launch theorem asks of the body at every grid point.
-/
import proofs.«103830_j35493609734828_1_alg».proof.Proof.Gen.KernelIdeal.Launch
import proofs.«103830_j35493609734828_1_alg».proof.Proof.Gen.KernelIdeal.Skeleton
import proofs.«103830_j35493609734828_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the core's buffer contents when the launch is entered
variable (V : (c : Dev nD) → (b : Ref sig .tc) → Buf (Elt F) ((c : Thread nD τ).loc b))

/-! ## The windows' blocks -/

/-- Window `w`'s block at grid point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: where it is not
    fetched its block index has not moved, so the block kept from the point before is this point's. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not: where it is not
    fetched its block index has not moved, so the block kept from the point before is this point's. -/
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not: where it is not
    fetched its block index has not moved, so the block kept from the point before is this point's. -/
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not: where it is not
    fetched its block index has not moved, so the block kept from the point before is this point's. -/
theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not: where it is not
    fetched its block index has not moved, so the block kept from the point before is this point's. -/
theorem before1_4_of {c : Dev nD} (dat : Dat τ (Elt F) Unit ℕ (Pipeline.UD sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not: where it is not
    fetched its block index has not moved, so the block kept from the point before is this point's. -/
theorem before1_5_of {c : Dev nD} (dat : Dat τ (Elt F) Unit ℕ (Pipeline.UD sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev rT1 : Rect S5000x64 := Rect.unit (s := S5000x64) ![0, 0] S5000x64.size inb_S5000x64_S5000x64_0_0
abbrev rM1 : Rect S64x64 := Rect.unit (s := S64x64) ![0, 0] S64x64.size inb_S64x64_S64x64_0_0
abbrev rB1 : Rect S64 := Rect.unit (s := S64) ![0] S64.size inb_S64_S64_0

/-! ## What the body leaves in each output buffer -/

/-- The tile's new embeddings, from the six input blocks (embeddings, messages, the first weight matrix and bias, the
    second weight matrix and bias). -/
def ego1 (x0 x1 : Vec F S5000x64 .f32) (x2 : Vec F S64x64 .f32) (x3 : Vec F S64 .f32) (x4 : Vec F S64x64 .f32) (x5 : Vec F S64 .f32) : FVec F S5000x64 .f32 :=
  k1_pay2 (View.ld x0 rT1) (View.ld x1 rT1) (View.ld x2 rM1) (View.ld x4 rM1) (View.ld x3 rB1) (View.ld x5 rB1)

/-- Their floored squared lengths, one per row. -/
def sq1 (x0 x1 : Vec F S5000x64 .f32) (x2 : Vec F S64x64 .f32) (x3 : Vec F S64 .f32) (x4 : Vec F S64x64 .f32) (x5 : Vec F S64 .f32) : FVec F S5000x1 .f32 :=
  k1_pay3 (View.ld x0 rT1) (View.ld x1 rT1) (View.ld x2 rM1) (View.ld x4 rM1) (View.ld x3 rB1) (View.ld x5 rB1)

/-- Output window 6's buffer after the body: its one whole-tile store, the new embeddings. -/
def out1_6 (x0 x1 : Vec F S5000x64 .f32) (x2 : Vec F S64x64 .f32) (x3 : Vec F S64 .f32) (x4 : Vec F S64x64 .f32) (x5 : Vec F S64 .f32) : Vec F S5000x64 .f32 :=
  View.canon [⟨rT1, ego1 x0 x1 x2 x3 x4 x5⟩]

/-- Output window 7's buffer after the body: its one whole-tile store, the normalised new embeddings. -/
def out1_7 (x0 x1 : Vec F S5000x64 .f32) (x2 : Vec F S64x64 .f32) (x3 : Vec F S64 .f32) (x4 : Vec F S64x64 .f32) (x5 : Vec F S64 .f32) : Vec F S5000x64 .f32 :=
  View.canon [⟨rT1, k1_pay1 (ego1 x0 x1 x2 x3 x4 x5) (sq1 x0 x1 x2 x3 x4 x5)⟩]

/-- A whole-tile store covers the tile. -/
theorem cover1 (p0 : Vec F S5000x64 .f32) (y : S5000x64.Idx) :
    ∃ pc ∈ ([⟨rT1, p0⟩] : List (View.Piece (Elt F) S5000x64 .f32)), y ∈ pc.1.set :=
  View.cover_of_tiled [⟨rT1, p0⟩] S5000x64.size (by rfl) y

/-! ## The body's triple -/

set_option maxHeartbeats 1000000 in
/-- The body on whole staging buffers — the inputs' at contents `x0 … x5`, the outputs' at anything — runs to the
    continuation holding the inputs' as they were and the outputs' at `out1_6`, `out1_7` of the inputs. -/
theorem sound_kernel1 (c : Dev nD) (E : Set ℕ) (i : grid1.Coords)
    (arg1 : Memref sig .tc .vmem S5000x64 .f32) (harg1 : arg1.IsWhole) (arg2 : Memref sig .tc .vmem S5000x64 .f32) (harg2 : arg2.IsWhole)
    (arg3 : Memref sig .tc .vmem S64x64 .f32) (harg3 : arg3.IsWhole) (arg4 : Memref sig .tc .vmem S64 .f32) (harg4 : arg4.IsWhole)
    (arg5 : Memref sig .tc .vmem S64x64 .f32) (harg5 : arg5.IsWhole) (arg6 : Memref sig .tc .vmem S64 .f32) (harg6 : arg6.IsWhole)
    (arg7 : Memref sig .tc .vmem S5000x64 .f32) (harg7 : arg7.IsWhole) (arg8 : Memref sig .tc .vmem S5000x64 .f32) (harg8 : arg8.IsWhole)
    (x0 x1 : Vec F S5000x64 .f32) (x2 : Vec F S64x64 .f32) (x3 : Vec F S64 .f32) (x4 : Vec F S64x64 .f32) (x5 : Vec F S64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out1_6 x0 x1 x2 x3 x4 x5) ∗ owns (c : Thread nD τ) arg8 fullShare (out1_7 x0 x1 x2 x3 x4 x5)) -∗ K ⟨⟩))
      ⊢ wp frame (wpE (defs₀ (F := F)) Variants.none c none) E (cc1__layer_kernel i arg1 harg1 arg2 harg2 arg3 harg3 arg4 harg4 arg5 harg5 arg6 harg6 arg7 harg7 arg8 harg8) K := by
  simp only [cc1__layer_kernel_eq_skeleton]; unfold cc1__layer_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover1 _)
  iexists _; isplitr
  swap; · iexact H7
  ipureintro
  exact View.read_writes_eq_canon _ _ _ (cover1 _)

/-! ## The launch's proof data -/

/-- The proof data of launch 1 on core `c`: the arrays as the launch finds them; after the body at point `t` each input's
    buffer at its block and each output's at its whole-tile store of the input blocks; the invariant the scoped rest and
    the generator register, untouched; nothing owed; full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
    | ⟨7, _⟩ => out1_7 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' buffers hold their blocks, so the triple applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ (grid1.coords t) _ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The launch theorem's obligation on the body, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.IdealTile2.lean ====
/-
  One layer's tile kernel as the pipeline runs it, for launch 2 of the program.

  A grid point hands the body eight staging buffers: a tile of 5000 rows of the node embeddings and of the aggregated
  messages, the two 64×64 weight matrices and the two bias vectors (inputs), and two output tiles. The body reads the six
  inputs whole, and stores into the first output the tile's new embeddings and into the second their normalised copy;
  it also reads each output buffer once before storing, a value it never uses. So after the body each output buffer
  holds exactly its one whole-tile store, a pure function of the six input blocks, and every input buffer is as found.
  From that: the proof data of the launch (what each window's buffer holds after every point), and the obligation the
  launch theorem asks of the body at every grid point.
-/
import proofs.«103830_j35493609734828_1_alg».proof.Proof.Gen.KernelIdeal.Launch
import proofs.«103830_j35493609734828_1_alg».proof.Proof.Gen.KernelIdeal.Skeleton
import proofs.«103830_j35493609734828_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the core's buffer contents when the launch is entered
variable (V : (c : Dev nD) → (b : Ref sig .tc) → Buf (Elt F) ((c : Thread nD τ).loc b))

/-! ## The windows' blocks -/

/-- Window `w`'s block at grid point `t`, read off its array as the launch finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not: where it is not
    fetched its block index has not moved, so the block kept from the point before is this point's. -/
theorem before2_0_of {c : Dev nD} (dat : Dat τ (Elt F) Unit ℕ (Pipeline.UD sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not: where it is not
    fetched its block index has not moved, so the block kept from the point before is this point's. -/
theorem before2_1_of {c : Dev nD} (dat : Dat τ (Elt F) Unit ℕ (Pipeline.UD sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not: where it is not
    fetched its block index has not moved, so the block kept from the point before is this point's. -/
theorem before2_2_of {c : Dev nD} (dat : Dat τ (Elt F) Unit ℕ (Pipeline.UD sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not: where it is not
    fetched its block index has not moved, so the block kept from the point before is this point's. -/
theorem before2_3_of {c : Dev nD} (dat : Dat τ (Elt F) Unit ℕ (Pipeline.UD sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not: where it is not
    fetched its block index has not moved, so the block kept from the point before is this point's. -/
theorem before2_4_of {c : Dev nD} (dat : Dat τ (Elt F) Unit ℕ (Pipeline.UD sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not: where it is not
    fetched its block index has not moved, so the block kept from the point before is this point's. -/
theorem before2_5_of {c : Dev nD} (dat : Dat τ (Elt F) Unit ℕ (Pipeline.UD sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer whole -/

abbrev rT2 : Rect S5000x64 := Rect.unit (s := S5000x64) ![0, 0] S5000x64.size inb_S5000x64_S5000x64_0_0
abbrev rM2 : Rect S64x64 := Rect.unit (s := S64x64) ![0, 0] S64x64.size inb_S64x64_S64x64_0_0
abbrev rB2 : Rect S64 := Rect.unit (s := S64) ![0] S64.size inb_S64_S64_0

/-! ## What the body leaves in each output buffer -/

/-- The tile's new embeddings, from the six input blocks (embeddings, messages, the first weight matrix and bias, the
    second weight matrix and bias). -/
def ego2 (x0 x1 : Vec F S5000x64 .f32) (x2 : Vec F S64x64 .f32) (x3 : Vec F S64 .f32) (x4 : Vec F S64x64 .f32) (x5 : Vec F S64 .f32) : FVec F S5000x64 .f32 :=
  k2_pay2 (View.ld x0 rT2) (View.ld x1 rT2) (View.ld x2 rM2) (View.ld x4 rM2) (View.ld x3 rB2) (View.ld x5 rB2)

/-- Their floored squared lengths, one per row. -/
def sq2 (x0 x1 : Vec F S5000x64 .f32) (x2 : Vec F S64x64 .f32) (x3 : Vec F S64 .f32) (x4 : Vec F S64x64 .f32) (x5 : Vec F S64 .f32) : FVec F S5000x1 .f32 :=
  k2_pay3 (View.ld x0 rT2) (View.ld x1 rT2) (View.ld x2 rM2) (View.ld x4 rM2) (View.ld x3 rB2) (View.ld x5 rB2)

/-- Output window 6's buffer after the body: its one whole-tile store, the new embeddings. -/
def out2_6 (x0 x1 : Vec F S5000x64 .f32) (x2 : Vec F S64x64 .f32) (x3 : Vec F S64 .f32) (x4 : Vec F S64x64 .f32) (x5 : Vec F S64 .f32) : Vec F S5000x64 .f32 :=
  View.canon [⟨rT2, ego2 x0 x1 x2 x3 x4 x5⟩]

/-- Output window 7's buffer after the body: its one whole-tile store, the normalised new embeddings. -/
def out2_7 (x0 x1 : Vec F S5000x64 .f32) (x2 : Vec F S64x64 .f32) (x3 : Vec F S64 .f32) (x4 : Vec F S64x64 .f32) (x5 : Vec F S64 .f32) : Vec F S5000x64 .f32 :=
  View.canon [⟨rT2, k2_pay1 (ego2 x0 x1 x2 x3 x4 x5) (sq2 x0 x1 x2 x3 x4 x5)⟩]

/-- A whole-tile store covers the tile. -/
theorem cover2 (p0 : Vec F S5000x64 .f32) (y : S5000x64.Idx) :
    ∃ pc ∈ ([⟨rT2, p0⟩] : List (View.Piece (Elt F) S5000x64 .f32)), y ∈ pc.1.set :=
  View.cover_of_tiled [⟨rT2, p0⟩] S5000x64.size (by rfl) y

/-! ## The body's triple -/

set_option maxHeartbeats 1000000 in
/-- The body on whole staging buffers — the inputs' at contents `x0 … x5`, the outputs' at anything — runs to the
    continuation holding the inputs' as they were and the outputs' at `out2_6`, `out2_7` of the inputs. -/
theorem sound_kernel2 (c : Dev nD) (E : Set ℕ) (i : grid2.Coords)
    (arg1 : Memref sig .tc .vmem S5000x64 .f32) (harg1 : arg1.IsWhole) (arg2 : Memref sig .tc .vmem S5000x64 .f32) (harg2 : arg2.IsWhole)
    (arg3 : Memref sig .tc .vmem S64x64 .f32) (harg3 : arg3.IsWhole) (arg4 : Memref sig .tc .vmem S64 .f32) (harg4 : arg4.IsWhole)
    (arg5 : Memref sig .tc .vmem S64x64 .f32) (harg5 : arg5.IsWhole) (arg6 : Memref sig .tc .vmem S64 .f32) (harg6 : arg6.IsWhole)
    (arg7 : Memref sig .tc .vmem S5000x64 .f32) (harg7 : arg7.IsWhole) (arg8 : Memref sig .tc .vmem S5000x64 .f32) (harg8 : arg8.IsWhole)
    (x0 x1 : Vec F S5000x64 .f32) (x2 : Vec F S64x64 .f32) (x3 : Vec F S64 .f32) (x4 : Vec F S64x64 .f32) (x5 : Vec F S64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out2_6 x0 x1 x2 x3 x4 x5) ∗ owns (c : Thread nD τ) arg8 fullShare (out2_7 x0 x1 x2 x3 x4 x5)) -∗ K ⟨⟩))
      ⊢ wp frame (wpE (defs₀ (F := F)) Variants.none c none) E (cc2__layer_kernel i arg1 harg1 arg2 harg2 arg3 harg3 arg4 harg4 arg5 harg5 arg6 harg6 arg7 harg7 arg8 harg8) K := by
  simp only [cc2__layer_kernel_eq_skeleton]; unfold cc2__layer_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover2 _)
  iexists _; isplitr
  swap; · iexact H7
  ipureintro
  exact View.read_writes_eq_canon _ _ _ (cover2 _)

/-! ## The launch's proof data -/

/-- The proof data of launch 2 on core `c`: the arrays as the launch finds them; after the body at point `t` each input's
    buffer at its block and each output's at its whole-tile store of the input blocks; the invariant the scoped rest and
    the generator register, untouched; nothing owed; full shares. -/
def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
    | ⟨7, _⟩ => out2_7 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]
theorem after2_7 (c : Dev nD) (t : Fin cfg2.N) : (dat2 V c).after 7 t = out2_7 (iblk2 V c 0 t) (iblk2 V c 1 t) (iblk2 V c 2 t) (iblk2 V c 3 t) (iblk2 V c 4 t) (iblk2 V c 5 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

/-- The body at any point: the inputs' buffers hold their blocks, so the triple applies; the invariant and the core's
    dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ (grid2.coords t) _ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The launch theorem's obligation on the body, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.IdealRun.lean ====
/-
  The whole program's run: four stretches of host operations around three launches of the layer kernel.

  Between two items a core holds every unscoped buffer whole at named contents: the launch memory; then each host
  stretch's operations applied in order; then, after a launch, the same contents with the launch's arrays replaced by what
  its write-backs leave. The contents at the last boundary are what every final memory holds — the three results and,
  because no host operation and no launch writes an argument, each argument as launched.
-/
import proofs.«103830_j35493609734828_1_alg».proof.Proof.IdealTile0
import proofs.«103830_j35493609734828_1_alg».proof.Proof.IdealTile1
import proofs.«103830_j35493609734828_1_alg».proof.Proof.IdealTile2
import proofs.«103830_j35493609734828_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m (c, b)
abbrev V0 : (c : Dev nD) → (b : Ref sig .tc) → Buf (Elt F) ((c : Thread nD τ).loc b) := fun c b => W0 m c b

/-- After the host stretch 0: its operations applied in order. -/
def W1 (c : Dev nD) : Valuation τ sig (Elt F) := StableHlo.after hostOps0 (W0 m c)
abbrev V1 : (c : Dev nD) → (b : Ref sig .tc) → Buf (Elt F) ((c : Thread nD τ).loc b) := fun c b => W1 m c b
theorem W1_of (c : Dev nD) (r : Ref sig .tc) (h : r ∉ hostOps0_W) : W1 m c (Proc.devRef .tc r) = W0 m c (Proc.devRef .tc r) :=
  StableHlo.after_of_writes_sub hostOps0 _ hostOps0_writes h

/-- At launch 0's exit: its arrays at what the pipeline leaves (the inputs as entered, each output's write-backs folded),
    every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the host stretch 1: its operations applied in order. -/
def W3 (c : Dev nD) : Valuation τ sig (Elt F) := StableHlo.after hostOps1 (W2 m c)
abbrev V3 : (c : Dev nD) → (b : Ref sig .tc) → Buf (Elt F) ((c : Thread nD τ).loc b) := fun c b => W3 m c b
theorem W3_of (c : Dev nD) (r : Ref sig .tc) (h : r ∉ hostOps1_W) : W3 m c (Proc.devRef .tc r) = W2 m c (Proc.devRef .tc r) :=
  StableHlo.after_of_writes_sub hostOps1 _ hostOps1_writes h

/-- At launch 1's exit: its arrays at what the pipeline leaves (the inputs as entered, each output's write-backs folded),
    every other buffer as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the host stretch 2: its operations applied in order. -/
def W5 (c : Dev nD) : Valuation τ sig (Elt F) := StableHlo.after hostOps2 (W4 m c)
abbrev V5 : (c : Dev nD) → (b : Ref sig .tc) → Buf (Elt F) ((c : Thread nD τ).loc b) := fun c b => W5 m c b
theorem W5_of (c : Dev nD) (r : Ref sig .tc) (h : r ∉ hostOps2_W) : W5 m c (Proc.devRef .tc r) = W4 m c (Proc.devRef .tc r) :=
  StableHlo.after_of_writes_sub hostOps2 _ hostOps2_writes h

/-- At launch 2's exit: its arrays at what the pipeline leaves (the inputs as entered, each output's write-backs folded),
    every other buffer as entered. -/
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev V6 : (c : Dev nD) → (b : Ref sig .tc) → Buf (Elt F) ((c : Thread nD τ).loc b) := fun c b => W6 m c b
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)

/-- After the host stretch 3: its operations applied in order. -/
def W7 (c : Dev nD) : Valuation τ sig (Elt F) := StableHlo.after hostOps3 (W6 m c)
abbrev V7 : (c : Dev nD) → (b : Ref sig .tc) → Buf (Elt F) ((c : Thread nD τ).loc b) := fun c b => W7 m c b
theorem W7_of (c : Dev nD) (r : Ref sig .tc) (h : r ∉ hostOps3_W) : W7 m c (Proc.devRef .tc r) = W6 m c (Proc.devRef .tc r) :=
  StableHlo.after_of_writes_sub hostOps3 _ hostOps3_writes h

/-! ### The arguments end as launched -/

theorem W7_main_arg0 (c : Dev nD) : W7 m c (Proc.devRef .tc main_arg0) = m ((c : Thread nD τ).loc main_arg0) :=
  calc W7 m c (Proc.devRef .tc main_arg0)
    _ = W6 m c (Proc.devRef .tc main_arg0) := W7_of m c main_arg0 (by decide)
    _ = W5 m c (Proc.devRef .tc main_arg0) := W6_of_ne m c main_arg0 (by decide)
    _ = W4 m c (Proc.devRef .tc main_arg0) := W5_of m c main_arg0 (by decide)
    _ = W3 m c (Proc.devRef .tc main_arg0) := W4_of_ne m c main_arg0 (by decide)
    _ = W2 m c (Proc.devRef .tc main_arg0) := W3_of m c main_arg0 (by decide)
    _ = W1 m c (Proc.devRef .tc main_arg0) := W2_of_ne m c main_arg0 (by decide)
    _ = W0 m c (Proc.devRef .tc main_arg0) := W1_of m c main_arg0 (by decide)
    _ = m ((c : Thread nD τ).loc main_arg0) := rfl
theorem W7_main_arg1 (c : Dev nD) : W7 m c (Proc.devRef .tc main_arg1) = m ((c : Thread nD τ).loc main_arg1) :=
  calc W7 m c (Proc.devRef .tc main_arg1)
    _ = W6 m c (Proc.devRef .tc main_arg1) := W7_of m c main_arg1 (by decide)
    _ = W5 m c (Proc.devRef .tc main_arg1) := W6_of_ne m c main_arg1 (by decide)
    _ = W4 m c (Proc.devRef .tc main_arg1) := W5_of m c main_arg1 (by decide)
    _ = W3 m c (Proc.devRef .tc main_arg1) := W4_of_ne m c main_arg1 (by decide)
    _ = W2 m c (Proc.devRef .tc main_arg1) := W3_of m c main_arg1 (by decide)
    _ = W1 m c (Proc.devRef .tc main_arg1) := W2_of_ne m c main_arg1 (by decide)
    _ = W0 m c (Proc.devRef .tc main_arg1) := W1_of m c main_arg1 (by decide)
    _ = m ((c : Thread nD τ).loc main_arg1) := rfl
theorem W7_main_arg2 (c : Dev nD) : W7 m c (Proc.devRef .tc main_arg2) = m ((c : Thread nD τ).loc main_arg2) :=
  calc W7 m c (Proc.devRef .tc main_arg2)
    _ = W6 m c (Proc.devRef .tc main_arg2) := W7_of m c main_arg2 (by decide)
    _ = W5 m c (Proc.devRef .tc main_arg2) := W6_of_ne m c main_arg2 (by decide)
    _ = W4 m c (Proc.devRef .tc main_arg2) := W5_of m c main_arg2 (by decide)
    _ = W3 m c (Proc.devRef .tc main_arg2) := W4_of_ne m c main_arg2 (by decide)
    _ = W2 m c (Proc.devRef .tc main_arg2) := W3_of m c main_arg2 (by decide)
    _ = W1 m c (Proc.devRef .tc main_arg2) := W2_of_ne m c main_arg2 (by decide)
    _ = W0 m c (Proc.devRef .tc main_arg2) := W1_of m c main_arg2 (by decide)
    _ = m ((c : Thread nD τ).loc main_arg2) := rfl
theorem W7_main_arg3 (c : Dev nD) : W7 m c (Proc.devRef .tc main_arg3) = m ((c : Thread nD τ).loc main_arg3) :=
  calc W7 m c (Proc.devRef .tc main_arg3)
    _ = W6 m c (Proc.devRef .tc main_arg3) := W7_of m c main_arg3 (by decide)
    _ = W5 m c (Proc.devRef .tc main_arg3) := W6_of_ne m c main_arg3 (by decide)
    _ = W4 m c (Proc.devRef .tc main_arg3) := W5_of m c main_arg3 (by decide)
    _ = W3 m c (Proc.devRef .tc main_arg3) := W4_of_ne m c main_arg3 (by decide)
    _ = W2 m c (Proc.devRef .tc main_arg3) := W3_of m c main_arg3 (by decide)
    _ = W1 m c (Proc.devRef .tc main_arg3) := W2_of_ne m c main_arg3 (by decide)
    _ = W0 m c (Proc.devRef .tc main_arg3) := W1_of m c main_arg3 (by decide)
    _ = m ((c : Thread nD τ).loc main_arg3) := rfl
theorem W7_main_arg4 (c : Dev nD) : W7 m c (Proc.devRef .tc main_arg4) = m ((c : Thread nD τ).loc main_arg4) :=
  calc W7 m c (Proc.devRef .tc main_arg4)
    _ = W6 m c (Proc.devRef .tc main_arg4) := W7_of m c main_arg4 (by decide)
    _ = W5 m c (Proc.devRef .tc main_arg4) := W6_of_ne m c main_arg4 (by decide)
    _ = W4 m c (Proc.devRef .tc main_arg4) := W5_of m c main_arg4 (by decide)
    _ = W3 m c (Proc.devRef .tc main_arg4) := W4_of_ne m c main_arg4 (by decide)
    _ = W2 m c (Proc.devRef .tc main_arg4) := W3_of m c main_arg4 (by decide)
    _ = W1 m c (Proc.devRef .tc main_arg4) := W2_of_ne m c main_arg4 (by decide)
    _ = W0 m c (Proc.devRef .tc main_arg4) := W1_of m c main_arg4 (by decide)
    _ = m ((c : Thread nD τ).loc main_arg4) := rfl
theorem W7_main_arg5 (c : Dev nD) : W7 m c (Proc.devRef .tc main_arg5) = m ((c : Thread nD τ).loc main_arg5) :=
  calc W7 m c (Proc.devRef .tc main_arg5)
    _ = W6 m c (Proc.devRef .tc main_arg5) := W7_of m c main_arg5 (by decide)
    _ = W5 m c (Proc.devRef .tc main_arg5) := W6_of_ne m c main_arg5 (by decide)
    _ = W4 m c (Proc.devRef .tc main_arg5) := W5_of m c main_arg5 (by decide)
    _ = W3 m c (Proc.devRef .tc main_arg5) := W4_of_ne m c main_arg5 (by decide)
    _ = W2 m c (Proc.devRef .tc main_arg5) := W3_of m c main_arg5 (by decide)
    _ = W1 m c (Proc.devRef .tc main_arg5) := W2_of_ne m c main_arg5 (by decide)
    _ = W0 m c (Proc.devRef .tc main_arg5) := W1_of m c main_arg5 (by decide)
    _ = m ((c : Thread nD τ).loc main_arg5) := rfl
theorem W7_main_arg6 (c : Dev nD) : W7 m c (Proc.devRef .tc main_arg6) = m ((c : Thread nD τ).loc main_arg6) :=
  calc W7 m c (Proc.devRef .tc main_arg6)
    _ = W6 m c (Proc.devRef .tc main_arg6) := W7_of m c main_arg6 (by decide)
    _ = W5 m c (Proc.devRef .tc main_arg6) := W6_of_ne m c main_arg6 (by decide)
    _ = W4 m c (Proc.devRef .tc main_arg6) := W5_of m c main_arg6 (by decide)
    _ = W3 m c (Proc.devRef .tc main_arg6) := W4_of_ne m c main_arg6 (by decide)
    _ = W2 m c (Proc.devRef .tc main_arg6) := W3_of m c main_arg6 (by decide)
    _ = W1 m c (Proc.devRef .tc main_arg6) := W2_of_ne m c main_arg6 (by decide)
    _ = W0 m c (Proc.devRef .tc main_arg6) := W1_of m c main_arg6 (by decide)
    _ = m ((c : Thread nD τ).loc main_arg6) := rfl
theorem W7_main_arg7 (c : Dev nD) : W7 m c (Proc.devRef .tc main_arg7) = m ((c : Thread nD τ).loc main_arg7) :=
  calc W7 m c (Proc.devRef .tc main_arg7)
    _ = W6 m c (Proc.devRef .tc main_arg7) := W7_of m c main_arg7 (by decide)
    _ = W5 m c (Proc.devRef .tc main_arg7) := W6_of_ne m c main_arg7 (by decide)
    _ = W4 m c (Proc.devRef .tc main_arg7) := W5_of m c main_arg7 (by decide)
    _ = W3 m c (Proc.devRef .tc main_arg7) := W4_of_ne m c main_arg7 (by decide)
    _ = W2 m c (Proc.devRef .tc main_arg7) := W3_of m c main_arg7 (by decide)
    _ = W1 m c (Proc.devRef .tc main_arg7) := W2_of_ne m c main_arg7 (by decide)
    _ = W0 m c (Proc.devRef .tc main_arg7) := W1_of m c main_arg7 (by decide)
    _ = m ((c : Thread nD τ).loc main_arg7) := rfl
theorem W7_main_arg8 (c : Dev nD) : W7 m c (Proc.devRef .tc main_arg8) = m ((c : Thread nD τ).loc main_arg8) :=
  calc W7 m c (Proc.devRef .tc main_arg8)
    _ = W6 m c (Proc.devRef .tc main_arg8) := W7_of m c main_arg8 (by decide)
    _ = W5 m c (Proc.devRef .tc main_arg8) := W6_of_ne m c main_arg8 (by decide)
    _ = W4 m c (Proc.devRef .tc main_arg8) := W5_of m c main_arg8 (by decide)
    _ = W3 m c (Proc.devRef .tc main_arg8) := W4_of_ne m c main_arg8 (by decide)
    _ = W2 m c (Proc.devRef .tc main_arg8) := W3_of m c main_arg8 (by decide)
    _ = W1 m c (Proc.devRef .tc main_arg8) := W2_of_ne m c main_arg8 (by decide)
    _ = W0 m c (Proc.devRef .tc main_arg8) := W1_of m c main_arg8 (by decide)
    _ = m ((c : Thread nD τ).loc main_arg8) := rfl
theorem W7_main_arg9 (c : Dev nD) : W7 m c (Proc.devRef .tc main_arg9) = m ((c : Thread nD τ).loc main_arg9) :=
  calc W7 m c (Proc.devRef .tc main_arg9)
    _ = W6 m c (Proc.devRef .tc main_arg9) := W7_of m c main_arg9 (by decide)
    _ = W5 m c (Proc.devRef .tc main_arg9) := W6_of_ne m c main_arg9 (by decide)
    _ = W4 m c (Proc.devRef .tc main_arg9) := W5_of m c main_arg9 (by decide)
    _ = W3 m c (Proc.devRef .tc main_arg9) := W4_of_ne m c main_arg9 (by decide)
    _ = W2 m c (Proc.devRef .tc main_arg9) := W3_of m c main_arg9 (by decide)
    _ = W1 m c (Proc.devRef .tc main_arg9) := W2_of_ne m c main_arg9 (by decide)
    _ = W0 m c (Proc.devRef .tc main_arg9) := W1_of m c main_arg9 (by decide)
    _ = m ((c : Thread nD τ).loc main_arg9) := rfl
theorem W7_main_arg10 (c : Dev nD) : W7 m c (Proc.devRef .tc main_arg10) = m ((c : Thread nD τ).loc main_arg10) :=
  calc W7 m c (Proc.devRef .tc main_arg10)
    _ = W6 m c (Proc.devRef .tc main_arg10) := W7_of m c main_arg10 (by decide)
    _ = W5 m c (Proc.devRef .tc main_arg10) := W6_of_ne m c main_arg10 (by decide)
    _ = W4 m c (Proc.devRef .tc main_arg10) := W5_of m c main_arg10 (by decide)
    _ = W3 m c (Proc.devRef .tc main_arg10) := W4_of_ne m c main_arg10 (by decide)
    _ = W2 m c (Proc.devRef .tc main_arg10) := W3_of m c main_arg10 (by decide)
    _ = W1 m c (Proc.devRef .tc main_arg10) := W2_of_ne m c main_arg10 (by decide)
    _ = W0 m c (Proc.devRef .tc main_arg10) := W1_of m c main_arg10 (by decide)
    _ = m ((c : Thread nD τ).loc main_arg10) := rfl

/-! ## The proof data family and the thread state -/

abbrev adm : (p : Fin 3) → (pcfgs (F := F) p).Adm := fun p => (cfgs p).toPCfg_adm
/-- Every launch's proof data, each at the contents its launch is entered with. -/
def pdats : (p : Fin 3) → (c : Dev nD) → Dat τ (Elt F) Unit ℕ (Pipeline.UD sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
abbrev 𝒱₀ : Variants := Variants.none
abbrev L : GSem nD τ sig → Finset Unit := fun _ => ∅
abbrev lv : GSem nD τ sig → Unit → ℕ := fun _ _ => 0
/-- What rides beside the buffers through every item: the core's generator register at some state, and nothing owed. -/
abbrev R (c : Dev nD) : sProp 𝕄 := iprop((∃ r, prngReg c r) ∗ ∃ W, owes (c : Thread nD τ) (0 : CellTallies nD τ sig Unit) W)
/-- A host stretch as an item: its operations over the unscoped buffers from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W7 m c) ∗ ∃ r, prngReg c r)

/-! ## The launches as items -/

set_option backward.isDefEq.respectTransparency.types false in
/-- Launch 0 over the thread state: entered with every unscoped buffer at the contents of the boundary before it,
    left with them at the contents of the boundary after it. Its arrays are split out of the unscoped buffers and put back
    at what the write-backs leave; the generator register goes into the launch's invariant and comes out; nothing is owed;
    the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := Pipeline.UD sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 over the thread state: entered with every unscoped buffer at the contents of the boundary before it,
    left with them at the contents of the boundary after it. Its arrays are split out of the unscoped buffers and put back
    at what the write-backs leave; the generator register goes into the launch's invariant and comes out; nothing is owed;
    the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := Pipeline.UD sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 2 over the thread state: entered with every unscoped buffer at the contents of the boundary before it,
    left with them at the contents of the boundary after it. Its arrays are split out of the unscoped buffers and put back
    at what the write-backs leave; the generator register goes into the launch's invariant and comes out; nothing is owed;
    the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := Pipeline.UD sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := Pipeline.UD sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as items, and the run -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)) ]

set_option backward.isDefEq.respectTransparency.types false in
/-- THE RUN. From any memory with zero counters every weakly fair execution of the program terminates, nothing faulting,
    and every final memory holds each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pdats m) () cellOf_inj embL defs₀ 𝒱₀ L lv m ρ main (segs m)
    (fun c Q => by
      rewrite [main_chain c, Pipeline.Seg.run_eq_chain,
        show (segs m).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c => h c)

/-- The frame: every argument's buffer ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_arg0 (by decide))).trans (W7_main_arg0 m c),
     (h c _ (mem_uc main_arg1 (by decide))).trans (W7_main_arg1 m c),
     (h c _ (mem_uc main_arg2 (by decide))).trans (W7_main_arg2 m c),
     (h c _ (mem_uc main_arg3 (by decide))).trans (W7_main_arg3 m c),
     (h c _ (mem_uc main_arg4 (by decide))).trans (W7_main_arg4 m c),
     (h c _ (mem_uc main_arg5 (by decide))).trans (W7_main_arg5 m c),
     (h c _ (mem_uc main_arg6 (by decide))).trans (W7_main_arg6 m c),
     (h c _ (mem_uc main_arg7 (by decide))).trans (W7_main_arg7 m c),
     (h c _ (mem_uc main_arg8 (by decide))).trans (W7_main_arg8 m c),
     (h c _ (mem_uc main_arg9 (by decide))).trans (W7_main_arg9 m c),
     (h c _ (mem_uc main_arg10 (by decide))).trans (W7_main_arg10 m c)⟩) (run_all m ρ)

end Cert.KernelIdeal.Hand

end
-- ==== Proof.LayerRow.lean ====
/-
  One node's layer, row-wise, over the extended reals.

  A node carries an embedding `e : Fin 64 → EReal` and an aggregated neighbourhood message `s : Fin 64 → EReal`.
  The layer forms two affine images, `s · W_gc + b_gc` and `(e ⊙ s) · W_bi + b_bi`, passes each through the
  leaky ReLU of slope 0.2 (`x` where `x ≥ 0`, else `0.2 · x`), and adds them: the node's new embedding. Its
  normalised copy is the new embedding times the reciprocal square root of its squared length, the squared length
  floored at 1e-12. Everything is a function of ONE row of each node array and of the two weight matrices and bias
  vectors, so a statement about a tile of rows and a statement about the whole node array meet here.
-/
import Idealize.ShloMosaic.PureOps.Ideal
import Idealize.ShloMosaic.PureOps.Ideal.Laws

noncomputable section

namespace Cert.LayerRow

open Idealize.ShloMosaic

/-- The f32 words the programs spell: the slope 0.2, the floor 1e-12, and zero. -/
def alpha : EReal := Ideal.ofBits .f32 0x3E4CCCCD#32
def floorSq : EReal := Ideal.ofBits .f32 0x2B8CBCCC#32
def zero32 : EReal := Ideal.ofBits .f32 0x00000000#32

/-- Leaky ReLU as both programs spell it: `x` where `x ≥ 0`, else `α · x`. -/
def lrelu (x : EReal) : EReal := Scalar.select (Ideal.cmp .oge x zero32) x (alpha * x)

/-- One output feature of an affine map: `Σ_k a k · W k j + b j`. -/
def affine (a : Fin 64 → EReal) (W : Fin 64 → Fin 64 → EReal) (b : Fin 64 → EReal) (j : Fin 64) : EReal :=
  (∑ k : Fin 64, a k * W k j) + b j

/-- A node's new embedding: `lrelu (s · W_gc + b_gc) + lrelu ((e ⊙ s) · W_bi + b_bi)`. -/
def egoNew (e s : Fin 64 → EReal) (Wg : Fin 64 → Fin 64 → EReal) (bg : Fin 64 → EReal)
    (Wb : Fin 64 → Fin 64 → EReal) (bb : Fin 64 → EReal) (j : Fin 64) : EReal :=
  lrelu (affine s Wg bg j) + lrelu (affine (fun k => e k * s k) Wb bb j)

/-- The squared length of a row, summed from zero and floored at 1e-12. -/
def sqFloor (x : Fin 64 → EReal) : EReal := max (zero32 + ∑ j : Fin 64, x j * x j) floorSq

/-- The normalised new embedding: the new embedding times `rsqrt` of its floored squared length. -/
def normed (e s : Fin 64 → EReal) (Wg : Fin 64 → Fin 64 → EReal) (bg : Fin 64 → EReal)
    (Wb : Fin 64 → Fin 64 → EReal) (bb : Fin 64 → EReal) (j : Fin 64) : EReal :=
  egoNew e s Wg bg Wb bb j * Ideal.rsqrt (sqFloor (egoNew e s Wg bg Wb bb))

end Cert.LayerRow

end
-- ==== Proof.KernelRow.lean ====
/-
  The kernel's arithmetic on a tile of rows, read one row at a time, over the extended reals.

  A tile holds 5000 rows of the two node arrays, the embeddings `ego` and the aggregated messages `side`. At row `p` and
  feature `q` the tile's new embedding is

      lrelu (Σ_k side[p,k] · W_gc[k,q] + b_gc[q]) + lrelu (Σ_k (ego[p,k] · side[p,k]) · W_bi[k,q] + b_bi[q]) :

  a product of the tile with a 64 × 64 matrix, accumulated into zero, is at `(p, q)` the dot product of row `p` with column
  `q` (the change of float format in front of the product is the identity on extended reals), and a bias, one vector laid
  along every row, is read at `q`. The squared length of row `p` is the sum of the 64 squared entries of that row, kept as a
  one-column array and floored at 1e-12; the normalised embedding multiplies every entry of row `p` by the reciprocal square
  root of the column's entry of row `p`. So each of the three arrays a tile computes is, at row `p`, a function of row `p` of
  the two node tiles and of the weights alone: the row-wise layer `Cert.LayerRow.egoNew`, `sqFloor`, `normed`. The three layers
  are one text, so the statement for the first carries over to the other two by definitional equality.
-/
import proofs.«103830_j35493609734828_1_alg».proof.Proof.Gen.KernelIdeal.Skeleton
import proofs.«103830_j35493609734828_1_alg».proof.Proof.LayerRow
import Idealize.ShloMosaic.Lib.ValueIdx
import Idealize.ShloMosaic.Lib.Pipeline.Value
import Idealize.ShloMosaic.Lib.ValueLayout
import Idealize.ShloMosaic.PureOps.Ideal.Laws

noncomputable section

namespace Cert.KernelRow

open Idealize.ShloMosaic Idealize.ShloMosaic.ValueIdx Cert.KernelIdeal Cert.KernelIdeal.Gen

/-- The dimension numbers of both products: rows × (64 contracted) times (64 contracted) × columns. -/
abbrev D : DotDims S5000x64 S64x64 S5000x64 := dot_S5000x64_S64x64_S5000x64_1_0_0_1_n_n

/-! ## The operand indices of the product at an output index -/

/-- The left operand is read in the output's row … -/
theorem lhs_row (i : S5000x64.Idx) (c : D.contr.Idx) : (D.lhsIdx i c 0).val = (i 0).val := by
  unfold DotDims.lhsIdx
  rw [dif_neg (show ¬(0 : Fin S5000x64.rank) ∈ D.lhsBatch by decide), dif_pos (show (0 : Fin S5000x64.rank) ∈ D.lhsNonContracting by decide)]
  rfl

/-- … at the contracted position; -/
theorem lhs_col (i : S5000x64.Idx) (c : D.contr.Idx) : (D.lhsIdx i c 1).val = (c ⟨0, by decide⟩).val :=
  D.lhsIdx_val_of_single rfl i c

/-- the right operand is read at the contracted position … -/
theorem rhs_row (i : S5000x64.Idx) (c : D.contr.Idx) : (D.rhsIdx i c 0).val = (c ⟨0, by decide⟩).val :=
  D.rhsIdx_val_of_single rfl i c

/-- … in the output's column. -/
theorem rhs_col (i : S5000x64.Idx) (c : D.contr.Idx) : (D.rhsIdx i c 1).val = (i 1).val := by
  unfold DotDims.rhsIdx
  rw [dif_neg (show ¬(1 : Fin S64x64.rank) ∈ D.rhsBatch by decide), dif_pos (show (1 : Fin S64x64.rank) ∈ D.rhsNonContracting by decide)]
  rfl

/-- A tile times a 64 × 64 matrix, accumulated into zero, at row `p` and column `q`: the row's dot product with
    the column. -/
theorem matmul_row {φ₁ φ₂ : FTy} (A : FVec Ideal S5000x64 φ₁) (W : FVec Ideal S64x64 φ₂) (p : Fin 5000) (q : Fin 64) :
    matmul D none A W (constant (F := Ideal) S5000x64 .f32 0x00000000#32) (ix2 p q)
      = ∑ k : Fin 64, A (ix2 p k) * W (ix2 k q) := by
  show FloatOps.matmul D none A W (constant (F := Ideal) S5000x64 .f32 0x00000000#32) (ix2 p q) = _
  rw [Ideal.matmul_constant_zero_apply, ← Equiv.sum_comp (contrEquiv1 D 64 rfl rfl).symm]
  refine Finset.sum_congr rfl fun k _ => ?_
  have hk := contrEquiv1_symm_val D 64 rfl rfl k
  have el : D.lhsIdx (ix2 p q) ((contrEquiv1 D 64 rfl rfl).symm k) = ix2 p k := funext fun a => Fin.ext (by
    match a with
    | ⟨0, _⟩ => exact lhs_row _ _
    | ⟨1, _⟩ => exact (lhs_col _ _).trans hk)
  have er : D.rhsIdx (ix2 p q) ((contrEquiv1 D 64 rfl rfl).symm k) = ix2 k q := funext fun a => Fin.ext (by
    match a with
    | ⟨0, _⟩ => exact (rhs_row _ _).trans hk
    | ⟨1, _⟩ => exact rhs_col _ _)
  rw [el, er]

/-! ## The column forms of a row reduction kept as a column -/

section Layout
variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- The reduced index `p` with the lane `k` put back is `(p, k)`. -/
theorem lift_row (h : S5000x64.Reduces [1] S5000) (p : Fin 5000) (k : Fin 64) : h.lift (ix1 p) k = ix2 p k := by
  funext c; apply Fin.ext
  fin_cases c <;> rfl

/-- The lane sum of a tile at row `p`: the sum of the row's 64 entries (the accumulator word is zero's, and the sum
    starts from nothing). -/
theorem rowSum (x : FVec Ideal S5000x64 .f32) (h : S5000x64.Reduces [1] S5000) (hφ : FKind.Formats .f32)
    (hacc : (0x00000000#32 : BitVec 32) = FKind.add.neutral .f32 hφ) (p : Fin 5000) :
    multiReduction (F := Ideal) .add [1] S5000 x 0x00000000#32 h hφ hacc (ix1 p) = ∑ k : Fin 64, x (ix2 p k) :=
  (Ideal.multiReduction_add_single x 0x00000000#32 h hφ hacc (ix1 p)).trans
    (Finset.sum_congr rfl fun k _ => congrArg x (lift_row h p k))

/-! ## The new embedding of a tile, row by row -/

theorem pay2_apply (v0 v2 : Vec Ideal S5000x64 .f32) (v4 v7 : Vec Ideal S64x64 .f32) (v10 v12 : Vec Ideal S64 .f32)
    (p : Fin 5000) (q : Fin 64) :
    k0_pay2 (F := Ideal) v0 v2 v4 v7 v10 v12 (ix2 p q)
      = Cert.LayerRow.egoNew (fun k => v0 (ix2 p k)) (fun k => v2 (ix2 p k)) (fun k j => v4 (ix2 k j))
          (fun j => v10 (ix1 j)) (fun k j => v7 (ix2 k j)) (fun j => v12 (ix1 j)) q := by
  unfold k0_pay2
  simp only [shapeCast_self, addf_apply, select_apply, cmpf_apply, mulf_apply, broadcast_apply, matmul_row, truncf_apply,
    broadcastTo_1b_ab_apply, shapeCast_a_1a_apply]
  rfl

/-! ## The floored squared length of a row, kept as a column -/

theorem pay3_apply (v0 v2 : Vec Ideal S5000x64 .f32) (v4 v7 : Vec Ideal S64x64 .f32) (v10 v12 : Vec Ideal S64 .f32)
    (p : Fin 5000) (u : Fin 1) :
    k0_pay3 (F := Ideal) v0 v2 v4 v7 v10 v12 (ix2 p u)
      = Cert.LayerRow.sqFloor (Cert.LayerRow.egoNew (fun k => v0 (ix2 p k)) (fun k => v2 (ix2 p k)) (fun k j => v4 (ix2 k j))
          (fun j => v10 (ix1 j)) (fun k j => v7 (ix2 k j)) (fun j => v12 (ix1 j))) := by
  unfold k0_pay3
  simp only [maximumf_apply, broadcast_apply, shapeCast_a_a1_apply]
  refine (congrArg₂ max (rowSum _ _ _ _ p) rfl).trans ?_
  simp only [mulf_apply, pay2_apply]
  unfold Cert.LayerRow.sqFloor Cert.LayerRow.zero32
  rw [Ideal.ofBits_zero_f32, zero_add]
  rfl

/-! ## The normalised embedding of a tile, row by row -/

theorem pay1_apply (v0 v2 : Vec Ideal S5000x64 .f32) (v4 v7 : Vec Ideal S64x64 .f32) (v10 v12 : Vec Ideal S64 .f32)
    (p : Fin 5000) (q : Fin 64) :
    k0_pay1 (F := Ideal) (k0_pay2 v0 v2 v4 v7 v10 v12) (k0_pay3 v0 v2 v4 v7 v10 v12) (ix2 p q)
      = Cert.LayerRow.normed (fun k => v0 (ix2 p k)) (fun k => v2 (ix2 p k)) (fun k j => v4 (ix2 k j))
          (fun j => v10 (ix1 j)) (fun k j => v7 (ix2 k j)) (fun j => v12 (ix1 j)) q := by
  unfold k0_pay1
  simp only [mulf_apply, broadcastTo_a1_ab_apply]
  show k0_pay2 (F := Ideal) v0 v2 v4 v7 v10 v12 (ix2 p q)
      * Ideal.rsqrt (k0_pay3 (F := Ideal) v0 v2 v4 v7 v10 v12 (ix2 p (0 : Fin 1))) = _
  rw [pay2_apply, pay3_apply]
  rfl

/-! ## The second and third layers: the same text -/

theorem k1_pay2_eq : @k1_pay2 = @k0_pay2 := rfl
theorem k1_pay3_eq : @k1_pay3 = @k0_pay3 := by
  unfold k1_pay3 k0_pay3
  rw [k1_pay2_eq]
theorem k1_pay1_eq : @k1_pay1 = @k0_pay1 := rfl

theorem k1_pay2_apply (v0 v2 : Vec Ideal S5000x64 .f32) (v4 v7 : Vec Ideal S64x64 .f32) (v10 v12 : Vec Ideal S64 .f32)
    (p : Fin 5000) (q : Fin 64) :
    k1_pay2 (F := Ideal) v0 v2 v4 v7 v10 v12 (ix2 p q)
      = Cert.LayerRow.egoNew (fun k => v0 (ix2 p k)) (fun k => v2 (ix2 p k)) (fun k j => v4 (ix2 k j))
          (fun j => v10 (ix1 j)) (fun k j => v7 (ix2 k j)) (fun j => v12 (ix1 j)) q := by
  rw [k1_pay2_eq]; exact pay2_apply v0 v2 v4 v7 v10 v12 p q

theorem k1_pay3_apply (v0 v2 : Vec Ideal S5000x64 .f32) (v4 v7 : Vec Ideal S64x64 .f32) (v10 v12 : Vec Ideal S64 .f32)
    (p : Fin 5000) (u : Fin 1) :
    k1_pay3 (F := Ideal) v0 v2 v4 v7 v10 v12 (ix2 p u)
      = Cert.LayerRow.sqFloor (Cert.LayerRow.egoNew (fun k => v0 (ix2 p k)) (fun k => v2 (ix2 p k)) (fun k j => v4 (ix2 k j))
          (fun j => v10 (ix1 j)) (fun k j => v7 (ix2 k j)) (fun j => v12 (ix1 j))) := by
  rw [k1_pay3_eq]; exact pay3_apply v0 v2 v4 v7 v10 v12 p u

theorem k1_pay1_apply (v0 v2 : Vec Ideal S5000x64 .f32) (v4 v7 : Vec Ideal S64x64 .f32) (v10 v12 : Vec Ideal S64 .f32)
    (p : Fin 5000) (q : Fin 64) :
    k1_pay1 (F := Ideal) (k1_pay2 v0 v2 v4 v7 v10 v12) (k1_pay3 v0 v2 v4 v7 v10 v12) (ix2 p q)
      = Cert.LayerRow.normed (fun k => v0 (ix2 p k)) (fun k => v2 (ix2 p k)) (fun k j => v4 (ix2 k j))
          (fun j => v10 (ix1 j)) (fun k j => v7 (ix2 k j)) (fun j => v12 (ix1 j)) q := by
  rw [k1_pay1_eq, k1_pay2_eq, k1_pay3_eq]; exact pay1_apply v0 v2 v4 v7 v10 v12 p q

theorem k2_pay2_eq : @k2_pay2 = @k0_pay2 := rfl
theorem k2_pay3_eq : @k2_pay3 = @k0_pay3 := by
  unfold k2_pay3 k0_pay3
  rw [k2_pay2_eq]
theorem k2_pay1_eq : @k2_pay1 = @k0_pay1 := rfl

theorem k2_pay2_apply (v0 v2 : Vec Ideal S5000x64 .f32) (v4 v7 : Vec Ideal S64x64 .f32) (v10 v12 : Vec Ideal S64 .f32)
    (p : Fin 5000) (q : Fin 64) :
    k2_pay2 (F := Ideal) v0 v2 v4 v7 v10 v12 (ix2 p q)
      = Cert.LayerRow.egoNew (fun k => v0 (ix2 p k)) (fun k => v2 (ix2 p k)) (fun k j => v4 (ix2 k j))
          (fun j => v10 (ix1 j)) (fun k j => v7 (ix2 k j)) (fun j => v12 (ix1 j)) q := by
  rw [k2_pay2_eq]; exact pay2_apply v0 v2 v4 v7 v10 v12 p q

theorem k2_pay3_apply (v0 v2 : Vec Ideal S5000x64 .f32) (v4 v7 : Vec Ideal S64x64 .f32) (v10 v12 : Vec Ideal S64 .f32)
    (p : Fin 5000) (u : Fin 1) :
    k2_pay3 (F := Ideal) v0 v2 v4 v7 v10 v12 (ix2 p u)
      = Cert.LayerRow.sqFloor (Cert.LayerRow.egoNew (fun k => v0 (ix2 p k)) (fun k => v2 (ix2 p k)) (fun k j => v4 (ix2 k j))
          (fun j => v10 (ix1 j)) (fun k j => v7 (ix2 k j)) (fun j => v12 (ix1 j))) := by
  rw [k2_pay3_eq]; exact pay3_apply v0 v2 v4 v7 v10 v12 p u

theorem k2_pay1_apply (v0 v2 : Vec Ideal S5000x64 .f32) (v4 v7 : Vec Ideal S64x64 .f32) (v10 v12 : Vec Ideal S64 .f32)
    (p : Fin 5000) (q : Fin 64) :
    k2_pay1 (F := Ideal) (k2_pay2 v0 v2 v4 v7 v10 v12) (k2_pay3 v0 v2 v4 v7 v10 v12) (ix2 p q)
      = Cert.LayerRow.normed (fun k => v0 (ix2 p k)) (fun k => v2 (ix2 p k)) (fun k j => v4 (ix2 k j))
          (fun j => v10 (ix1 j)) (fun k j => v7 (ix2 k j)) (fun j => v12 (ix1 j)) q := by
  rw [k2_pay1_eq, k2_pay2_eq, k2_pay3_eq]; exact pay1_apply v0 v2 v4 v7 v10 v12 p q

end Cert.KernelRow

end
-- ==== Proof.LayerArr.lean ====
/-
  The layer on whole node arrays: row `i` of the result is the row-wise layer of row `i` of the embeddings and of the
  messages, with the weight matrices and bias vectors read entry by entry. Tiling the rows, or not, does not show here.
-/
import proofs.«103830_j35493609734828_1_alg».proof.Proof.LayerRow
import Idealize.ShloMosaic.Lib.ValueIdx

noncomputable section

namespace Cert.LayerArr

open Idealize.ShloMosaic Idealize.ShloMosaic.ValueIdx

/-- The node arrays' shape, the weight matrices' and the bias vectors'. -/
abbrev Nodes : Shape := ⟨2, ![50000, 64]⟩
abbrev Mat : Shape := ⟨2, ![64, 64]⟩
abbrev Vec64 : Shape := ⟨1, ![64]⟩

/-- Row `i` of a node array; a weight matrix and a bias vector entry by entry. -/
def row (a : Nodes.Idx → EReal) (i : Fin 50000) : Fin 64 → EReal := fun k => a (ix2 i k)
def mat (w : Mat.Idx → EReal) : Fin 64 → Fin 64 → EReal := fun k j => w (ix2 k j)
def vec (b : Vec64.Idx → EReal) : Fin 64 → EReal := fun j => b (ix1 j)

/-- Every node's new embedding. -/
def ego (e s : Nodes.Idx → EReal) (wg : Mat.Idx → EReal) (bg : Vec64.Idx → EReal) (wb : Mat.Idx → EReal) (bb : Vec64.Idx → EReal) :
    Nodes.Idx → EReal :=
  fun i => LayerRow.egoNew (row e (i 0)) (row s (i 0)) (mat wg) (vec bg) (mat wb) (vec bb) (i 1)

/-- Every node's normalised new embedding. -/
def norm (e s : Nodes.Idx → EReal) (wg : Mat.Idx → EReal) (bg : Vec64.Idx → EReal) (wb : Mat.Idx → EReal) (bb : Vec64.Idx → EReal) :
    Nodes.Idx → EReal :=
  fun i => LayerRow.normed (row e (i 0)) (row s (i 0)) (mat wg) (vec bg) (mat wb) (vec bb) (i 1)

end Cert.LayerArr

end
-- ==== Proof.IdealValue.lean ====
/-
  What each launch leaves in its two output arrays, at the ideal instance: the layer of the whole node arrays.

  A launch walks ten tiles of 5000 rows. At tile `t` the body stores, whole, the row-wise layer of the tile's rows; the
  pipeline writes the tile back at rows `t · 5000 … t · 5000 + 4999`. The ten blocks cover the node array, and each is the
  restriction of ONE whole-array function — the layer of the arrays the launch finds — so the array ends at that function.
-/
import proofs.«103830_j35493609734828_1_alg».proof.Proof.IdealTile0
import proofs.«103830_j35493609734828_1_alg».proof.Proof.IdealTile1
import proofs.«103830_j35493609734828_1_alg».proof.Proof.IdealTile2
import proofs.«103830_j35493609734828_1_alg».proof.Proof.KernelRow
import proofs.«103830_j35493609734828_1_alg».proof.Proof.LayerArr
import Idealize.ShloMosaic.Lib.Pipeline.Value
import Idealize.ShloMosaic.Lib.ValueIdx

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

-- the core's buffer contents when a launch is entered
variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The node row that row `p` of tile `t` is. -/
def tileRow (t : Fin 10) (p : Fin 5000) : Fin 50000 := ⟨t.val * 5000 + p.val, by have := t.isLt; have := p.isLt; omega⟩

/-! # Launch 0 -/

/-- The printed index maps, decided over the grid: the four node-array windows sit at block row `t`, column 0; the
    weights' and biases' at block 0; there are ten points. -/
theorem idx_facts0 : ∀ t : Fin cfg0.N,
    win0_0.index t (0 : Fin 2) = t.val ∧ win0_0.index t (1 : Fin 2) = 0
  ∧ win0_1.index t (0 : Fin 2) = t.val ∧ win0_1.index t (1 : Fin 2) = 0
  ∧ win0_2.index t (0 : Fin 2) = 0 ∧ win0_2.index t (1 : Fin 2) = 0
  ∧ win0_3.index t (0 : Fin 1) = 0
  ∧ win0_4.index t (0 : Fin 2) = 0 ∧ win0_4.index t (1 : Fin 2) = 0
  ∧ win0_5.index t (0 : Fin 1) = 0
  ∧ win0_6.index t (0 : Fin 2) = t.val ∧ win0_6.index t (1 : Fin 2) = 0
  ∧ win0_7.index t (0 : Fin 2) = t.val ∧ win0_7.index t (1 : Fin 2) = 0 ∧ t.val < 10 :=
  (by decide +kernel : ∀ t : Fin grid0.N, _)

/-- A grid point as one of the ten tiles. -/
def pt0 (t : Fin cfg0.N) : Fin 10 := ⟨t.val, (idx_facts0 t).2.2.2.2.2.2.2.2.2.2.2.2.2.2⟩

/-! ## Each input block read where it sits in its array -/

theorem iblk0_0_apply (c : Dev nD) (t : Fin cfg0.N) (p : Fin 5000) (k : Fin 64) :
    iblk0 V c 0 t (ix2 p k) = V c (Pipeline.arrRef spec0 0) (ix2 (tileRow (pt0 t) p) k) := by
  obtain ⟨e0, e1, e2, e3, -⟩ := idx_facts0 t
  show V c (Pipeline.arrRef spec0 0) (((cfg0.win 0).blk t).view.emb (ix2 p k)) = _
  congr 1
  funext a; apply Fin.ext
  match a with
  | ⟨0, _⟩ => show win0_0.index t (0 : Fin 2) * 5000 + 1 * p.val = t.val * 5000 + p.val; omega
  | ⟨1, _⟩ => show win0_0.index t (1 : Fin 2) * 64 + 1 * k.val = k.val; omega

theorem iblk0_1_apply (c : Dev nD) (t : Fin cfg0.N) (p : Fin 5000) (k : Fin 64) :
    iblk0 V c 1 t (ix2 p k) = V c (Pipeline.arrRef spec0 1) (ix2 (tileRow (pt0 t) p) k) := by
  obtain ⟨e0, e1, e2, e3, -⟩ := idx_facts0 t
  show V c (Pipeline.arrRef spec0 1) (((cfg0.win 1).blk t).view.emb (ix2 p k)) = _
  congr 1
  funext a; apply Fin.ext
  match a with
  | ⟨0, _⟩ => show win0_1.index t (0 : Fin 2) * 5000 + 1 * p.val = t.val * 5000 + p.val; omega
  | ⟨1, _⟩ => show win0_1.index t (1 : Fin 2) * 64 + 1 * k.val = k.val; omega

theorem iblk0_2_apply (c : Dev nD) (t : Fin cfg0.N) (k j : Fin 64) :
    iblk0 V c 2 t (ix2 k j) = V c (Pipeline.arrRef spec0 2) (ix2 k j) := by
  obtain ⟨-, -, -, -, e0, e1, e2, e3, e4, e5, -⟩ := idx_facts0 t
  show V c (Pipeline.arrRef spec0 2) (((cfg0.win 2).blk t).view.emb (ix2 k j)) = _
  congr 1
  funext a; apply Fin.ext
  match a with
  | ⟨0, _⟩ => show win0_2.index t (0 : Fin 2) * 64 + 1 * k.val = k.val; omega
  | ⟨1, _⟩ => show win0_2.index t (1 : Fin 2) * 64 + 1 * j.val = j.val; omega

theorem iblk0_3_apply (c : Dev nD) (t : Fin cfg0.N) (j : Fin 64) :
    iblk0 V c 3 t (ix1 j) = V c (Pipeline.arrRef spec0 3) (ix1 j) := by
  obtain ⟨-, -, -, -, e0, e1, e2, e3, e4, e5, -⟩ := idx_facts0 t
  show V c (Pipeline.arrRef spec0 3) (((cfg0.win 3).blk t).view.emb (ix1 j)) = _
  congr 1
  funext a; apply Fin.ext
  match a with
  | ⟨0, _⟩ => show win0_3.index t (0 : Fin 1) * 64 + 1 * j.val = j.val; omega

theorem iblk0_4_apply (c : Dev nD) (t : Fin cfg0.N) (k j : Fin 64) :
    iblk0 V c 4 t (ix2 k j) = V c (Pipeline.arrRef spec0 4) (ix2 k j) := by
  obtain ⟨-, -, -, -, e0, e1, e2, e3, e4, e5, -⟩ := idx_facts0 t
  show V c (Pipeline.arrRef spec0 4) (((cfg0.win 4).blk t).view.emb (ix2 k j)) = _
  congr 1
  funext a; apply Fin.ext
  match a with
  | ⟨0, _⟩ => show win0_4.index t (0 : Fin 2) * 64 + 1 * k.val = k.val; omega
  | ⟨1, _⟩ => show win0_4.index t (1 : Fin 2) * 64 + 1 * j.val = j.val; omega

theorem iblk0_5_apply (c : Dev nD) (t : Fin cfg0.N) (j : Fin 64) :
    iblk0 V c 5 t (ix1 j) = V c (Pipeline.arrRef spec0 5) (ix1 j) := by
  obtain ⟨-, -, -, -, e0, e1, e2, e3, e4, e5, -⟩ := idx_facts0 t
  show V c (Pipeline.arrRef spec0 5) (((cfg0.win 5).blk t).view.emb (ix1 j)) = _
  congr 1
  funext a; apply Fin.ext
  match a with
  | ⟨0, _⟩ => show win0_5.index t (0 : Fin 1) * 64 + 1 * j.val = j.val; omega

/-! ## The two outputs -/

/-- An index of the node array lies in point `t`'s block of output window 6 iff each coordinate is in the block's range. -/
theorem mem_blk0_6 (t : Fin cfg0.N) (i : S50000x64.Idx) :
    i ∈ ((cfg0.win 6).blk t).view.set ↔ ∀ a : Fin 2, win0_6.index t a * S5000x64.size a ≤ (i a).val ∧ (i a).val < win0_6.index t a * S5000x64.size a + S5000x64.size a := by
  show i ∈ ((View.whole main_v22_0).slice (win0_6.rect t)).set ↔ _
  rw [View.set_slice_whole, Rect.mem_set_unit]
  exact Iff.rfl

/-- Every index of the node array is in the block of the point its row's tile is. -/
theorem cover0_6 (i : S50000x64.Idx) : ∃ t : Fin cfg0.N, (cfg0.win 6).flush t = true ∧ i ∈ ((cfg0.win 6).blk t).view.set := by
  have hi0 : (i 0).val < 50000 := idx2_lt0 i
  have hi1 : (i 1).val < 64 := (i 1).isLt
  let t : Fin cfg0.N := ⟨(i 0).val / 5000, by rw [show cfg0.N = 10 from N_0]; omega⟩
  have htv : t.val = (i 0).val / 5000 := rfl
  obtain ⟨-, -, -, -, -, -, -, -, -, -, e6, e6', e7, e7', -⟩ := idx_facts0 t
  refine ⟨t, flush0_6 t, ?_⟩
  rw [mem_blk0_6]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 64 ≤ (i 1).val ∧ (i 1).val < win0_6.index t (1 : Fin 2) * 64 + 64; omega

/-- Where row `p`, column `q` of tile `t` sits in the node array. -/
theorem emb0_6 (t : Fin cfg0.N) (p : Fin 5000) (q : Fin 64) :
    ((cfg0.win 6).blk t).view.emb (ix2 p q) = (ix2 (tileRow (pt0 t) p) q : S50000x64.Idx) := by
  obtain ⟨-, -, -, -, -, -, -, -, -, -, e6, e6', e7, e7', -⟩ := idx_facts0 t
  funext a; apply Fin.ext
  match a with
  | ⟨0, _⟩ => show win0_6.index t (0 : Fin 2) * 5000 + 1 * p.val = t.val * 5000 + p.val; omega
  | ⟨1, _⟩ => show win0_6.index t (1 : Fin 2) * 64 + 1 * q.val = q.val; omega

set_option maxHeartbeats 2000000 in
/-- What point `t` writes back through output window 6 is block `t` of the layer's new embeddings of the arrays the launch
    finds: the payload at row `p`, column `q` of the tile is the row-wise layer of the tile's row `p`, which is the node
    array's row `t · 5000 + p`; the weights and biases are read whole at every point. -/
theorem flushed0_6_eq (c : Dev nD) (t : Fin cfg0.N) :
    (dat0 V c).flushed 6 t = ((cfg0.win 6).blk t).view.read (Elt Ideal) (LayerArr.ego (V c (Pipeline.arrRef spec0 0)) (V c (Pipeline.arrRef spec0 1)) (V c (Pipeline.arrRef spec0 2)) (V c (Pipeline.arrRef spec0 3)) (V c (Pipeline.arrRef spec0 4)) (V c (Pipeline.arrRef spec0 5))) := by
  show (cfg0.win 6).cut (grid0.coords t) ((dat0 V c).after 6 t) = _
  rw [after0_6]
  unfold out0_6
  rw [View.canon_unit_zero hz2]
  unfold ego0
  simp only [View.ld_unit_zero (S := S5000x64) hz2, View.ld_unit_zero (S := S64x64) hz2, View.ld_unit_zero (S := S64) hz1]
  funext j
  obtain ⟨p, q, rfl⟩ : ∃ (p : Fin 5000) (q : Fin 64), j = ix2 p q := ⟨j 0, j 1, eq_ix2 j⟩
  refine (Cert.KernelRow.pay2_apply (iblk0 V c 0 t) (iblk0 V c 1 t) (iblk0 V c 2 t) (iblk0 V c 4 t) (iblk0 V c 3 t) (iblk0 V c 5 t) p q).trans ?_
  show _ = LayerArr.ego (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (((cfg0.win 6).blk t).view.emb (ix2 p q))
  rw [emb0_6 t p q]
  unfold LayerArr.ego LayerArr.row LayerArr.mat LayerArr.vec
  simp only [iblk0_0_apply V c t, iblk0_1_apply V c t, iblk0_2_apply V c t, iblk0_3_apply V c t, iblk0_4_apply V c t, iblk0_5_apply V c t]

/-- The array output window 6 ends holding: the layer's new embeddings of the arrays the launch finds. -/
theorem final0_6 (c : Dev nD) : (dat0 V c).arrAt 6 cfg0.N = LayerArr.ego (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) :=
  (dat0 V c).arrAt_eq_of_cover 6 (LayerArr.ego (V c (Pipeline.arrRef spec0 0)) (V c (Pipeline.arrRef spec0 1)) (V c (Pipeline.arrRef spec0 2)) (V c (Pipeline.arrRef spec0 3)) (V c (Pipeline.arrRef spec0 4)) (V c (Pipeline.arrRef spec0 5))) (fun t _ => flushed0_6_eq V c t) cover0_6

/-- An index of the node array lies in point `t`'s block of output window 7 iff each coordinate is in the block's range. -/
theorem mem_blk0_7 (t : Fin cfg0.N) (i : S50000x64.Idx) :
    i ∈ ((cfg0.win 7).blk t).view.set ↔ ∀ a : Fin 2, win0_7.index t a * S5000x64.size a ≤ (i a).val ∧ (i a).val < win0_7.index t a * S5000x64.size a + S5000x64.size a := by
  show i ∈ ((View.whole main_v22_1).slice (win0_7.rect t)).set ↔ _
  rw [View.set_slice_whole, Rect.mem_set_unit]
  exact Iff.rfl

/-- Every index of the node array is in the block of the point its row's tile is. -/
theorem cover0_7 (i : S50000x64.Idx) : ∃ t : Fin cfg0.N, (cfg0.win 7).flush t = true ∧ i ∈ ((cfg0.win 7).blk t).view.set := by
  have hi0 : (i 0).val < 50000 := idx2_lt0 i
  have hi1 : (i 1).val < 64 := (i 1).isLt
  let t : Fin cfg0.N := ⟨(i 0).val / 5000, by rw [show cfg0.N = 10 from N_0]; omega⟩
  have htv : t.val = (i 0).val / 5000 := rfl
  obtain ⟨-, -, -, -, -, -, -, -, -, -, e6, e6', e7, e7', -⟩ := idx_facts0 t
  refine ⟨t, flush0_7 t, ?_⟩
  rw [mem_blk0_7]
  intro a
  match a with
  | ⟨0, _⟩ => show win0_7.index t (0 : Fin 2) * 5000 ≤ (i 0).val ∧ (i 0).val < win0_7.index t (0 : Fin 2) * 5000 + 5000; omega
  | ⟨1, _⟩ => show win0_7.index t (1 : Fin 2) * 64 ≤ (i 1).val ∧ (i 1).val < win0_7.index t (1 : Fin 2) * 64 + 64; omega

/-- Where row `p`, column `q` of tile `t` sits in the node array. -/
theorem emb0_7 (t : Fin cfg0.N) (p : Fin 5000) (q : Fin 64) :
    ((cfg0.win 7).blk t).view.emb (ix2 p q) = (ix2 (tileRow (pt0 t) p) q : S50000x64.Idx) := by
  obtain ⟨-, -, -, -, -, -, -, -, -, -, e6, e6', e7, e7', -⟩ := idx_facts0 t
  funext a; apply Fin.ext
  match a with
  | ⟨0, _⟩ => show win0_7.index t (0 : Fin 2) * 5000 + 1 * p.val = t.val * 5000 + p.val; omega
  | ⟨1, _⟩ => show win0_7.index t (1 : Fin 2) * 64 + 1 * q.val = q.val; omega

set_option maxHeartbeats 2000000 in
/-- What point `t` writes back through output window 7 is block `t` of the layer's normalised new embeddings of the arrays the launch
    finds: the payload at row `p`, column `q` of the tile is the row-wise layer of the tile's row `p`, which is the node
    array's row `t · 5000 + p`; the weights and biases are read whole at every point. -/
theorem flushed0_7_eq (c : Dev nD) (t : Fin cfg0.N) :
    (dat0 V c).flushed 7 t = ((cfg0.win 7).blk t).view.read (Elt Ideal) (LayerArr.norm (V c (Pipeline.arrRef spec0 0)) (V c (Pipeline.arrRef spec0 1)) (V c (Pipeline.arrRef spec0 2)) (V c (Pipeline.arrRef spec0 3)) (V c (Pipeline.arrRef spec0 4)) (V c (Pipeline.arrRef spec0 5))) := by
  show (cfg0.win 7).cut (grid0.coords t) ((dat0 V c).after 7 t) = _
  rw [after0_7]
  unfold out0_7
  rw [View.canon_unit_zero hz2]
  unfold ego0 sq0
  simp only [View.ld_unit_zero (S := S5000x64) hz2, View.ld_unit_zero (S := S64x64) hz2, View.ld_unit_zero (S := S64) hz1]
  funext j
  obtain ⟨p, q, rfl⟩ : ∃ (p : Fin 5000) (q : Fin 64), j = ix2 p q := ⟨j 0, j 1, eq_ix2 j⟩
  refine (Cert.KernelRow.pay1_apply (iblk0 V c 0 t) (iblk0 V c 1 t) (iblk0 V c 2 t) (iblk0 V c 4 t) (iblk0 V c 3 t) (iblk0 V c 5 t) p q).trans ?_
  show _ = LayerArr.norm (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (((cfg0.win 7).blk t).view.emb (ix2 p q))
  rw [emb0_7 t p q]
  unfold LayerArr.norm LayerArr.row LayerArr.mat LayerArr.vec
  simp only [iblk0_0_apply V c t, iblk0_1_apply V c t, iblk0_2_apply V c t, iblk0_3_apply V c t, iblk0_4_apply V c t, iblk0_5_apply V c t]

/-- The array output window 7 ends holding: the layer's normalised new embeddings of the arrays the launch finds. -/
theorem final0_7 (c : Dev nD) : (dat0 V c).arrAt 7 cfg0.N = LayerArr.norm (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) :=
  (dat0 V c).arrAt_eq_of_cover 7 (LayerArr.norm (V c (Pipeline.arrRef spec0 0)) (V c (Pipeline.arrRef spec0 1)) (V c (Pipeline.arrRef spec0 2)) (V c (Pipeline.arrRef spec0 3)) (V c (Pipeline.arrRef spec0 4)) (V c (Pipeline.arrRef spec0 5))) (fun t _ => flushed0_7_eq V c t) cover0_7

/-! # Launch 1 -/

/-- The printed index maps, decided over the grid: the four node-array windows sit at block row `t`, column 0; the
    weights' and biases' at block 0; there are ten points. -/
theorem idx_facts1 : ∀ t : Fin cfg1.N,
    win1_0.index t (0 : Fin 2) = t.val ∧ win1_0.index t (1 : Fin 2) = 0
  ∧ win1_1.index t (0 : Fin 2) = t.val ∧ win1_1.index t (1 : Fin 2) = 0
  ∧ win1_2.index t (0 : Fin 2) = 0 ∧ win1_2.index t (1 : Fin 2) = 0
  ∧ win1_3.index t (0 : Fin 1) = 0
  ∧ win1_4.index t (0 : Fin 2) = 0 ∧ win1_4.index t (1 : Fin 2) = 0
  ∧ win1_5.index t (0 : Fin 1) = 0
  ∧ win1_6.index t (0 : Fin 2) = t.val ∧ win1_6.index t (1 : Fin 2) = 0
  ∧ win1_7.index t (0 : Fin 2) = t.val ∧ win1_7.index t (1 : Fin 2) = 0 ∧ t.val < 10 :=
  (by decide +kernel : ∀ t : Fin grid1.N, _)

/-- A grid point as one of the ten tiles. -/
def pt1 (t : Fin cfg1.N) : Fin 10 := ⟨t.val, (idx_facts1 t).2.2.2.2.2.2.2.2.2.2.2.2.2.2⟩

/-! ## Each input block read where it sits in its array -/

theorem iblk1_0_apply (c : Dev nD) (t : Fin cfg1.N) (p : Fin 5000) (k : Fin 64) :
    iblk1 V c 0 t (ix2 p k) = V c (Pipeline.arrRef spec1 0) (ix2 (tileRow (pt1 t) p) k) := by
  obtain ⟨e0, e1, e2, e3, -⟩ := idx_facts1 t
  show V c (Pipeline.arrRef spec1 0) (((cfg1.win 0).blk t).view.emb (ix2 p k)) = _
  congr 1
  funext a; apply Fin.ext
  match a with
  | ⟨0, _⟩ => show win1_0.index t (0 : Fin 2) * 5000 + 1 * p.val = t.val * 5000 + p.val; omega
  | ⟨1, _⟩ => show win1_0.index t (1 : Fin 2) * 64 + 1 * k.val = k.val; omega

theorem iblk1_1_apply (c : Dev nD) (t : Fin cfg1.N) (p : Fin 5000) (k : Fin 64) :
    iblk1 V c 1 t (ix2 p k) = V c (Pipeline.arrRef spec1 1) (ix2 (tileRow (pt1 t) p) k) := by
  obtain ⟨e0, e1, e2, e3, -⟩ := idx_facts1 t
  show V c (Pipeline.arrRef spec1 1) (((cfg1.win 1).blk t).view.emb (ix2 p k)) = _
  congr 1
  funext a; apply Fin.ext
  match a with
  | ⟨0, _⟩ => show win1_1.index t (0 : Fin 2) * 5000 + 1 * p.val = t.val * 5000 + p.val; omega
  | ⟨1, _⟩ => show win1_1.index t (1 : Fin 2) * 64 + 1 * k.val = k.val; omega

theorem iblk1_2_apply (c : Dev nD) (t : Fin cfg1.N) (k j : Fin 64) :
    iblk1 V c 2 t (ix2 k j) = V c (Pipeline.arrRef spec1 2) (ix2 k j) := by
  obtain ⟨-, -, -, -, e0, e1, e2, e3, e4, e5, -⟩ := idx_facts1 t
  show V c (Pipeline.arrRef spec1 2) (((cfg1.win 2).blk t).view.emb (ix2 k j)) = _
  congr 1
  funext a; apply Fin.ext
  match a with
  | ⟨0, _⟩ => show win1_2.index t (0 : Fin 2) * 64 + 1 * k.val = k.val; omega
  | ⟨1, _⟩ => show win1_2.index t (1 : Fin 2) * 64 + 1 * j.val = j.val; omega

theorem iblk1_3_apply (c : Dev nD) (t : Fin cfg1.N) (j : Fin 64) :
    iblk1 V c 3 t (ix1 j) = V c (Pipeline.arrRef spec1 3) (ix1 j) := by
  obtain ⟨-, -, -, -, e0, e1, e2, e3, e4, e5, -⟩ := idx_facts1 t
  show V c (Pipeline.arrRef spec1 3) (((cfg1.win 3).blk t).view.emb (ix1 j)) = _
  congr 1
  funext a; apply Fin.ext
  match a with
  | ⟨0, _⟩ => show win1_3.index t (0 : Fin 1) * 64 + 1 * j.val = j.val; omega

theorem iblk1_4_apply (c : Dev nD) (t : Fin cfg1.N) (k j : Fin 64) :
    iblk1 V c 4 t (ix2 k j) = V c (Pipeline.arrRef spec1 4) (ix2 k j) := by
  obtain ⟨-, -, -, -, e0, e1, e2, e3, e4, e5, -⟩ := idx_facts1 t
  show V c (Pipeline.arrRef spec1 4) (((cfg1.win 4).blk t).view.emb (ix2 k j)) = _
  congr 1
  funext a; apply Fin.ext
  match a with
  | ⟨0, _⟩ => show win1_4.index t (0 : Fin 2) * 64 + 1 * k.val = k.val; omega
  | ⟨1, _⟩ => show win1_4.index t (1 : Fin 2) * 64 + 1 * j.val = j.val; omega

theorem iblk1_5_apply (c : Dev nD) (t : Fin cfg1.N) (j : Fin 64) :
    iblk1 V c 5 t (ix1 j) = V c (Pipeline.arrRef spec1 5) (ix1 j) := by
  obtain ⟨-, -, -, -, e0, e1, e2, e3, e4, e5, -⟩ := idx_facts1 t
  show V c (Pipeline.arrRef spec1 5) (((cfg1.win 5).blk t).view.emb (ix1 j)) = _
  congr 1
  funext a; apply Fin.ext
  match a with
  | ⟨0, _⟩ => show win1_5.index t (0 : Fin 1) * 64 + 1 * j.val = j.val; omega

/-! ## The two outputs -/

/-- An index of the node array lies in point `t`'s block of output window 6 iff each coordinate is in the block's range. -/
theorem mem_blk1_6 (t : Fin cfg1.N) (i : S50000x64.Idx) :
    i ∈ ((cfg1.win 6).blk t).view.set ↔ ∀ a : Fin 2, win1_6.index t a * S5000x64.size a ≤ (i a).val ∧ (i a).val < win1_6.index t a * S5000x64.size a + S5000x64.size a := by
  show i ∈ ((View.whole main_v44_0).slice (win1_6.rect t)).set ↔ _
  rw [View.set_slice_whole, Rect.mem_set_unit]
  exact Iff.rfl

/-- Every index of the node array is in the block of the point its row's tile is. -/
theorem cover1_6 (i : S50000x64.Idx) : ∃ t : Fin cfg1.N, (cfg1.win 6).flush t = true ∧ i ∈ ((cfg1.win 6).blk t).view.set := by
  have hi0 : (i 0).val < 50000 := idx2_lt0 i
  have hi1 : (i 1).val < 64 := (i 1).isLt
  let t : Fin cfg1.N := ⟨(i 0).val / 5000, by rw [show cfg1.N = 10 from N_1]; omega⟩
  have htv : t.val = (i 0).val / 5000 := rfl
  obtain ⟨-, -, -, -, -, -, -, -, -, -, e6, e6', e7, e7', -⟩ := idx_facts1 t
  refine ⟨t, flush1_6 t, ?_⟩
  rw [mem_blk1_6]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 64 ≤ (i 1).val ∧ (i 1).val < win1_6.index t (1 : Fin 2) * 64 + 64; omega

/-- Where row `p`, column `q` of tile `t` sits in the node array. -/
theorem emb1_6 (t : Fin cfg1.N) (p : Fin 5000) (q : Fin 64) :
    ((cfg1.win 6).blk t).view.emb (ix2 p q) = (ix2 (tileRow (pt1 t) p) q : S50000x64.Idx) := by
  obtain ⟨-, -, -, -, -, -, -, -, -, -, e6, e6', e7, e7', -⟩ := idx_facts1 t
  funext a; apply Fin.ext
  match a with
  | ⟨0, _⟩ => show win1_6.index t (0 : Fin 2) * 5000 + 1 * p.val = t.val * 5000 + p.val; omega
  | ⟨1, _⟩ => show win1_6.index t (1 : Fin 2) * 64 + 1 * q.val = q.val; omega

set_option maxHeartbeats 2000000 in
/-- What point `t` writes back through output window 6 is block `t` of the layer's new embeddings of the arrays the launch
    finds: the payload at row `p`, column `q` of the tile is the row-wise layer of the tile's row `p`, which is the node
    array's row `t · 5000 + p`; the weights and biases are read whole at every point. -/
theorem flushed1_6_eq (c : Dev nD) (t : Fin cfg1.N) :
    (dat1 V c).flushed 6 t = ((cfg1.win 6).blk t).view.read (Elt Ideal) (LayerArr.ego (V c (Pipeline.arrRef spec1 0)) (V c (Pipeline.arrRef spec1 1)) (V c (Pipeline.arrRef spec1 2)) (V c (Pipeline.arrRef spec1 3)) (V c (Pipeline.arrRef spec1 4)) (V c (Pipeline.arrRef spec1 5))) := by
  show (cfg1.win 6).cut (grid1.coords t) ((dat1 V c).after 6 t) = _
  rw [after1_6]
  unfold out1_6
  rw [View.canon_unit_zero hz2]
  unfold ego1
  simp only [View.ld_unit_zero (S := S5000x64) hz2, View.ld_unit_zero (S := S64x64) hz2, View.ld_unit_zero (S := S64) hz1]
  funext j
  obtain ⟨p, q, rfl⟩ : ∃ (p : Fin 5000) (q : Fin 64), j = ix2 p q := ⟨j 0, j 1, eq_ix2 j⟩
  refine (Cert.KernelRow.k1_pay2_apply (iblk1 V c 0 t) (iblk1 V c 1 t) (iblk1 V c 2 t) (iblk1 V c 4 t) (iblk1 V c 3 t) (iblk1 V c 5 t) p q).trans ?_
  show _ = LayerArr.ego (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (((cfg1.win 6).blk t).view.emb (ix2 p q))
  rw [emb1_6 t p q]
  unfold LayerArr.ego LayerArr.row LayerArr.mat LayerArr.vec
  simp only [iblk1_0_apply V c t, iblk1_1_apply V c t, iblk1_2_apply V c t, iblk1_3_apply V c t, iblk1_4_apply V c t, iblk1_5_apply V c t]

/-- The array output window 6 ends holding: the layer's new embeddings of the arrays the launch finds. -/
theorem final1_6 (c : Dev nD) : (dat1 V c).arrAt 6 cfg1.N = LayerArr.ego (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) :=
  (dat1 V c).arrAt_eq_of_cover 6 (LayerArr.ego (V c (Pipeline.arrRef spec1 0)) (V c (Pipeline.arrRef spec1 1)) (V c (Pipeline.arrRef spec1 2)) (V c (Pipeline.arrRef spec1 3)) (V c (Pipeline.arrRef spec1 4)) (V c (Pipeline.arrRef spec1 5))) (fun t _ => flushed1_6_eq V c t) cover1_6

/-- An index of the node array lies in point `t`'s block of output window 7 iff each coordinate is in the block's range. -/
theorem mem_blk1_7 (t : Fin cfg1.N) (i : S50000x64.Idx) :
    i ∈ ((cfg1.win 7).blk t).view.set ↔ ∀ a : Fin 2, win1_7.index t a * S5000x64.size a ≤ (i a).val ∧ (i a).val < win1_7.index t a * S5000x64.size a + S5000x64.size a := by
  show i ∈ ((View.whole main_v44_1).slice (win1_7.rect t)).set ↔ _
  rw [View.set_slice_whole, Rect.mem_set_unit]
  exact Iff.rfl

/-- Every index of the node array is in the block of the point its row's tile is. -/
theorem cover1_7 (i : S50000x64.Idx) : ∃ t : Fin cfg1.N, (cfg1.win 7).flush t = true ∧ i ∈ ((cfg1.win 7).blk t).view.set := by
  have hi0 : (i 0).val < 50000 := idx2_lt0 i
  have hi1 : (i 1).val < 64 := (i 1).isLt
  let t : Fin cfg1.N := ⟨(i 0).val / 5000, by rw [show cfg1.N = 10 from N_1]; omega⟩
  have htv : t.val = (i 0).val / 5000 := rfl
  obtain ⟨-, -, -, -, -, -, -, -, -, -, e6, e6', e7, e7', -⟩ := idx_facts1 t
  refine ⟨t, flush1_7 t, ?_⟩
  rw [mem_blk1_7]
  intro a
  match a with
  | ⟨0, _⟩ => show win1_7.index t (0 : Fin 2) * 5000 ≤ (i 0).val ∧ (i 0).val < win1_7.index t (0 : Fin 2) * 5000 + 5000; omega
  | ⟨1, _⟩ => show win1_7.index t (1 : Fin 2) * 64 ≤ (i 1).val ∧ (i 1).val < win1_7.index t (1 : Fin 2) * 64 + 64; omega

/-- Where row `p`, column `q` of tile `t` sits in the node array. -/
theorem emb1_7 (t : Fin cfg1.N) (p : Fin 5000) (q : Fin 64) :
    ((cfg1.win 7).blk t).view.emb (ix2 p q) = (ix2 (tileRow (pt1 t) p) q : S50000x64.Idx) := by
  obtain ⟨-, -, -, -, -, -, -, -, -, -, e6, e6', e7, e7', -⟩ := idx_facts1 t
  funext a; apply Fin.ext
  match a with
  | ⟨0, _⟩ => show win1_7.index t (0 : Fin 2) * 5000 + 1 * p.val = t.val * 5000 + p.val; omega
  | ⟨1, _⟩ => show win1_7.index t (1 : Fin 2) * 64 + 1 * q.val = q.val; omega

set_option maxHeartbeats 2000000 in
/-- What point `t` writes back through output window 7 is block `t` of the layer's normalised new embeddings of the arrays the launch
    finds: the payload at row `p`, column `q` of the tile is the row-wise layer of the tile's row `p`, which is the node
    array's row `t · 5000 + p`; the weights and biases are read whole at every point. -/
theorem flushed1_7_eq (c : Dev nD) (t : Fin cfg1.N) :
    (dat1 V c).flushed 7 t = ((cfg1.win 7).blk t).view.read (Elt Ideal) (LayerArr.norm (V c (Pipeline.arrRef spec1 0)) (V c (Pipeline.arrRef spec1 1)) (V c (Pipeline.arrRef spec1 2)) (V c (Pipeline.arrRef spec1 3)) (V c (Pipeline.arrRef spec1 4)) (V c (Pipeline.arrRef spec1 5))) := by
  show (cfg1.win 7).cut (grid1.coords t) ((dat1 V c).after 7 t) = _
  rw [after1_7]
  unfold out1_7
  rw [View.canon_unit_zero hz2]
  unfold ego1 sq1
  simp only [View.ld_unit_zero (S := S5000x64) hz2, View.ld_unit_zero (S := S64x64) hz2, View.ld_unit_zero (S := S64) hz1]
  funext j
  obtain ⟨p, q, rfl⟩ : ∃ (p : Fin 5000) (q : Fin 64), j = ix2 p q := ⟨j 0, j 1, eq_ix2 j⟩
  refine (Cert.KernelRow.k1_pay1_apply (iblk1 V c 0 t) (iblk1 V c 1 t) (iblk1 V c 2 t) (iblk1 V c 4 t) (iblk1 V c 3 t) (iblk1 V c 5 t) p q).trans ?_
  show _ = LayerArr.norm (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (((cfg1.win 7).blk t).view.emb (ix2 p q))
  rw [emb1_7 t p q]
  unfold LayerArr.norm LayerArr.row LayerArr.mat LayerArr.vec
  simp only [iblk1_0_apply V c t, iblk1_1_apply V c t, iblk1_2_apply V c t, iblk1_3_apply V c t, iblk1_4_apply V c t, iblk1_5_apply V c t]

/-- The array output window 7 ends holding: the layer's normalised new embeddings of the arrays the launch finds. -/
theorem final1_7 (c : Dev nD) : (dat1 V c).arrAt 7 cfg1.N = LayerArr.norm (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) :=
  (dat1 V c).arrAt_eq_of_cover 7 (LayerArr.norm (V c (Pipeline.arrRef spec1 0)) (V c (Pipeline.arrRef spec1 1)) (V c (Pipeline.arrRef spec1 2)) (V c (Pipeline.arrRef spec1 3)) (V c (Pipeline.arrRef spec1 4)) (V c (Pipeline.arrRef spec1 5))) (fun t _ => flushed1_7_eq V c t) cover1_7

/-! # Launch 2 -/

/-- The printed index maps, decided over the grid: the four node-array windows sit at block row `t`, column 0; the
    weights' and biases' at block 0; there are ten points. -/
theorem idx_facts2 : ∀ t : Fin cfg2.N,
    win2_0.index t (0 : Fin 2) = t.val ∧ win2_0.index t (1 : Fin 2) = 0
  ∧ win2_1.index t (0 : Fin 2) = t.val ∧ win2_1.index t (1 : Fin 2) = 0
  ∧ win2_2.index t (0 : Fin 2) = 0 ∧ win2_2.index t (1 : Fin 2) = 0
  ∧ win2_3.index t (0 : Fin 1) = 0
  ∧ win2_4.index t (0 : Fin 2) = 0 ∧ win2_4.index t (1 : Fin 2) = 0
  ∧ win2_5.index t (0 : Fin 1) = 0
  ∧ win2_6.index t (0 : Fin 2) = t.val ∧ win2_6.index t (1 : Fin 2) = 0
  ∧ win2_7.index t (0 : Fin 2) = t.val ∧ win2_7.index t (1 : Fin 2) = 0 ∧ t.val < 10 :=
  (by decide +kernel : ∀ t : Fin grid2.N, _)

/-- A grid point as one of the ten tiles. -/
def pt2 (t : Fin cfg2.N) : Fin 10 := ⟨t.val, (idx_facts2 t).2.2.2.2.2.2.2.2.2.2.2.2.2.2⟩

/-! ## Each input block read where it sits in its array -/

theorem iblk2_0_apply (c : Dev nD) (t : Fin cfg2.N) (p : Fin 5000) (k : Fin 64) :
    iblk2 V c 0 t (ix2 p k) = V c (Pipeline.arrRef spec2 0) (ix2 (tileRow (pt2 t) p) k) := by
  obtain ⟨e0, e1, e2, e3, -⟩ := idx_facts2 t
  show V c (Pipeline.arrRef spec2 0) (((cfg2.win 0).blk t).view.emb (ix2 p k)) = _
  congr 1
  funext a; apply Fin.ext
  match a with
  | ⟨0, _⟩ => show win2_0.index t (0 : Fin 2) * 5000 + 1 * p.val = t.val * 5000 + p.val; omega
  | ⟨1, _⟩ => show win2_0.index t (1 : Fin 2) * 64 + 1 * k.val = k.val; omega

theorem iblk2_1_apply (c : Dev nD) (t : Fin cfg2.N) (p : Fin 5000) (k : Fin 64) :
    iblk2 V c 1 t (ix2 p k) = V c (Pipeline.arrRef spec2 1) (ix2 (tileRow (pt2 t) p) k) := by
  obtain ⟨e0, e1, e2, e3, -⟩ := idx_facts2 t
  show V c (Pipeline.arrRef spec2 1) (((cfg2.win 1).blk t).view.emb (ix2 p k)) = _
  congr 1
  funext a; apply Fin.ext
  match a with
  | ⟨0, _⟩ => show win2_1.index t (0 : Fin 2) * 5000 + 1 * p.val = t.val * 5000 + p.val; omega
  | ⟨1, _⟩ => show win2_1.index t (1 : Fin 2) * 64 + 1 * k.val = k.val; omega

theorem iblk2_2_apply (c : Dev nD) (t : Fin cfg2.N) (k j : Fin 64) :
    iblk2 V c 2 t (ix2 k j) = V c (Pipeline.arrRef spec2 2) (ix2 k j) := by
  obtain ⟨-, -, -, -, e0, e1, e2, e3, e4, e5, -⟩ := idx_facts2 t
  show V c (Pipeline.arrRef spec2 2) (((cfg2.win 2).blk t).view.emb (ix2 k j)) = _
  congr 1
  funext a; apply Fin.ext
  match a with
  | ⟨0, _⟩ => show win2_2.index t (0 : Fin 2) * 64 + 1 * k.val = k.val; omega
  | ⟨1, _⟩ => show win2_2.index t (1 : Fin 2) * 64 + 1 * j.val = j.val; omega

theorem iblk2_3_apply (c : Dev nD) (t : Fin cfg2.N) (j : Fin 64) :
    iblk2 V c 3 t (ix1 j) = V c (Pipeline.arrRef spec2 3) (ix1 j) := by
  obtain ⟨-, -, -, -, e0, e1, e2, e3, e4, e5, -⟩ := idx_facts2 t
  show V c (Pipeline.arrRef spec2 3) (((cfg2.win 3).blk t).view.emb (ix1 j)) = _
  congr 1
  funext a; apply Fin.ext
  match a with
  | ⟨0, _⟩ => show win2_3.index t (0 : Fin 1) * 64 + 1 * j.val = j.val; omega

theorem iblk2_4_apply (c : Dev nD) (t : Fin cfg2.N) (k j : Fin 64) :
    iblk2 V c 4 t (ix2 k j) = V c (Pipeline.arrRef spec2 4) (ix2 k j) := by
  obtain ⟨-, -, -, -, e0, e1, e2, e3, e4, e5, -⟩ := idx_facts2 t
  show V c (Pipeline.arrRef spec2 4) (((cfg2.win 4).blk t).view.emb (ix2 k j)) = _
  congr 1
  funext a; apply Fin.ext
  match a with
  | ⟨0, _⟩ => show win2_4.index t (0 : Fin 2) * 64 + 1 * k.val = k.val; omega
  | ⟨1, _⟩ => show win2_4.index t (1 : Fin 2) * 64 + 1 * j.val = j.val; omega

theorem iblk2_5_apply (c : Dev nD) (t : Fin cfg2.N) (j : Fin 64) :
    iblk2 V c 5 t (ix1 j) = V c (Pipeline.arrRef spec2 5) (ix1 j) := by
  obtain ⟨-, -, -, -, e0, e1, e2, e3, e4, e5, -⟩ := idx_facts2 t
  show V c (Pipeline.arrRef spec2 5) (((cfg2.win 5).blk t).view.emb (ix1 j)) = _
  congr 1
  funext a; apply Fin.ext
  match a with
  | ⟨0, _⟩ => show win2_5.index t (0 : Fin 1) * 64 + 1 * j.val = j.val; omega

/-! ## The two outputs -/

/-- An index of the node array lies in point `t`'s block of output window 6 iff each coordinate is in the block's range. -/
theorem mem_blk2_6 (t : Fin cfg2.N) (i : S50000x64.Idx) :
    i ∈ ((cfg2.win 6).blk t).view.set ↔ ∀ a : Fin 2, win2_6.index t a * S5000x64.size a ≤ (i a).val ∧ (i a).val < win2_6.index t a * S5000x64.size a + S5000x64.size a := by
  show i ∈ ((View.whole main_v66_0).slice (win2_6.rect t)).set ↔ _
  rw [View.set_slice_whole, Rect.mem_set_unit]
  exact Iff.rfl

/-- Every index of the node array is in the block of the point its row's tile is. -/
theorem cover2_6 (i : S50000x64.Idx) : ∃ t : Fin cfg2.N, (cfg2.win 6).flush t = true ∧ i ∈ ((cfg2.win 6).blk t).view.set := by
  have hi0 : (i 0).val < 50000 := idx2_lt0 i
  have hi1 : (i 1).val < 64 := (i 1).isLt
  let t : Fin cfg2.N := ⟨(i 0).val / 5000, by rw [show cfg2.N = 10 from N_2]; omega⟩
  have htv : t.val = (i 0).val / 5000 := rfl
  obtain ⟨-, -, -, -, -, -, -, -, -, -, e6, e6', e7, e7', -⟩ := idx_facts2 t
  refine ⟨t, flush2_6 t, ?_⟩
  rw [mem_blk2_6]
  intro a
  match a with
  | ⟨0, _⟩ => show win2_6.index t (0 : Fin 2) * 5000 ≤ (i 0).val ∧ (i 0).val < win2_6.index t (0 : Fin 2) * 5000 + 5000; omega
  | ⟨1, _⟩ => show win2_6.index t (1 : Fin 2) * 64 ≤ (i 1).val ∧ (i 1).val < win2_6.index t (1 : Fin 2) * 64 + 64; omega

/-- Where row `p`, column `q` of tile `t` sits in the node array. -/
theorem emb2_6 (t : Fin cfg2.N) (p : Fin 5000) (q : Fin 64) :
    ((cfg2.win 6).blk t).view.emb (ix2 p q) = (ix2 (tileRow (pt2 t) p) q : S50000x64.Idx) := by
  obtain ⟨-, -, -, -, -, -, -, -, -, -, e6, e6', e7, e7', -⟩ := idx_facts2 t
  funext a; apply Fin.ext
  match a with
  | ⟨0, _⟩ => show win2_6.index t (0 : Fin 2) * 5000 + 1 * p.val = t.val * 5000 + p.val; omega
  | ⟨1, _⟩ => show win2_6.index t (1 : Fin 2) * 64 + 1 * q.val = q.val; omega

set_option maxHeartbeats 2000000 in
/-- What point `t` writes back through output window 6 is block `t` of the layer's new embeddings of the arrays the launch
    finds: the payload at row `p`, column `q` of the tile is the row-wise layer of the tile's row `p`, which is the node
    array's row `t · 5000 + p`; the weights and biases are read whole at every point. -/
theorem flushed2_6_eq (c : Dev nD) (t : Fin cfg2.N) :
    (dat2 V c).flushed 6 t = ((cfg2.win 6).blk t).view.read (Elt Ideal) (LayerArr.ego (V c (Pipeline.arrRef spec2 0)) (V c (Pipeline.arrRef spec2 1)) (V c (Pipeline.arrRef spec2 2)) (V c (Pipeline.arrRef spec2 3)) (V c (Pipeline.arrRef spec2 4)) (V c (Pipeline.arrRef spec2 5))) := by
  show (cfg2.win 6).cut (grid2.coords t) ((dat2 V c).after 6 t) = _
  rw [after2_6]
  unfold out2_6
  rw [View.canon_unit_zero hz2]
  unfold ego2
  simp only [View.ld_unit_zero (S := S5000x64) hz2, View.ld_unit_zero (S := S64x64) hz2, View.ld_unit_zero (S := S64) hz1]
  funext j
  obtain ⟨p, q, rfl⟩ : ∃ (p : Fin 5000) (q : Fin 64), j = ix2 p q := ⟨j 0, j 1, eq_ix2 j⟩
  refine (Cert.KernelRow.k2_pay2_apply (iblk2 V c 0 t) (iblk2 V c 1 t) (iblk2 V c 2 t) (iblk2 V c 4 t) (iblk2 V c 3 t) (iblk2 V c 5 t) p q).trans ?_
  show _ = LayerArr.ego (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (((cfg2.win 6).blk t).view.emb (ix2 p q))
  rw [emb2_6 t p q]
  unfold LayerArr.ego LayerArr.row LayerArr.mat LayerArr.vec
  simp only [iblk2_0_apply V c t, iblk2_1_apply V c t, iblk2_2_apply V c t, iblk2_3_apply V c t, iblk2_4_apply V c t, iblk2_5_apply V c t]

/-- The array output window 6 ends holding: the layer's new embeddings of the arrays the launch finds. -/
theorem final2_6 (c : Dev nD) : (dat2 V c).arrAt 6 cfg2.N = LayerArr.ego (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) :=
  (dat2 V c).arrAt_eq_of_cover 6 (LayerArr.ego (V c (Pipeline.arrRef spec2 0)) (V c (Pipeline.arrRef spec2 1)) (V c (Pipeline.arrRef spec2 2)) (V c (Pipeline.arrRef spec2 3)) (V c (Pipeline.arrRef spec2 4)) (V c (Pipeline.arrRef spec2 5))) (fun t _ => flushed2_6_eq V c t) cover2_6

/-- An index of the node array lies in point `t`'s block of output window 7 iff each coordinate is in the block's range. -/
theorem mem_blk2_7 (t : Fin cfg2.N) (i : S50000x64.Idx) :
    i ∈ ((cfg2.win 7).blk t).view.set ↔ ∀ a : Fin 2, win2_7.index t a * S5000x64.size a ≤ (i a).val ∧ (i a).val < win2_7.index t a * S5000x64.size a + S5000x64.size a := by
  show i ∈ ((View.whole main_v66_1).slice (win2_7.rect t)).set ↔ _
  rw [View.set_slice_whole, Rect.mem_set_unit]
  exact Iff.rfl

/-- Every index of the node array is in the block of the point its row's tile is. -/
theorem cover2_7 (i : S50000x64.Idx) : ∃ t : Fin cfg2.N, (cfg2.win 7).flush t = true ∧ i ∈ ((cfg2.win 7).blk t).view.set := by
  have hi0 : (i 0).val < 50000 := idx2_lt0 i
  have hi1 : (i 1).val < 64 := (i 1).isLt
  let t : Fin cfg2.N := ⟨(i 0).val / 5000, by rw [show cfg2.N = 10 from N_2]; omega⟩
  have htv : t.val = (i 0).val / 5000 := rfl
  obtain ⟨-, -, -, -, -, -, -, -, -, -, e6, e6', e7, e7', -⟩ := idx_facts2 t
  refine ⟨t, flush2_7 t, ?_⟩
  rw [mem_blk2_7]
  intro a
  match a with
  | ⟨0, _⟩ => show win2_7.index t (0 : Fin 2) * 5000 ≤ (i 0).val ∧ (i 0).val < win2_7.index t (0 : Fin 2) * 5000 + 5000; omega
  | ⟨1, _⟩ => show win2_7.index t (1 : Fin 2) * 64 ≤ (i 1).val ∧ (i 1).val < win2_7.index t (1 : Fin 2) * 64 + 64; omega

/-- Where row `p`, column `q` of tile `t` sits in the node array. -/
theorem emb2_7 (t : Fin cfg2.N) (p : Fin 5000) (q : Fin 64) :
    ((cfg2.win 7).blk t).view.emb (ix2 p q) = (ix2 (tileRow (pt2 t) p) q : S50000x64.Idx) := by
  obtain ⟨-, -, -, -, -, -, -, -, -, -, e6, e6', e7, e7', -⟩ := idx_facts2 t
  funext a; apply Fin.ext
  match a with
  | ⟨0, _⟩ => show win2_7.index t (0 : Fin 2) * 5000 + 1 * p.val = t.val * 5000 + p.val; omega
  | ⟨1, _⟩ => show win2_7.index t (1 : Fin 2) * 64 + 1 * q.val = q.val; omega

set_option maxHeartbeats 2000000 in
/-- What point `t` writes back through output window 7 is block `t` of the layer's normalised new embeddings of the arrays the launch
    finds: the payload at row `p`, column `q` of the tile is the row-wise layer of the tile's row `p`, which is the node
    array's row `t · 5000 + p`; the weights and biases are read whole at every point. -/
theorem flushed2_7_eq (c : Dev nD) (t : Fin cfg2.N) :
    (dat2 V c).flushed 7 t = ((cfg2.win 7).blk t).view.read (Elt Ideal) (LayerArr.norm (V c (Pipeline.arrRef spec2 0)) (V c (Pipeline.arrRef spec2 1)) (V c (Pipeline.arrRef spec2 2)) (V c (Pipeline.arrRef spec2 3)) (V c (Pipeline.arrRef spec2 4)) (V c (Pipeline.arrRef spec2 5))) := by
  show (cfg2.win 7).cut (grid2.coords t) ((dat2 V c).after 7 t) = _
  rw [after2_7]
  unfold out2_7
  rw [View.canon_unit_zero hz2]
  unfold ego2 sq2
  simp only [View.ld_unit_zero (S := S5000x64) hz2, View.ld_unit_zero (S := S64x64) hz2, View.ld_unit_zero (S := S64) hz1]
  funext j
  obtain ⟨p, q, rfl⟩ : ∃ (p : Fin 5000) (q : Fin 64), j = ix2 p q := ⟨j 0, j 1, eq_ix2 j⟩
  refine (Cert.KernelRow.k2_pay1_apply (iblk2 V c 0 t) (iblk2 V c 1 t) (iblk2 V c 2 t) (iblk2 V c 4 t) (iblk2 V c 3 t) (iblk2 V c 5 t) p q).trans ?_
  show _ = LayerArr.norm (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (((cfg2.win 7).blk t).view.emb (ix2 p q))
  rw [emb2_7 t p q]
  unfold LayerArr.norm LayerArr.row LayerArr.mat LayerArr.vec
  simp only [iblk2_0_apply V c t, iblk2_1_apply V c t, iblk2_2_apply V c t, iblk2_3_apply V c t, iblk2_4_apply V c t, iblk2_5_apply V c t]

/-- The array output window 7 ends holding: the layer's normalised new embeddings of the arrays the launch finds. -/
theorem final2_7 (c : Dev nD) : (dat2 V c).arrAt 7 cfg2.N = LayerArr.norm (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) :=
  (dat2 V c).arrAt_eq_of_cover 7 (LayerArr.norm (V c (Pipeline.arrRef spec2 0)) (V c (Pipeline.arrRef spec2 1)) (V c (Pipeline.arrRef spec2 2)) (V c (Pipeline.arrRef spec2 3)) (V c (Pipeline.arrRef spec2 4)) (V c (Pipeline.arrRef spec2 5))) (fun t _ => flushed2_7_eq V c t) cover2_7

end Cert.KernelIdeal.HandValue

end
-- ==== Proof.Glue.lean ====
/-
  The whole computation around the layer, as one function of the eleven arguments with the layer left as a parameter.

  Both programs do the same things around their three layers: join the user and item embeddings into one node array;
  before each layer aggregate the messages (gather the neighbours' rows, scale by the edge weights, scatter-add into the
  target rows); take the layer's k-th weights and biases; after the last layer join the initial embeddings with the
  three normalised copies column-wise, split users from items, gather the requested rows and take the row-wise inner
  products. Written ONCE here, over two parameters `ego`, `nrm` (a layer's new embeddings and their normalised copy as
  functions of embeddings, messages, two weight matrices and two biases), the two programs' results are this function
  at their own layer functions, and are equal as soon as the layer functions are.
-/
import proofs.«103830_j35493609734828_1_alg».proof.KernelIdeal
import proofs.«103830_j35493609734828_1_alg».proof.Proof.Gen.KernelIdeal

noncomputable section

namespace Cert.Glue

open Idealize.ShloMosaic
open Cert.KernelIdeal (S800000 S800000x1 S800000x64 S50000x64 S25000x64 S_ S3x64x64 S1x64x64 S64x64 S3x64 S1x64 S64 S50000x256
  S25000x256 S4096 S4096x1 S4096x256 gather_S50000x64_S800000x1_S800000x64_1_0_n_n_0_1_164
  scatter_S50000x64_S800000x1_S800000x64_1_0_0_1 gather_S25000x256_S4096x1_S4096x256_1_0_n_n_0_1_1256)
open Cert.KernelIdeal.Facts₀

variable {F : FTy → Type} [FloatOps F]

/-- The eleven arguments: edge rows, edge columns, edge weights, user and item embeddings, the two weight stacks and the
    two bias stacks, the requested users and items. -/
structure Args (F : FTy → Type) where
  a0 : (⟨S800000, .i32⟩ : BufTy).Contents (Elt F)
  a1 : (⟨S800000, .i32⟩ : BufTy).Contents (Elt F)
  a2 : (⟨S800000, .f32⟩ : BufTy).Contents (Elt F)
  a3 : (⟨S25000x64, .f32⟩ : BufTy).Contents (Elt F)
  a4 : (⟨S25000x64, .f32⟩ : BufTy).Contents (Elt F)
  a5 : (⟨S3x64x64, .f32⟩ : BufTy).Contents (Elt F)
  a6 : (⟨S3x64, .f32⟩ : BufTy).Contents (Elt F)
  a7 : (⟨S3x64x64, .f32⟩ : BufTy).Contents (Elt F)
  a8 : (⟨S3x64, .f32⟩ : BufTy).Contents (Elt F)
  a9 : (⟨S4096, .i32⟩ : BufTy).Contents (Elt F)
  a10 : (⟨S4096, .i32⟩ : BufTy).Contents (Elt F)

/-- The node array: users' rows, then items'. -/
def ego0 (gu gi : (⟨S25000x64, .f32⟩ : BufTy).Contents (Elt F)) : (⟨S50000x64, .f32⟩ : BufTy).Contents (Elt F) :=
  concatenate S50000x64 0 [⟨S25000x64, gu⟩, ⟨S25000x64, gi⟩] concatenates_S25000x64_S25000x64_S50000x64_d0

/-- Edge columns as gather indices: a negative index counts from the end. -/
def wrapCols (cols : (⟨S800000, .i32⟩ : BufTy).Contents (Elt F)) : (⟨S800000x1, .i32⟩ : BufTy).Contents (Elt F) :=
  broadcastInDim S800000x1 ![0] bcast_S800000_S800000x1_0
    (select (cmpi .slt cols (broadcastInDim S800000 ![] bcast_S_S800000 (constantI S_ 32 0#32)))
      (addi cols (broadcastInDim S800000 ![] bcast_S_S800000 (constantI S_ 32 50000#32))) cols)

/-- The aggregated messages: each edge's source row scaled by the edge's weight, summed into the edge's target row. -/
def side (rows cols : (⟨S800000, .i32⟩ : BufTy).Contents (Elt F)) (vals : (⟨S800000, .f32⟩ : BufTy).Contents (Elt F))
    (ego : (⟨S50000x64, .f32⟩ : BufTy).Contents (Elt F)) : (⟨S50000x64, .f32⟩ : BufTy).Contents (Elt F) :=
  Host.scatterAdd scatter_S50000x64_S800000x1_S800000x64_1_0_0_1
    (broadcastInDim S50000x64 ![] bcast_S_S50000x64 (constant (F := F) S_ .f32 0x00000000#32))
    (broadcastInDim S800000x1 ![0] bcast_S800000_S800000x1_0 rows)
    (mulf (broadcastInDim S800000x64 ![0, 1] bcast_S800000x1_S800000x64_0_1 (broadcastInDim S800000x1 ![0] bcast_S800000_S800000x1_0 vals))
      (Host.gather gather_S50000x64_S800000x1_S800000x64_1_0_n_n_0_1_164 ego (wrapCols cols)))

/-- The k-th weight matrix and bias vector of a stack. -/
def w0 (W : (⟨S3x64x64, .f32⟩ : BufTy).Contents (Elt F)) : (⟨S64x64, .f32⟩ : BufTy).Contents (Elt F) :=
  shapeCast S64x64 (extractStridedSlice S1x64x64 ![0, 0, 0] W slices_S3x64x64_S1x64x64_0_0_0) shapeCasts_S1x64x64_S64x64
def w1 (W : (⟨S3x64x64, .f32⟩ : BufTy).Contents (Elt F)) : (⟨S64x64, .f32⟩ : BufTy).Contents (Elt F) :=
  shapeCast S64x64 (extractStridedSlice S1x64x64 ![1, 0, 0] W slices_S3x64x64_S1x64x64_1_0_0) shapeCasts_S1x64x64_S64x64
def w2 (W : (⟨S3x64x64, .f32⟩ : BufTy).Contents (Elt F)) : (⟨S64x64, .f32⟩ : BufTy).Contents (Elt F) :=
  shapeCast S64x64 (extractStridedSlice S1x64x64 ![2, 0, 0] W slices_S3x64x64_S1x64x64_2_0_0) shapeCasts_S1x64x64_S64x64
def b0 (b : (⟨S3x64, .f32⟩ : BufTy).Contents (Elt F)) : (⟨S64, .f32⟩ : BufTy).Contents (Elt F) :=
  shapeCast S64 (extractStridedSlice S1x64 ![0, 0] b slices_S3x64_S1x64_0_0) shapeCasts_S1x64_S64
def b1 (b : (⟨S3x64, .f32⟩ : BufTy).Contents (Elt F)) : (⟨S64, .f32⟩ : BufTy).Contents (Elt F) :=
  shapeCast S64 (extractStridedSlice S1x64 ![1, 0] b slices_S3x64_S1x64_1_0) shapeCasts_S1x64_S64
def b2 (b : (⟨S3x64, .f32⟩ : BufTy).Contents (Elt F)) : (⟨S64, .f32⟩ : BufTy).Contents (Elt F) :=
  shapeCast S64 (extractStridedSlice S1x64 ![2, 0] b slices_S3x64_S1x64_2_0) shapeCasts_S1x64_S64

/-- Requested users or items as gather indices: a negative index counts from the end. -/
def wrapReq (u : (⟨S4096, .i32⟩ : BufTy).Contents (Elt F)) : (⟨S4096x1, .i32⟩ : BufTy).Contents (Elt F) :=
  broadcastInDim S4096x1 ![0] bcast_S4096_S4096x1_0
    (select (cmpi .slt u (broadcastInDim S4096 ![] bcast_S_S4096 (constantI S_ 32 0#32)))
      (addi u (broadcastInDim S4096 ![] bcast_S_S4096 (constantI S_ 32 25000#32))) u)

/-- Four embeddings side by side, then the users' and the items' halves. -/
def cat4 (x0 x1 x2 x3 : (⟨S50000x64, .f32⟩ : BufTy).Contents (Elt F)) : (⟨S50000x256, .f32⟩ : BufTy).Contents (Elt F) :=
  concatenate S50000x256 1 [⟨S50000x64, x0⟩, ⟨S50000x64, x1⟩, ⟨S50000x64, x2⟩, ⟨S50000x64, x3⟩]
    concatenates_S50000x64_S50000x64_S50000x64_S50000x64_S50000x256_d1
def out68 (x0 x1 x2 x3 : (⟨S50000x64, .f32⟩ : BufTy).Contents (Elt F)) : (⟨S25000x256, .f32⟩ : BufTy).Contents (Elt F) :=
  extractStridedSlice S25000x256 ![0, 0] (cat4 x0 x1 x2 x3) slices_S50000x256_S25000x256_0_0
def out69 (x0 x1 x2 x3 : (⟨S50000x64, .f32⟩ : BufTy).Contents (Elt F)) : (⟨S25000x256, .f32⟩ : BufTy).Contents (Elt F) :=
  extractStridedSlice S25000x256 ![25000, 0] (cat4 x0 x1 x2 x3) slices_S50000x256_S25000x256_25000_0
/-- The requested pairs' scores: the inner product of the user's and the item's rows. -/
def out85 (x0 x1 x2 x3 : (⟨S50000x64, .f32⟩ : BufTy).Contents (Elt F)) (u i : (⟨S4096, .i32⟩ : BufTy).Contents (Elt F)) :
    (⟨S4096, .f32⟩ : BufTy).Contents (Elt F) :=
  Host.reduceAdd
    (mulf (Host.gather gather_S25000x256_S4096x1_S4096x256_1_0_n_n_0_1_1256 (out68 x0 x1 x2 x3) (wrapReq u))
      (Host.gather gather_S25000x256_S4096x1_S4096x256_1_0_n_n_0_1_1256 (out69 x0 x1 x2 x3) (wrapReq i)))
    (constant (F := F) S_ .f32 0x00000000#32) reducesTo_S4096x256_S4096_d1 h_S_

section Program

-- a layer's new embeddings and their normalised copy, as functions of embeddings, messages, weights and biases
variable (ego nrm : (⟨S50000x64, .f32⟩ : BufTy).Contents (Elt F) → (⟨S50000x64, .f32⟩ : BufTy).Contents (Elt F)
  → (⟨S64x64, .f32⟩ : BufTy).Contents (Elt F) → (⟨S64, .f32⟩ : BufTy).Contents (Elt F)
  → (⟨S64x64, .f32⟩ : BufTy).Contents (Elt F) → (⟨S64, .f32⟩ : BufTy).Contents (Elt F) → (⟨S50000x64, .f32⟩ : BufTy).Contents (Elt F))
variable (A : Args F)

/-- The embeddings and messages entering each layer, and what each layer leaves. -/
def e0 : (⟨S50000x64, .f32⟩ : BufTy).Contents (Elt F) := ego0 A.a3 A.a4
def s0 : (⟨S50000x64, .f32⟩ : BufTy).Contents (Elt F) := side A.a0 A.a1 A.a2 (e0 A)
def e1 : (⟨S50000x64, .f32⟩ : BufTy).Contents (Elt F) := ego (e0 A) (s0 A) (w0 A.a5) (b0 A.a6) (w0 A.a7) (b0 A.a8)
def n1 : (⟨S50000x64, .f32⟩ : BufTy).Contents (Elt F) := nrm (e0 A) (s0 A) (w0 A.a5) (b0 A.a6) (w0 A.a7) (b0 A.a8)
def s1 : (⟨S50000x64, .f32⟩ : BufTy).Contents (Elt F) := side A.a0 A.a1 A.a2 (e1 ego A)
def e2 : (⟨S50000x64, .f32⟩ : BufTy).Contents (Elt F) := ego (e1 ego A) (s1 ego A) (w1 A.a5) (b1 A.a6) (w1 A.a7) (b1 A.a8)
def n2 : (⟨S50000x64, .f32⟩ : BufTy).Contents (Elt F) := nrm (e1 ego A) (s1 ego A) (w1 A.a5) (b1 A.a6) (w1 A.a7) (b1 A.a8)
def s2 : (⟨S50000x64, .f32⟩ : BufTy).Contents (Elt F) := side A.a0 A.a1 A.a2 (e2 ego A)
def n3 : (⟨S50000x64, .f32⟩ : BufTy).Contents (Elt F) := nrm (e2 ego A) (s2 ego A) (w2 A.a5) (b2 A.a6) (w2 A.a7) (b2 A.a8)

/-- The three results from the four embeddings. -/
def res68 : (⟨S25000x256, .f32⟩ : BufTy).Contents (Elt F) := out68 (e0 A) (n1 nrm A) (n2 ego nrm A) (n3 ego nrm A)
def res69 : (⟨S25000x256, .f32⟩ : BufTy).Contents (Elt F) := out69 (e0 A) (n1 nrm A) (n2 ego nrm A) (n3 ego nrm A)
def res85 : (⟨S4096, .f32⟩ : BufTy).Contents (Elt F) := out85 (e0 A) (n1 nrm A) (n2 ego nrm A) (n3 ego nrm A) A.a9 A.a10

end Program

end Cert.Glue

end
-- ==== Proof.IdealStretch.lean ====
/-
  Each stretch of host operations read as functions of the contents it starts from.

  A stretch is a straight line of operations, each writing its own buffer; what a buffer holds afterwards is the
  composition of the operations that feed it, applied to the starting contents of the buffers the stretch only reads.
  The compositions are the named pieces of the whole computation: the joined node array, the aggregated messages, a
  layer's weights and biases, and the three results from the four embeddings.
-/
import proofs.«103830_j35493609734828_1_alg».proof.Proof.Gen.KernelIdeal.Launch
import proofs.«103830_j35493609734828_1_alg».proof.Proof.Glue
import Idealize.ShloMosaic.Lib.StableHlo.Run

set_option maxRecDepth 16384

noncomputable section

namespace Cert.KernelIdeal.HandRead

open Cert.KernelIdeal Cert.KernelIdeal.Gen
open Idealize.ShloMosaic Idealize.ShloMosaic.TcCoe Idealize.ShloMosaic.StableHlo
open Idealize.SL Idealize.SL.Sem

variable {F : FTy → Type} [FloatOps F] (W : Valuation τ sig (Elt F))

/-! ## Before the first launch -/

theorem h0_v0 : after (hostOps0 (F := F)) W (Proc.devRef .tc main_v0) = Cert.Glue.ego0 (W (Proc.devRef .tc main_arg3)) (W (Proc.devRef .tc main_arg4)) := by
  dsimp only [hostOps0]; after_results; rfl
set_option maxHeartbeats 4000000 in
theorem h0_v13 : after (hostOps0 (F := F)) W (Proc.devRef .tc main_v13)
    = Cert.Glue.side (W (Proc.devRef .tc main_arg0)) (W (Proc.devRef .tc main_arg1)) (W (Proc.devRef .tc main_arg2)) (Cert.Glue.ego0 (W (Proc.devRef .tc main_arg3)) (W (Proc.devRef .tc main_arg4))) := by
  dsimp only [hostOps0]; after_results_simp; rfl
theorem h0_v15 : after (hostOps0 (F := F)) W (Proc.devRef .tc main_v15) = Cert.Glue.w0 (W (Proc.devRef .tc main_arg5)) := by
  dsimp only [hostOps0]; after_results; rfl
theorem h0_v17 : after (hostOps0 (F := F)) W (Proc.devRef .tc main_v17) = Cert.Glue.b0 (W (Proc.devRef .tc main_arg6)) := by
  dsimp only [hostOps0]; after_results; rfl
theorem h0_v19 : after (hostOps0 (F := F)) W (Proc.devRef .tc main_v19) = Cert.Glue.w0 (W (Proc.devRef .tc main_arg7)) := by
  dsimp only [hostOps0]; after_results; rfl
theorem h0_v21 : after (hostOps0 (F := F)) W (Proc.devRef .tc main_v21) = Cert.Glue.b0 (W (Proc.devRef .tc main_arg8)) := by
  dsimp only [hostOps0]; after_results; rfl

/-! ## Between the launches -/

set_option maxHeartbeats 4000000 in
theorem h1_v35 : after (hostOps1 (F := F)) W (Proc.devRef .tc main_v35)
    = Cert.Glue.side (W (Proc.devRef .tc main_arg0)) (W (Proc.devRef .tc main_arg1)) (W (Proc.devRef .tc main_arg2)) (W (Proc.devRef .tc main_v22_0)) := by
  dsimp only [hostOps1]; after_results_simp; rfl
theorem h1_v37 : after (hostOps1 (F := F)) W (Proc.devRef .tc main_v37) = Cert.Glue.w1 (W (Proc.devRef .tc main_arg5)) := by
  dsimp only [hostOps1]; after_results; rfl
theorem h1_v39 : after (hostOps1 (F := F)) W (Proc.devRef .tc main_v39) = Cert.Glue.b1 (W (Proc.devRef .tc main_arg6)) := by
  dsimp only [hostOps1]; after_results; rfl
theorem h1_v41 : after (hostOps1 (F := F)) W (Proc.devRef .tc main_v41) = Cert.Glue.w1 (W (Proc.devRef .tc main_arg7)) := by
  dsimp only [hostOps1]; after_results; rfl
theorem h1_v43 : after (hostOps1 (F := F)) W (Proc.devRef .tc main_v43) = Cert.Glue.b1 (W (Proc.devRef .tc main_arg8)) := by
  dsimp only [hostOps1]; after_results; rfl

set_option maxHeartbeats 4000000 in
theorem h2_v57 : after (hostOps2 (F := F)) W (Proc.devRef .tc main_v57)
    = Cert.Glue.side (W (Proc.devRef .tc main_arg0)) (W (Proc.devRef .tc main_arg1)) (W (Proc.devRef .tc main_arg2)) (W (Proc.devRef .tc main_v44_0)) := by
  dsimp only [hostOps2]; after_results_simp; rfl
theorem h2_v59 : after (hostOps2 (F := F)) W (Proc.devRef .tc main_v59) = Cert.Glue.w2 (W (Proc.devRef .tc main_arg5)) := by
  dsimp only [hostOps2]; after_results; rfl
theorem h2_v61 : after (hostOps2 (F := F)) W (Proc.devRef .tc main_v61) = Cert.Glue.b2 (W (Proc.devRef .tc main_arg6)) := by
  dsimp only [hostOps2]; after_results; rfl
theorem h2_v63 : after (hostOps2 (F := F)) W (Proc.devRef .tc main_v63) = Cert.Glue.w2 (W (Proc.devRef .tc main_arg7)) := by
  dsimp only [hostOps2]; after_results; rfl
theorem h2_v65 : after (hostOps2 (F := F)) W (Proc.devRef .tc main_v65) = Cert.Glue.b2 (W (Proc.devRef .tc main_arg8)) := by
  dsimp only [hostOps2]; after_results; rfl

/-! ## After the last launch -/

theorem h3_v68 : after (hostOps3 (F := F)) W (Proc.devRef .tc main_v68)
    = Cert.Glue.out68 (W (Proc.devRef .tc main_v0)) (W (Proc.devRef .tc main_v22_1)) (W (Proc.devRef .tc main_v44_1)) (W (Proc.devRef .tc main_v66_1)) := by
  dsimp only [hostOps3]; after_results_simp; rfl
theorem h3_v69 : after (hostOps3 (F := F)) W (Proc.devRef .tc main_v69)
    = Cert.Glue.out69 (W (Proc.devRef .tc main_v0)) (W (Proc.devRef .tc main_v22_1)) (W (Proc.devRef .tc main_v44_1)) (W (Proc.devRef .tc main_v66_1)) := by
  dsimp only [hostOps3]; after_results_simp; rfl
theorem h3_v85 : after (hostOps3 (F := F)) W (Proc.devRef .tc main_v85)
    = Cert.Glue.out85 (W (Proc.devRef .tc main_v0)) (W (Proc.devRef .tc main_v22_1)) (W (Proc.devRef .tc main_v44_1)) (W (Proc.devRef .tc main_v66_1)) (W (Proc.devRef .tc main_arg9)) (W (Proc.devRef .tc main_arg10)) := by
  dsimp only [hostOps3]; after_results_simp; rfl

end Cert.KernelIdeal.HandRead

end
-- ==== Proof.IdealRead.lean ====
/-
  The program's three results as the whole computation at the array-level layer.

  Walk the seven boundaries. After the first stretch the node array, the messages and the first layer's weights are the
  named pieces of the arguments. A launch replaces its two output arrays by the layer of the arrays it finds and leaves
  everything else; a stretch writes only its own buffers. So each boundary's contents, at the buffers that matter, are
  the whole computation's named intermediate values, and the last stretch's three results are its results.
-/
import proofs.«103830_j35493609734828_1_alg».proof.Proof.IdealRun
import proofs.«103830_j35493609734828_1_alg».proof.Proof.IdealValue
import proofs.«103830_j35493609734828_1_alg».proof.Proof.IdealStretch

set_option maxRecDepth 16384

noncomputable section

namespace Cert.KernelIdeal.HandRead

open Cert.KernelIdeal Cert.KernelIdeal.Gen Cert.KernelIdeal.Hand Cert.KernelIdeal.HandValue
open Idealize.ShloMosaic Idealize.ShloMosaic.TcCoe
open Idealize.SL Idealize.SL.Sem

variable (m : (ℓ : Loc nD τ sig) → Buf (Elt Ideal) ℓ) (c : Dev nD)

/-- The eleven arguments as launched, on core `c`. -/
def argsOf : Cert.Glue.Args Ideal :=
  ⟨W0 m c (Proc.devRef .tc main_arg0), W0 m c (Proc.devRef .tc main_arg1), W0 m c (Proc.devRef .tc main_arg2), W0 m c (Proc.devRef .tc main_arg3), W0 m c (Proc.devRef .tc main_arg4),
   W0 m c (Proc.devRef .tc main_arg5), W0 m c (Proc.devRef .tc main_arg6), W0 m c (Proc.devRef .tc main_arg7), W0 m c (Proc.devRef .tc main_arg8), W0 m c (Proc.devRef .tc main_arg9),
   W0 m c (Proc.devRef .tc main_arg10)⟩

/-! ## After the first stretch -/

theorem s1_v0 : W1 m c (Proc.devRef .tc main_v0) = Cert.Glue.e0 (argsOf m c) := h0_v0 (W0 m c)
theorem s1_v13 : W1 m c (Proc.devRef .tc main_v13) = Cert.Glue.s0 (argsOf m c) := h0_v13 (W0 m c)
theorem s1_v15 : W1 m c (Proc.devRef .tc main_v15) = Cert.Glue.w0 (argsOf m c).a5 := h0_v15 (W0 m c)
theorem s1_v17 : W1 m c (Proc.devRef .tc main_v17) = Cert.Glue.b0 (argsOf m c).a6 := h0_v17 (W0 m c)
theorem s1_v19 : W1 m c (Proc.devRef .tc main_v19) = Cert.Glue.w0 (argsOf m c).a7 := h0_v19 (W0 m c)
theorem s1_v21 : W1 m c (Proc.devRef .tc main_v21) = Cert.Glue.b0 (argsOf m c).a8 := h0_v21 (W0 m c)
theorem s1_a0 : W1 m c (Proc.devRef .tc main_arg0) = (argsOf m c).a0 := W1_of m c main_arg0 (by decide)
theorem s1_a1 : W1 m c (Proc.devRef .tc main_arg1) = (argsOf m c).a1 := W1_of m c main_arg1 (by decide)
theorem s1_a2 : W1 m c (Proc.devRef .tc main_arg2) = (argsOf m c).a2 := W1_of m c main_arg2 (by decide)
theorem s1_a5 : W1 m c (Proc.devRef .tc main_arg5) = (argsOf m c).a5 := W1_of m c main_arg5 (by decide)
theorem s1_a6 : W1 m c (Proc.devRef .tc main_arg6) = (argsOf m c).a6 := W1_of m c main_arg6 (by decide)
theorem s1_a7 : W1 m c (Proc.devRef .tc main_arg7) = (argsOf m c).a7 := W1_of m c main_arg7 (by decide)
theorem s1_a8 : W1 m c (Proc.devRef .tc main_arg8) = (argsOf m c).a8 := W1_of m c main_arg8 (by decide)
theorem s1_a9 : W1 m c (Proc.devRef .tc main_arg9) = (argsOf m c).a9 := W1_of m c main_arg9 (by decide)
theorem s1_a10 : W1 m c (Proc.devRef .tc main_arg10) = (argsOf m c).a10 := W1_of m c main_arg10 (by decide)

/-! ## After the first launch -/

theorem s2_v22_0 : W2 m c (Proc.devRef .tc main_v22_0) = Cert.Glue.e1 Cert.LayerArr.ego (argsOf m c) := by
  refine (W2_arr m c 6).trans ?_
  rw [final0_6 (V1 m) c]
  show Cert.LayerArr.ego (W1 m c (Proc.devRef .tc main_v0)) (W1 m c (Proc.devRef .tc main_v13)) (W1 m c (Proc.devRef .tc main_v15)) (W1 m c (Proc.devRef .tc main_v17)) (W1 m c (Proc.devRef .tc main_v19)) (W1 m c (Proc.devRef .tc main_v21)) = _
  rw [s1_v0 m c, s1_v13 m c, s1_v15 m c, s1_v17 m c, s1_v19 m c, s1_v21 m c]
  rfl
theorem s2_v22_1 : W2 m c (Proc.devRef .tc main_v22_1) = Cert.Glue.n1 Cert.LayerArr.norm (argsOf m c) := by
  refine (W2_arr m c 7).trans ?_
  rw [final0_7 (V1 m) c]
  show Cert.LayerArr.norm (W1 m c (Proc.devRef .tc main_v0)) (W1 m c (Proc.devRef .tc main_v13)) (W1 m c (Proc.devRef .tc main_v15)) (W1 m c (Proc.devRef .tc main_v17)) (W1 m c (Proc.devRef .tc main_v19)) (W1 m c (Proc.devRef .tc main_v21)) = _
  rw [s1_v0 m c, s1_v13 m c, s1_v15 m c, s1_v17 m c, s1_v19 m c, s1_v21 m c]
  rfl
theorem s2_v0 : W2 m c (Proc.devRef .tc main_v0) = Cert.Glue.e0 (argsOf m c) :=
  (W2_arr m c 0).trans (((dat0 (V1 m) c).arrAt_in 0 rfl _).trans ((A_eq0 (V1 m) c 0).trans (s1_v0 m c)))
theorem s2_a0 : W2 m c (Proc.devRef .tc main_arg0) = (argsOf m c).a0 := (W2_of_ne m c main_arg0 (by decide)).trans (s1_a0 m c)
theorem s2_a1 : W2 m c (Proc.devRef .tc main_arg1) = (argsOf m c).a1 := (W2_of_ne m c main_arg1 (by decide)).trans (s1_a1 m c)
theorem s2_a2 : W2 m c (Proc.devRef .tc main_arg2) = (argsOf m c).a2 := (W2_of_ne m c main_arg2 (by decide)).trans (s1_a2 m c)
theorem s2_a5 : W2 m c (Proc.devRef .tc main_arg5) = (argsOf m c).a5 := (W2_of_ne m c main_arg5 (by decide)).trans (s1_a5 m c)
theorem s2_a6 : W2 m c (Proc.devRef .tc main_arg6) = (argsOf m c).a6 := (W2_of_ne m c main_arg6 (by decide)).trans (s1_a6 m c)
theorem s2_a7 : W2 m c (Proc.devRef .tc main_arg7) = (argsOf m c).a7 := (W2_of_ne m c main_arg7 (by decide)).trans (s1_a7 m c)
theorem s2_a8 : W2 m c (Proc.devRef .tc main_arg8) = (argsOf m c).a8 := (W2_of_ne m c main_arg8 (by decide)).trans (s1_a8 m c)
theorem s2_a9 : W2 m c (Proc.devRef .tc main_arg9) = (argsOf m c).a9 := (W2_of_ne m c main_arg9 (by decide)).trans (s1_a9 m c)
theorem s2_a10 : W2 m c (Proc.devRef .tc main_arg10) = (argsOf m c).a10 := (W2_of_ne m c main_arg10 (by decide)).trans (s1_a10 m c)

/-! ## After the second stretch -/

theorem s3_v35 : W3 m c (Proc.devRef .tc main_v35) = Cert.Glue.s1 Cert.LayerArr.ego (argsOf m c) := by
  refine (h1_v35 (W2 m c)).trans ?_
  rw [s2_a0 m c, s2_a1 m c, s2_a2 m c, s2_v22_0 m c]
  rfl
theorem s3_v37 : W3 m c (Proc.devRef .tc main_v37) = Cert.Glue.w1 (argsOf m c).a5 := (h1_v37 (W2 m c)).trans (by rw [s2_a5 m c])
theorem s3_v39 : W3 m c (Proc.devRef .tc main_v39) = Cert.Glue.b1 (argsOf m c).a6 := (h1_v39 (W2 m c)).trans (by rw [s2_a6 m c])
theorem s3_v41 : W3 m c (Proc.devRef .tc main_v41) = Cert.Glue.w1 (argsOf m c).a7 := (h1_v41 (W2 m c)).trans (by rw [s2_a7 m c])
theorem s3_v43 : W3 m c (Proc.devRef .tc main_v43) = Cert.Glue.b1 (argsOf m c).a8 := (h1_v43 (W2 m c)).trans (by rw [s2_a8 m c])
theorem s3_v22_0 : W3 m c (Proc.devRef .tc main_v22_0) = Cert.Glue.e1 Cert.LayerArr.ego (argsOf m c) := (W3_of m c main_v22_0 (by decide)).trans (s2_v22_0 m c)
theorem s3_v22_1 : W3 m c (Proc.devRef .tc main_v22_1) = Cert.Glue.n1 Cert.LayerArr.norm (argsOf m c) := (W3_of m c main_v22_1 (by decide)).trans (s2_v22_1 m c)
theorem s3_v0 : W3 m c (Proc.devRef .tc main_v0) = Cert.Glue.e0 (argsOf m c) := (W3_of m c main_v0 (by decide)).trans (s2_v0 m c)
theorem s3_a0 : W3 m c (Proc.devRef .tc main_arg0) = (argsOf m c).a0 := (W3_of m c main_arg0 (by decide)).trans (s2_a0 m c)
theorem s3_a1 : W3 m c (Proc.devRef .tc main_arg1) = (argsOf m c).a1 := (W3_of m c main_arg1 (by decide)).trans (s2_a1 m c)
theorem s3_a2 : W3 m c (Proc.devRef .tc main_arg2) = (argsOf m c).a2 := (W3_of m c main_arg2 (by decide)).trans (s2_a2 m c)
theorem s3_a5 : W3 m c (Proc.devRef .tc main_arg5) = (argsOf m c).a5 := (W3_of m c main_arg5 (by decide)).trans (s2_a5 m c)
theorem s3_a6 : W3 m c (Proc.devRef .tc main_arg6) = (argsOf m c).a6 := (W3_of m c main_arg6 (by decide)).trans (s2_a6 m c)
theorem s3_a7 : W3 m c (Proc.devRef .tc main_arg7) = (argsOf m c).a7 := (W3_of m c main_arg7 (by decide)).trans (s2_a7 m c)
theorem s3_a8 : W3 m c (Proc.devRef .tc main_arg8) = (argsOf m c).a8 := (W3_of m c main_arg8 (by decide)).trans (s2_a8 m c)
theorem s3_a9 : W3 m c (Proc.devRef .tc main_arg9) = (argsOf m c).a9 := (W3_of m c main_arg9 (by decide)).trans (s2_a9 m c)
theorem s3_a10 : W3 m c (Proc.devRef .tc main_arg10) = (argsOf m c).a10 := (W3_of m c main_arg10 (by decide)).trans (s2_a10 m c)

/-! ## After the second launch -/

theorem s4_v44_0 : W4 m c (Proc.devRef .tc main_v44_0) = Cert.Glue.e2 Cert.LayerArr.ego (argsOf m c) := by
  refine (W4_arr m c 6).trans ?_
  rw [final1_6 (V3 m) c]
  show Cert.LayerArr.ego (W3 m c (Proc.devRef .tc main_v22_0)) (W3 m c (Proc.devRef .tc main_v35)) (W3 m c (Proc.devRef .tc main_v37)) (W3 m c (Proc.devRef .tc main_v39)) (W3 m c (Proc.devRef .tc main_v41)) (W3 m c (Proc.devRef .tc main_v43)) = _
  rw [s3_v22_0 m c, s3_v35 m c, s3_v37 m c, s3_v39 m c, s3_v41 m c, s3_v43 m c]
  rfl
theorem s4_v44_1 : W4 m c (Proc.devRef .tc main_v44_1) = Cert.Glue.n2 Cert.LayerArr.ego Cert.LayerArr.norm (argsOf m c) := by
  refine (W4_arr m c 7).trans ?_
  rw [final1_7 (V3 m) c]
  show Cert.LayerArr.norm (W3 m c (Proc.devRef .tc main_v22_0)) (W3 m c (Proc.devRef .tc main_v35)) (W3 m c (Proc.devRef .tc main_v37)) (W3 m c (Proc.devRef .tc main_v39)) (W3 m c (Proc.devRef .tc main_v41)) (W3 m c (Proc.devRef .tc main_v43)) = _
  rw [s3_v22_0 m c, s3_v35 m c, s3_v37 m c, s3_v39 m c, s3_v41 m c, s3_v43 m c]
  rfl
theorem s4_v22_1 : W4 m c (Proc.devRef .tc main_v22_1) = Cert.Glue.n1 Cert.LayerArr.norm (argsOf m c) := (W4_of_ne m c main_v22_1 (by decide)).trans (s3_v22_1 m c)
theorem s4_v0 : W4 m c (Proc.devRef .tc main_v0) = Cert.Glue.e0 (argsOf m c) := (W4_of_ne m c main_v0 (by decide)).trans (s3_v0 m c)
theorem s4_a0 : W4 m c (Proc.devRef .tc main_arg0) = (argsOf m c).a0 := (W4_of_ne m c main_arg0 (by decide)).trans (s3_a0 m c)
theorem s4_a1 : W4 m c (Proc.devRef .tc main_arg1) = (argsOf m c).a1 := (W4_of_ne m c main_arg1 (by decide)).trans (s3_a1 m c)
theorem s4_a2 : W4 m c (Proc.devRef .tc main_arg2) = (argsOf m c).a2 := (W4_of_ne m c main_arg2 (by decide)).trans (s3_a2 m c)
theorem s4_a5 : W4 m c (Proc.devRef .tc main_arg5) = (argsOf m c).a5 := (W4_of_ne m c main_arg5 (by decide)).trans (s3_a5 m c)
theorem s4_a6 : W4 m c (Proc.devRef .tc main_arg6) = (argsOf m c).a6 := (W4_of_ne m c main_arg6 (by decide)).trans (s3_a6 m c)
theorem s4_a7 : W4 m c (Proc.devRef .tc main_arg7) = (argsOf m c).a7 := (W4_of_ne m c main_arg7 (by decide)).trans (s3_a7 m c)
theorem s4_a8 : W4 m c (Proc.devRef .tc main_arg8) = (argsOf m c).a8 := (W4_of_ne m c main_arg8 (by decide)).trans (s3_a8 m c)
theorem s4_a9 : W4 m c (Proc.devRef .tc main_arg9) = (argsOf m c).a9 := (W4_of_ne m c main_arg9 (by decide)).trans (s3_a9 m c)
theorem s4_a10 : W4 m c (Proc.devRef .tc main_arg10) = (argsOf m c).a10 := (W4_of_ne m c main_arg10 (by decide)).trans (s3_a10 m c)

/-! ## After the third stretch -/

theorem s5_v57 : W5 m c (Proc.devRef .tc main_v57) = Cert.Glue.s2 Cert.LayerArr.ego (argsOf m c) := by
  refine (h2_v57 (W4 m c)).trans ?_
  rw [s4_a0 m c, s4_a1 m c, s4_a2 m c, s4_v44_0 m c]
  rfl
theorem s5_v59 : W5 m c (Proc.devRef .tc main_v59) = Cert.Glue.w2 (argsOf m c).a5 := (h2_v59 (W4 m c)).trans (by rw [s4_a5 m c])
theorem s5_v61 : W5 m c (Proc.devRef .tc main_v61) = Cert.Glue.b2 (argsOf m c).a6 := (h2_v61 (W4 m c)).trans (by rw [s4_a6 m c])
theorem s5_v63 : W5 m c (Proc.devRef .tc main_v63) = Cert.Glue.w2 (argsOf m c).a7 := (h2_v63 (W4 m c)).trans (by rw [s4_a7 m c])
theorem s5_v65 : W5 m c (Proc.devRef .tc main_v65) = Cert.Glue.b2 (argsOf m c).a8 := (h2_v65 (W4 m c)).trans (by rw [s4_a8 m c])
theorem s5_v44_0 : W5 m c (Proc.devRef .tc main_v44_0) = Cert.Glue.e2 Cert.LayerArr.ego (argsOf m c) := (W5_of m c main_v44_0 (by decide)).trans (s4_v44_0 m c)
theorem s5_v44_1 : W5 m c (Proc.devRef .tc main_v44_1) = Cert.Glue.n2 Cert.LayerArr.ego Cert.LayerArr.norm (argsOf m c) := (W5_of m c main_v44_1 (by decide)).trans (s4_v44_1 m c)
theorem s5_v22_1 : W5 m c (Proc.devRef .tc main_v22_1) = Cert.Glue.n1 Cert.LayerArr.norm (argsOf m c) := (W5_of m c main_v22_1 (by decide)).trans (s4_v22_1 m c)
theorem s5_v0 : W5 m c (Proc.devRef .tc main_v0) = Cert.Glue.e0 (argsOf m c) := (W5_of m c main_v0 (by decide)).trans (s4_v0 m c)
theorem s5_a9 : W5 m c (Proc.devRef .tc main_arg9) = (argsOf m c).a9 := (W5_of m c main_arg9 (by decide)).trans (s4_a9 m c)
theorem s5_a10 : W5 m c (Proc.devRef .tc main_arg10) = (argsOf m c).a10 := (W5_of m c main_arg10 (by decide)).trans (s4_a10 m c)

/-! ## After the third launch -/

theorem s6_v66_1 : W6 m c (Proc.devRef .tc main_v66_1) = Cert.Glue.n3 Cert.LayerArr.ego Cert.LayerArr.norm (argsOf m c) := by
  refine (W6_arr m c 7).trans ?_
  rw [final2_7 (V5 m) c]
  show Cert.LayerArr.norm (W5 m c (Proc.devRef .tc main_v44_0)) (W5 m c (Proc.devRef .tc main_v57)) (W5 m c (Proc.devRef .tc main_v59)) (W5 m c (Proc.devRef .tc main_v61)) (W5 m c (Proc.devRef .tc main_v63)) (W5 m c (Proc.devRef .tc main_v65)) = _
  rw [s5_v44_0 m c, s5_v57 m c, s5_v59 m c, s5_v61 m c, s5_v63 m c, s5_v65 m c]
  rfl
theorem s6_v44_1 : W6 m c (Proc.devRef .tc main_v44_1) = Cert.Glue.n2 Cert.LayerArr.ego Cert.LayerArr.norm (argsOf m c) := (W6_of_ne m c main_v44_1 (by decide)).trans (s5_v44_1 m c)
theorem s6_v22_1 : W6 m c (Proc.devRef .tc main_v22_1) = Cert.Glue.n1 Cert.LayerArr.norm (argsOf m c) := (W6_of_ne m c main_v22_1 (by decide)).trans (s5_v22_1 m c)
theorem s6_v0 : W6 m c (Proc.devRef .tc main_v0) = Cert.Glue.e0 (argsOf m c) := (W6_of_ne m c main_v0 (by decide)).trans (s5_v0 m c)
theorem s6_a9 : W6 m c (Proc.devRef .tc main_arg9) = (argsOf m c).a9 := (W6_of_ne m c main_arg9 (by decide)).trans (s5_a9 m c)
theorem s6_a10 : W6 m c (Proc.devRef .tc main_arg10) = (argsOf m c).a10 := (W6_of_ne m c main_arg10 (by decide)).trans (s5_a10 m c)

/-! ## The three results -/

theorem res68 : W7 m c (Proc.devRef .tc main_v68) = Cert.Glue.res68 Cert.LayerArr.ego Cert.LayerArr.norm (argsOf m c) := by
  refine (h3_v68 (W6 m c)).trans ?_
  rw [s6_v0 m c, s6_v22_1 m c, s6_v44_1 m c, s6_v66_1 m c]
  rfl
theorem res69 : W7 m c (Proc.devRef .tc main_v69) = Cert.Glue.res69 Cert.LayerArr.ego Cert.LayerArr.norm (argsOf m c) := by
  refine (h3_v69 (W6 m c)).trans ?_
  rw [s6_v0 m c, s6_v22_1 m c, s6_v44_1 m c, s6_v66_1 m c]
  rfl
theorem res85 : W7 m c (Proc.devRef .tc main_v85) = Cert.Glue.res85 Cert.LayerArr.ego Cert.LayerArr.norm (argsOf m c) := by
  refine (h3_v85 (W6 m c)).trans ?_
  rw [s6_v0 m c, s6_v22_1 m c, s6_v44_1 m c, s6_v66_1 m c, s6_a9 m c, s6_a10 m c]
  rfl

end Cert.KernelIdeal.HandRead

end
-- ==== Proof.RefRun.lean ====
/-
  The reference program's @main read as one straight line of host operations, and its run.

  The printed @main is three windows run in order; six of its statements call the module-local function
  @leaky_relu, whose body is six operations followed by a call of @_where (one select). A call executes the
  callee's body on the operands, so the straight line lists the callee's seven operations at each call site,
  over that call's own buffer record. The line has 205 operations, each writing a buffer of its own
  (the buffers after the eleven arguments, in order), so no operation writes an argument.

  `run`: from any memory with zero counters every weakly fair execution of @main terminates and leaves every
  buffer at the fold of the operations' results over the launch contents. `kept` / `args_kept`: a buffer
  no operation writes — every argument — holds what it held. `frame`: the arguments end as launched.
-/
import proofs.«103830_j35493609734828_1_alg».proof.ReferenceIdeal
import proofs.«103830_j35493609734828_1_alg».proof.Proof.Gen.ReferenceIdeal
import Idealize.ShloMosaic.Lib.StableHlo.Run

-- memberships decided over two hundred references, and a line of two hundred binds, recurse past the default depth
set_option maxRecDepth 8192

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the calls unfolded: each `leaky_relu(x, α)` is seven — the scalar zero, its
    broadcast, the comparison `x ≥ 0`, the slope converted to its own type, its broadcast, the product
    `α · x`, and @_where's select between `x` and that product. -/
abbrev ops : List (HloOp τ sig (Elt F)) :=
  [ binary main_arg3 main_arg4 main_v0 ((fun a b => concatenate S50000x64 0 [⟨S25000x64, a⟩, ⟨S25000x64, b⟩] concatenates_S25000x64_S25000x64_S50000x64_d0) : (⟨S25000x64, .f32⟩ : BufTy).Contents (Elt F) → (⟨S25000x64, .f32⟩ : BufTy).Contents (Elt F) → (⟨S50000x64, .f32⟩ : BufTy).Contents (Elt F)),
    unary main_arg2 main_v1 (broadcastInDim S800000x1 ![0] bcast_S800000_S800000x1_0 : (⟨S800000, .f32⟩ : BufTy).Contents (Elt F) → (⟨S800000x1, .f32⟩ : BufTy).Contents (Elt F)),
    nullary main_c (constantI S_ 32 0#32),
    unary main_c main_v2 (broadcastInDim S800000 ![] bcast_S_S800000 : (⟨S_, .i32⟩ : BufTy).Contents (Elt F) → (⟨S800000, .i32⟩ : BufTy).Contents (Elt F)),
    binary main_arg1 main_v2 main_v3 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v4 (broadcastInDim S800000 ![] bcast_S_S800000 : (⟨S_, .i32⟩ : BufTy).Contents (Elt F) → (⟨S800000, .i32⟩ : BufTy).Contents (Elt F)),
    binary main_arg1 main_v4 main_v5 (addi : (⟨S800000, .i32⟩ : BufTy).Contents (Elt F) → (⟨S800000, .i32⟩ : BufTy).Contents (Elt F) → (⟨S800000, .i32⟩ : BufTy).Contents (Elt F)),
    ternary main_v3 main_v5 main_arg1 main_v6 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v6 main_v7 (broadcastInDim S800000x1 ![0] bcast_S800000_S800000x1_0 : (⟨S800000, .i32⟩ : BufTy).Contents (Elt F) → (⟨S800000x1, .i32⟩ : BufTy).Contents (Elt F)),
    binary main_v0 main_v7 main_v8 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    unary main_v1 main_v9 (broadcastInDim S800000x64 ![0, 1] bcast_S800000x1_S800000x64_0_1 : (⟨S800000x1, .f32⟩ : BufTy).Contents (Elt F) → (⟨S800000x64, .f32⟩ : BufTy).Contents (Elt F)),
    binary main_v9 main_v8 main_v10 (mulf : (⟨S800000x64, .f32⟩ : BufTy).Contents (Elt F) → (⟨S800000x64, .f32⟩ : BufTy).Contents (Elt F) → (⟨S800000x64, .f32⟩ : BufTy).Contents (Elt F)),
    nullary main_cst (constant S_ .f32 0x00000000#32),
    unary main_cst main_v11 (broadcastInDim S50000x64 ![] bcast_S_S50000x64 : (⟨S_, .f32⟩ : BufTy).Contents (Elt F) → (⟨S50000x64, .f32⟩ : BufTy).Contents (Elt F)),
    unary main_arg0 main_v12 (broadcastInDim S800000x1 ![0] bcast_S800000_S800000x1_0 : (⟨S800000, .i32⟩ : BufTy).Contents (Elt F) → (⟨S800000x1, .i32⟩ : BufTy).Contents (Elt F)),
    ternary main_v11 main_v12 main_v10 main_v13 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    unary main_arg5 main_v14 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v14 main_v15 rfl shapeCasts_S1x64x64_S64x64,
    binary main_v13 main_v15 main_v16 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg6 main_v17 ((extractStridedSlice S1x64 ![0, 0] · slices_S3x64_S1x64_0_0) : (⟨S3x64, .f32⟩ : BufTy).Contents (Elt F) → (⟨S1x64, .f32⟩ : BufTy).Contents (Elt F)),
    reshape main_v17 main_v18 rfl shapeCasts_S1x64_S64,
    unary main_v18 main_v19 (broadcastInDim S1x64 ![1] bcast_S64_S1x64_1 : (⟨S64, .f32⟩ : BufTy).Contents (Elt F) → (⟨S1x64, .f32⟩ : BufTy).Contents (Elt F)),
    unary main_v19 main_v20 (broadcastInDim S50000x64 ![0, 1] bcast_S1x64_S50000x64_0_1 : (⟨S1x64, .f32⟩ : BufTy).Contents (Elt F) → (⟨S50000x64, .f32⟩ : BufTy).Contents (Elt F)),
    binary main_v16 main_v20 main_v21 (addf : (⟨S50000x64, .f32⟩ : BufTy).Contents (Elt F) → (⟨S50000x64, .f32⟩ : BufTy).Contents (Elt F) → (⟨S50000x64, .f32⟩ : BufTy).Contents (Elt F)),
    nullary main_cst_1 (constant S_ .f32 0x3E4CCCCD#32),
    TRef.nullary main_call0.cst (constant S_ .f32 0x00000000#32),
    TRef.unary main_call0.cst main_call0.v0 (broadcastInDim S50000x64 ![] bcast_S_S50000x64),
    TRef.binary (.of main_v21) main_call0.v0 main_call0.v1 (cmpf .oge),
    TRef.unary (.of main_cst_1) main_call0.v2 id,
    TRef.unary main_call0.v2 main_call0.v3 (broadcastInDim S50000x64 ![] bcast_S_S50000x64),
    TRef.binary main_call0.v3 (.of main_v21) main_call0.v4 mulf,
    TRef.ternary main_call0.v1 (.of main_v21) main_call0.v4 main_call0.call0.v0 select,
    binary main_v0 main_v13 main_v23 (mulf : (⟨S50000x64, .f32⟩ : BufTy).Contents (Elt F) → (⟨S50000x64, .f32⟩ : BufTy).Contents (Elt F) → (⟨S50000x64, .f32⟩ : BufTy).Contents (Elt F)),
    unary main_arg7 main_v24 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v24 main_v25 rfl shapeCasts_S1x64x64_S64x64,
    binary main_v23 main_v25 main_v26 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg8 main_v27 ((extractStridedSlice S1x64 ![0, 0] · slices_S3x64_S1x64_0_0) : (⟨S3x64, .f32⟩ : BufTy).Contents (Elt F) → (⟨S1x64, .f32⟩ : BufTy).Contents (Elt F)),
    reshape main_v27 main_v28 rfl shapeCasts_S1x64_S64,
    unary main_v28 main_v29 (broadcastInDim S1x64 ![1] bcast_S64_S1x64_1 : (⟨S64, .f32⟩ : BufTy).Contents (Elt F) → (⟨S1x64, .f32⟩ : BufTy).Contents (Elt F)),
    unary main_v29 main_v30 (broadcastInDim S50000x64 ![0, 1] bcast_S1x64_S50000x64_0_1 : (⟨S1x64, .f32⟩ : BufTy).Contents (Elt F) → (⟨S50000x64, .f32⟩ : BufTy).Contents (Elt F)),
    binary main_v26 main_v30 main_v31 (addf : (⟨S50000x64, .f32⟩ : BufTy).Contents (Elt F) → (⟨S50000x64, .f32⟩ : BufTy).Contents (Elt F) → (⟨S50000x64, .f32⟩ : BufTy).Contents (Elt F)),
    nullary main_cst_2 (constant S_ .f32 0x3E4CCCCD#32),
    TRef.nullary main_call1.cst (constant S_ .f32 0x00000000#32),
    TRef.unary main_call1.cst main_call1.v0 (broadcastInDim S50000x64 ![] bcast_S_S50000x64),
    TRef.binary (.of main_v31) main_call1.v0 main_call1.v1 (cmpf .oge),
    TRef.unary (.of main_cst_2) main_call1.v2 id,
    TRef.unary main_call1.v2 main_call1.v3 (broadcastInDim S50000x64 ![] bcast_S_S50000x64),
    TRef.binary main_call1.v3 (.of main_v31) main_call1.v4 mulf,
    TRef.ternary main_call1.v1 (.of main_v31) main_call1.v4 main_call1.call0.v0 select,
    binary main_v22 main_v32 main_v33 (addf : (⟨S50000x64, .f32⟩ : BufTy).Contents (Elt F) → (⟨S50000x64, .f32⟩ : BufTy).Contents (Elt F) → (⟨S50000x64, .f32⟩ : BufTy).Contents (Elt F)),
    binary main_v33 main_v33 main_v34 (mulf : (⟨S50000x64, .f32⟩ : BufTy).Contents (Elt F) → (⟨S50000x64, .f32⟩ : BufTy).Contents (Elt F) → (⟨S50000x64, .f32⟩ : BufTy).Contents (Elt F)),
    nullary main_cst_3 (constant S_ .f32 0x00000000#32),
    binary main_v34 main_cst_3 main_v35 ((fun x v => Host.reduceAdd x v reducesTo_S50000x64_S50000_d1 h_S_) : (⟨S50000x64, .f32⟩ : BufTy).Contents (Elt F) → (⟨S_, .f32⟩ : BufTy).Contents (Elt F) → (⟨S50000, .f32⟩ : BufTy).Contents (Elt F)),
    unary main_v35 main_v36 (broadcastInDim S50000x1 ![0] bcast_S50000_S50000x1_0 : (⟨S50000, .f32⟩ : BufTy).Contents (Elt F) → (⟨S50000x1, .f32⟩ : BufTy).Contents (Elt F)),
    nullary main_cst_4 (constant S_ .f32 0x2B8CBCCC#32),
    unary main_cst_4 main_v37 (broadcastInDim S50000x1 ![] bcast_S_S50000x1 : (⟨S_, .f32⟩ : BufTy).Contents (Elt F) → (⟨S50000x1, .f32⟩ : BufTy).Contents (Elt F)),
    binary main_v36 main_v37 main_v38 (maximumf : (⟨S50000x1, .f32⟩ : BufTy).Contents (Elt F) → (⟨S50000x1, .f32⟩ : BufTy).Contents (Elt F) → (⟨S50000x1, .f32⟩ : BufTy).Contents (Elt F)),
    unary main_v38 main_v39 (Host.rsqrt : (⟨S50000x1, .f32⟩ : BufTy).Contents (Elt F) → (⟨S50000x1, .f32⟩ : BufTy).Contents (Elt F)),
    unary main_v39 main_v40 (broadcastInDim S50000x64 ![0, 1] bcast_S50000x1_S50000x64_0_1 : (⟨S50000x1, .f32⟩ : BufTy).Contents (Elt F) → (⟨S50000x64, .f32⟩ : BufTy).Contents (Elt F)),
    binary main_v33 main_v40 main_v41 (mulf : (⟨S50000x64, .f32⟩ : BufTy).Contents (Elt F) → (⟨S50000x64, .f32⟩ : BufTy).Contents (Elt F) → (⟨S50000x64, .f32⟩ : BufTy).Contents (Elt F)),
    unary main_arg2 main_v42 (broadcastInDim S800000x1 ![0] bcast_S800000_S800000x1_0 : (⟨S800000, .f32⟩ : BufTy).Contents (Elt F) → (⟨S800000x1, .f32⟩ : BufTy).Contents (Elt F)),
    nullary main_c_5 (constantI S_ 32 0#32),
    unary main_c_5 main_v43 (broadcastInDim S800000 ![] bcast_S_S800000 : (⟨S_, .i32⟩ : BufTy).Contents (Elt F) → (⟨S800000, .i32⟩ : BufTy).Contents (Elt F)),
    binary main_arg1 main_v43 main_v44 (cmpi .slt : (⟨S800000, .i32⟩ : BufTy).Contents (Elt F) → (⟨S800000, .i32⟩ : BufTy).Contents (Elt F) → (⟨S800000, .i1⟩ : BufTy).Contents (Elt F)),
    nullary main_c_6 (constantI S_ 32 50000#32),
    unary main_c_6 main_v45 (broadcastInDim S800000 ![] bcast_S_S800000 : (⟨S_, .i32⟩ : BufTy).Contents (Elt F) → (⟨S800000, .i32⟩ : BufTy).Contents (Elt F)),
    binary main_arg1 main_v45 main_v46 (addi : (⟨S800000, .i32⟩ : BufTy).Contents (Elt F) → (⟨S800000, .i32⟩ : BufTy).Contents (Elt F) → (⟨S800000, .i32⟩ : BufTy).Contents (Elt F)),
    ternary main_v44 main_v46 main_arg1 main_v47 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v47 main_v48 (broadcastInDim S800000x1 ![0] bcast_S800000_S800000x1_0 : (⟨S800000, .i32⟩ : BufTy).Contents (Elt F) → (⟨S800000x1, .i32⟩ : BufTy).Contents (Elt F)),
    binary main_v33 main_v48 main_v49 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    unary main_v42 main_v50 (broadcastInDim S800000x64 ![0, 1] bcast_S800000x1_S800000x64_0_1 : (⟨S800000x1, .f32⟩ : BufTy).Contents (Elt F) → (⟨S800000x64, .f32⟩ : BufTy).Contents (Elt F)),
    binary main_v50 main_v49 main_v51 (mulf : (⟨S800000x64, .f32⟩ : BufTy).Contents (Elt F) → (⟨S800000x64, .f32⟩ : BufTy).Contents (Elt F) → (⟨S800000x64, .f32⟩ : BufTy).Contents (Elt F)),
    nullary main_cst_7 (constant S_ .f32 0x00000000#32),
    unary main_cst_7 main_v52 (broadcastInDim S50000x64 ![] bcast_S_S50000x64 : (⟨S_, .f32⟩ : BufTy).Contents (Elt F) → (⟨S50000x64, .f32⟩ : BufTy).Contents (Elt F)),
    unary main_arg0 main_v53 (broadcastInDim S800000x1 ![0] bcast_S800000_S800000x1_0 : (⟨S800000, .i32⟩ : BufTy).Contents (Elt F) → (⟨S800000x1, .i32⟩ : BufTy).Contents (Elt F)),
    ternary main_v52 main_v53 main_v51 main_v54 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    unary main_arg5 main_v55 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v55 main_v56 rfl shapeCasts_S1x64x64_S64x64,
    binary main_v54 main_v56 main_v57 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg6 main_v58 ((extractStridedSlice S1x64 ![1, 0] · slices_S3x64_S1x64_1_0) : (⟨S3x64, .f32⟩ : BufTy).Contents (Elt F) → (⟨S1x64, .f32⟩ : BufTy).Contents (Elt F)),
    reshape main_v58 main_v59 rfl shapeCasts_S1x64_S64,
    unary main_v59 main_v60 (broadcastInDim S1x64 ![1] bcast_S64_S1x64_1 : (⟨S64, .f32⟩ : BufTy).Contents (Elt F) → (⟨S1x64, .f32⟩ : BufTy).Contents (Elt F)),
    unary main_v60 main_v61 (broadcastInDim S50000x64 ![0, 1] bcast_S1x64_S50000x64_0_1 : (⟨S1x64, .f32⟩ : BufTy).Contents (Elt F) → (⟨S50000x64, .f32⟩ : BufTy).Contents (Elt F)),
    binary main_v57 main_v61 main_v62 (addf : (⟨S50000x64, .f32⟩ : BufTy).Contents (Elt F) → (⟨S50000x64, .f32⟩ : BufTy).Contents (Elt F) → (⟨S50000x64, .f32⟩ : BufTy).Contents (Elt F)),
    nullary main_cst_8 (constant S_ .f32 0x3E4CCCCD#32),
    TRef.nullary main_call2.cst (constant S_ .f32 0x00000000#32),
    TRef.unary main_call2.cst main_call2.v0 (broadcastInDim S50000x64 ![] bcast_S_S50000x64),
    TRef.binary (.of main_v62) main_call2.v0 main_call2.v1 (cmpf .oge),
    TRef.unary (.of main_cst_8) main_call2.v2 id,
    TRef.unary main_call2.v2 main_call2.v3 (broadcastInDim S50000x64 ![] bcast_S_S50000x64),
    TRef.binary main_call2.v3 (.of main_v62) main_call2.v4 mulf,
    TRef.ternary main_call2.v1 (.of main_v62) main_call2.v4 main_call2.call0.v0 select,
    binary main_v33 main_v54 main_v64 (mulf : (⟨S50000x64, .f32⟩ : BufTy).Contents (Elt F) → (⟨S50000x64, .f32⟩ : BufTy).Contents (Elt F) → (⟨S50000x64, .f32⟩ : BufTy).Contents (Elt F)),
    unary main_arg7 main_v65 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v65 main_v66 rfl shapeCasts_S1x64x64_S64x64,
    binary main_v64 main_v66 main_v67 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg8 main_v68 ((extractStridedSlice S1x64 ![1, 0] · slices_S3x64_S1x64_1_0) : (⟨S3x64, .f32⟩ : BufTy).Contents (Elt F) → (⟨S1x64, .f32⟩ : BufTy).Contents (Elt F)),
    reshape main_v68 main_v69 rfl shapeCasts_S1x64_S64,
    unary main_v69 main_v70 (broadcastInDim S1x64 ![1] bcast_S64_S1x64_1 : (⟨S64, .f32⟩ : BufTy).Contents (Elt F) → (⟨S1x64, .f32⟩ : BufTy).Contents (Elt F)),
    unary main_v70 main_v71 (broadcastInDim S50000x64 ![0, 1] bcast_S1x64_S50000x64_0_1 : (⟨S1x64, .f32⟩ : BufTy).Contents (Elt F) → (⟨S50000x64, .f32⟩ : BufTy).Contents (Elt F)),
    binary main_v67 main_v71 main_v72 (addf : (⟨S50000x64, .f32⟩ : BufTy).Contents (Elt F) → (⟨S50000x64, .f32⟩ : BufTy).Contents (Elt F) → (⟨S50000x64, .f32⟩ : BufTy).Contents (Elt F)),
    nullary main_cst_9 (constant S_ .f32 0x3E4CCCCD#32),
    TRef.nullary main_call3.cst (constant S_ .f32 0x00000000#32),
    TRef.unary main_call3.cst main_call3.v0 (broadcastInDim S50000x64 ![] bcast_S_S50000x64),
    TRef.binary (.of main_v72) main_call3.v0 main_call3.v1 (cmpf .oge),
    TRef.unary (.of main_cst_9) main_call3.v2 id,
    TRef.unary main_call3.v2 main_call3.v3 (broadcastInDim S50000x64 ![] bcast_S_S50000x64),
    TRef.binary main_call3.v3 (.of main_v72) main_call3.v4 mulf,
    TRef.ternary main_call3.v1 (.of main_v72) main_call3.v4 main_call3.call0.v0 select,
    binary main_v63 main_v73 main_v74 (addf : (⟨S50000x64, .f32⟩ : BufTy).Contents (Elt F) → (⟨S50000x64, .f32⟩ : BufTy).Contents (Elt F) → (⟨S50000x64, .f32⟩ : BufTy).Contents (Elt F)),
    binary main_v74 main_v74 main_v75 (mulf : (⟨S50000x64, .f32⟩ : BufTy).Contents (Elt F) → (⟨S50000x64, .f32⟩ : BufTy).Contents (Elt F) → (⟨S50000x64, .f32⟩ : BufTy).Contents (Elt F)),
    nullary main_cst_10 (constant S_ .f32 0x00000000#32),
    binary main_v75 main_cst_10 main_v76 ((fun x v => Host.reduceAdd x v reducesTo_S50000x64_S50000_d1 h_S_) : (⟨S50000x64, .f32⟩ : BufTy).Contents (Elt F) → (⟨S_, .f32⟩ : BufTy).Contents (Elt F) → (⟨S50000, .f32⟩ : BufTy).Contents (Elt F)),
    unary main_v76 main_v77 (broadcastInDim S50000x1 ![0] bcast_S50000_S50000x1_0 : (⟨S50000, .f32⟩ : BufTy).Contents (Elt F) → (⟨S50000x1, .f32⟩ : BufTy).Contents (Elt F)),
    nullary main_cst_11 (constant S_ .f32 0x2B8CBCCC#32),
    unary main_cst_11 main_v78 (broadcastInDim S50000x1 ![] bcast_S_S50000x1 : (⟨S_, .f32⟩ : BufTy).Contents (Elt F) → (⟨S50000x1, .f32⟩ : BufTy).Contents (Elt F)),
    binary main_v77 main_v78 main_v79 (maximumf : (⟨S50000x1, .f32⟩ : BufTy).Contents (Elt F) → (⟨S50000x1, .f32⟩ : BufTy).Contents (Elt F) → (⟨S50000x1, .f32⟩ : BufTy).Contents (Elt F)),
    unary main_v79 main_v80 (Host.rsqrt : (⟨S50000x1, .f32⟩ : BufTy).Contents (Elt F) → (⟨S50000x1, .f32⟩ : BufTy).Contents (Elt F)),
    unary main_v80 main_v81 (broadcastInDim S50000x64 ![0, 1] bcast_S50000x1_S50000x64_0_1 : (⟨S50000x1, .f32⟩ : BufTy).Contents (Elt F) → (⟨S50000x64, .f32⟩ : BufTy).Contents (Elt F)),
    binary main_v74 main_v81 main_v82 (mulf : (⟨S50000x64, .f32⟩ : BufTy).Contents (Elt F) → (⟨S50000x64, .f32⟩ : BufTy).Contents (Elt F) → (⟨S50000x64, .f32⟩ : BufTy).Contents (Elt F)),
    unary main_arg2 main_v83 (broadcastInDim S800000x1 ![0] bcast_S800000_S800000x1_0 : (⟨S800000, .f32⟩ : BufTy).Contents (Elt F) → (⟨S800000x1, .f32⟩ : BufTy).Contents (Elt F)),
    nullary main_c_12 (constantI S_ 32 0#32),
    unary main_c_12 main_v84 (broadcastInDim S800000 ![] bcast_S_S800000 : (⟨S_, .i32⟩ : BufTy).Contents (Elt F) → (⟨S800000, .i32⟩ : BufTy).Contents (Elt F)),
    binary main_arg1 main_v84 main_v85 (cmpi .slt : (⟨S800000, .i32⟩ : BufTy).Contents (Elt F) → (⟨S800000, .i32⟩ : BufTy).Contents (Elt F) → (⟨S800000, .i1⟩ : BufTy).Contents (Elt F)),
    nullary main_c_13 (constantI S_ 32 50000#32),
    unary main_c_13 main_v86 (broadcastInDim S800000 ![] bcast_S_S800000 : (⟨S_, .i32⟩ : BufTy).Contents (Elt F) → (⟨S800000, .i32⟩ : BufTy).Contents (Elt F)),
    binary main_arg1 main_v86 main_v87 (addi : (⟨S800000, .i32⟩ : BufTy).Contents (Elt F) → (⟨S800000, .i32⟩ : BufTy).Contents (Elt F) → (⟨S800000, .i32⟩ : BufTy).Contents (Elt F)),
    ternary main_v85 main_v87 main_arg1 main_v88 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v88 main_v89 (broadcastInDim S800000x1 ![0] bcast_S800000_S800000x1_0 : (⟨S800000, .i32⟩ : BufTy).Contents (Elt F) → (⟨S800000x1, .i32⟩ : BufTy).Contents (Elt F)),
    binary main_v74 main_v89 main_v90 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    unary main_v83 main_v91 (broadcastInDim S800000x64 ![0, 1] bcast_S800000x1_S800000x64_0_1 : (⟨S800000x1, .f32⟩ : BufTy).Contents (Elt F) → (⟨S800000x64, .f32⟩ : BufTy).Contents (Elt F)),
    binary main_v91 main_v90 main_v92 (mulf : (⟨S800000x64, .f32⟩ : BufTy).Contents (Elt F) → (⟨S800000x64, .f32⟩ : BufTy).Contents (Elt F) → (⟨S800000x64, .f32⟩ : BufTy).Contents (Elt F)),
    nullary main_cst_14 (constant S_ .f32 0x00000000#32),
    unary main_cst_14 main_v93 (broadcastInDim S50000x64 ![] bcast_S_S50000x64 : (⟨S_, .f32⟩ : BufTy).Contents (Elt F) → (⟨S50000x64, .f32⟩ : BufTy).Contents (Elt F)),
    unary main_arg0 main_v94 (broadcastInDim S800000x1 ![0] bcast_S800000_S800000x1_0 : (⟨S800000, .i32⟩ : BufTy).Contents (Elt F) → (⟨S800000x1, .i32⟩ : BufTy).Contents (Elt F)),
    ternary main_v93 main_v94 main_v92 main_v95 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    unary main_arg5 main_v96 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v96 main_v97 rfl shapeCasts_S1x64x64_S64x64,
    binary main_v95 main_v97 main_v98 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg6 main_v99 ((extractStridedSlice S1x64 ![2, 0] · slices_S3x64_S1x64_2_0) : (⟨S3x64, .f32⟩ : BufTy).Contents (Elt F) → (⟨S1x64, .f32⟩ : BufTy).Contents (Elt F)),
    reshape main_v99 main_v100 rfl shapeCasts_S1x64_S64,
    unary main_v100 main_v101 (broadcastInDim S1x64 ![1] bcast_S64_S1x64_1 : (⟨S64, .f32⟩ : BufTy).Contents (Elt F) → (⟨S1x64, .f32⟩ : BufTy).Contents (Elt F)),
    unary main_v101 main_v102 (broadcastInDim S50000x64 ![0, 1] bcast_S1x64_S50000x64_0_1 : (⟨S1x64, .f32⟩ : BufTy).Contents (Elt F) → (⟨S50000x64, .f32⟩ : BufTy).Contents (Elt F)),
    binary main_v98 main_v102 main_v103 (addf : (⟨S50000x64, .f32⟩ : BufTy).Contents (Elt F) → (⟨S50000x64, .f32⟩ : BufTy).Contents (Elt F) → (⟨S50000x64, .f32⟩ : BufTy).Contents (Elt F)),
    nullary main_cst_15 (constant S_ .f32 0x3E4CCCCD#32),
    TRef.nullary main_call4.cst (constant S_ .f32 0x00000000#32),
    TRef.unary main_call4.cst main_call4.v0 (broadcastInDim S50000x64 ![] bcast_S_S50000x64),
    TRef.binary (.of main_v103) main_call4.v0 main_call4.v1 (cmpf .oge),
    TRef.unary (.of main_cst_15) main_call4.v2 id,
    TRef.unary main_call4.v2 main_call4.v3 (broadcastInDim S50000x64 ![] bcast_S_S50000x64),
    TRef.binary main_call4.v3 (.of main_v103) main_call4.v4 mulf,
    TRef.ternary main_call4.v1 (.of main_v103) main_call4.v4 main_call4.call0.v0 select,
    binary main_v74 main_v95 main_v105 (mulf : (⟨S50000x64, .f32⟩ : BufTy).Contents (Elt F) → (⟨S50000x64, .f32⟩ : BufTy).Contents (Elt F) → (⟨S50000x64, .f32⟩ : BufTy).Contents (Elt F)),
    unary main_arg7 main_v106 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v106 main_v107 rfl shapeCasts_S1x64x64_S64x64,
    binary main_v105 main_v107 main_v108 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg8 main_v109 ((extractStridedSlice S1x64 ![2, 0] · slices_S3x64_S1x64_2_0) : (⟨S3x64, .f32⟩ : BufTy).Contents (Elt F) → (⟨S1x64, .f32⟩ : BufTy).Contents (Elt F)),
    reshape main_v109 main_v110 rfl shapeCasts_S1x64_S64,
    unary main_v110 main_v111 (broadcastInDim S1x64 ![1] bcast_S64_S1x64_1 : (⟨S64, .f32⟩ : BufTy).Contents (Elt F) → (⟨S1x64, .f32⟩ : BufTy).Contents (Elt F)),
    unary main_v111 main_v112 (broadcastInDim S50000x64 ![0, 1] bcast_S1x64_S50000x64_0_1 : (⟨S1x64, .f32⟩ : BufTy).Contents (Elt F) → (⟨S50000x64, .f32⟩ : BufTy).Contents (Elt F)),
    binary main_v108 main_v112 main_v113 (addf : (⟨S50000x64, .f32⟩ : BufTy).Contents (Elt F) → (⟨S50000x64, .f32⟩ : BufTy).Contents (Elt F) → (⟨S50000x64, .f32⟩ : BufTy).Contents (Elt F)),
    nullary main_cst_16 (constant S_ .f32 0x3E4CCCCD#32),
    TRef.nullary main_call5.cst (constant S_ .f32 0x00000000#32),
    TRef.unary main_call5.cst main_call5.v0 (broadcastInDim S50000x64 ![] bcast_S_S50000x64),
    TRef.binary (.of main_v113) main_call5.v0 main_call5.v1 (cmpf .oge),
    TRef.unary (.of main_cst_16) main_call5.v2 id,
    TRef.unary main_call5.v2 main_call5.v3 (broadcastInDim S50000x64 ![] bcast_S_S50000x64),
    TRef.binary main_call5.v3 (.of main_v113) main_call5.v4 mulf,
    TRef.ternary main_call5.v1 (.of main_v113) main_call5.v4 main_call5.call0.v0 select,
    binary main_v104 main_v114 main_v115 (addf : (⟨S50000x64, .f32⟩ : BufTy).Contents (Elt F) → (⟨S50000x64, .f32⟩ : BufTy).Contents (Elt F) → (⟨S50000x64, .f32⟩ : BufTy).Contents (Elt F)),
    binary main_v115 main_v115 main_v116 (mulf : (⟨S50000x64, .f32⟩ : BufTy).Contents (Elt F) → (⟨S50000x64, .f32⟩ : BufTy).Contents (Elt F) → (⟨S50000x64, .f32⟩ : BufTy).Contents (Elt F)),
    nullary main_cst_17 (constant S_ .f32 0x00000000#32),
    binary main_v116 main_cst_17 main_v117 ((fun x v => Host.reduceAdd x v reducesTo_S50000x64_S50000_d1 h_S_) : (⟨S50000x64, .f32⟩ : BufTy).Contents (Elt F) → (⟨S_, .f32⟩ : BufTy).Contents (Elt F) → (⟨S50000, .f32⟩ : BufTy).Contents (Elt F)),
    unary main_v117 main_v118 (broadcastInDim S50000x1 ![0] bcast_S50000_S50000x1_0 : (⟨S50000, .f32⟩ : BufTy).Contents (Elt F) → (⟨S50000x1, .f32⟩ : BufTy).Contents (Elt F)),
    nullary main_cst_18 (constant S_ .f32 0x2B8CBCCC#32),
    unary main_cst_18 main_v119 (broadcastInDim S50000x1 ![] bcast_S_S50000x1 : (⟨S_, .f32⟩ : BufTy).Contents (Elt F) → (⟨S50000x1, .f32⟩ : BufTy).Contents (Elt F)),
    binary main_v118 main_v119 main_v120 (maximumf : (⟨S50000x1, .f32⟩ : BufTy).Contents (Elt F) → (⟨S50000x1, .f32⟩ : BufTy).Contents (Elt F) → (⟨S50000x1, .f32⟩ : BufTy).Contents (Elt F)),
    unary main_v120 main_v121 (Host.rsqrt : (⟨S50000x1, .f32⟩ : BufTy).Contents (Elt F) → (⟨S50000x1, .f32⟩ : BufTy).Contents (Elt F)),
    unary main_v121 main_v122 (broadcastInDim S50000x64 ![0, 1] bcast_S50000x1_S50000x64_0_1 : (⟨S50000x1, .f32⟩ : BufTy).Contents (Elt F) → (⟨S50000x64, .f32⟩ : BufTy).Contents (Elt F)),
    binary main_v115 main_v122 main_v123 (mulf : (⟨S50000x64, .f32⟩ : BufTy).Contents (Elt F) → (⟨S50000x64, .f32⟩ : BufTy).Contents (Elt F) → (⟨S50000x64, .f32⟩ : BufTy).Contents (Elt F)),
    nary ![main_v0, main_v41, main_v82, main_v123] main_v124 (fun u => concatenate S50000x256 1 [⟨S50000x64, u 0⟩, ⟨S50000x64, u 1⟩, ⟨S50000x64, u 2⟩, ⟨S50000x64, u 3⟩] concatenates_S50000x64_S50000x64_S50000x64_S50000x64_S50000x256_d1),
    unary main_v124 main_v125 ((extractStridedSlice S25000x256 ![0, 0] · slices_S50000x256_S25000x256_0_0) : (⟨S50000x256, .f32⟩ : BufTy).Contents (Elt F) → (⟨S25000x256, .f32⟩ : BufTy).Contents (Elt F)),
    unary main_v124 main_v126 ((extractStridedSlice S25000x256 ![25000, 0] · slices_S50000x256_S25000x256_25000_0) : (⟨S50000x256, .f32⟩ : BufTy).Contents (Elt F) → (⟨S25000x256, .f32⟩ : BufTy).Contents (Elt F)),
    nullary main_c_19 (constantI S_ 32 0#32),
    unary main_c_19 main_v127 (broadcastInDim S4096 ![] bcast_S_S4096 : (⟨S_, .i32⟩ : BufTy).Contents (Elt F) → (⟨S4096, .i32⟩ : BufTy).Contents (Elt F)),
    binary main_arg9 main_v127 main_v128 (cmpi .slt : (⟨S4096, .i32⟩ : BufTy).Contents (Elt F) → (⟨S4096, .i32⟩ : BufTy).Contents (Elt F) → (⟨S4096, .i1⟩ : BufTy).Contents (Elt F)),
    nullary main_c_20 (constantI S_ 32 25000#32),
    unary main_c_20 main_v129 (broadcastInDim S4096 ![] bcast_S_S4096 : (⟨S_, .i32⟩ : BufTy).Contents (Elt F) → (⟨S4096, .i32⟩ : BufTy).Contents (Elt F)),
    binary main_arg9 main_v129 main_v130 (addi : (⟨S4096, .i32⟩ : BufTy).Contents (Elt F) → (⟨S4096, .i32⟩ : BufTy).Contents (Elt F) → (⟨S4096, .i32⟩ : BufTy).Contents (Elt F)),
    ternary main_v128 main_v130 main_arg9 main_v131 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v131 main_v132 (broadcastInDim S4096x1 ![0] bcast_S4096_S4096x1_0 : (⟨S4096, .i32⟩ : BufTy).Contents (Elt F) → (⟨S4096x1, .i32⟩ : BufTy).Contents (Elt F)),
    binary main_v125 main_v132 main_v133 ((fun x i => Host.gather gather_S25000x256_S4096x1_S4096x256_1_0_n_n_0_1_1256 x i) : (⟨S25000x256, .f32⟩ : BufTy).Contents (Elt F) → (⟨S4096x1, .i32⟩ : BufTy).Contents (Elt F) → (⟨S4096x256, .f32⟩ : BufTy).Contents (Elt F)),
    nullary main_c_21 (constantI S_ 32 0#32),
    unary main_c_21 main_v134 (broadcastInDim S4096 ![] bcast_S_S4096 : (⟨S_, .i32⟩ : BufTy).Contents (Elt F) → (⟨S4096, .i32⟩ : BufTy).Contents (Elt F)),
    binary main_arg10 main_v134 main_v135 (cmpi .slt : (⟨S4096, .i32⟩ : BufTy).Contents (Elt F) → (⟨S4096, .i32⟩ : BufTy).Contents (Elt F) → (⟨S4096, .i1⟩ : BufTy).Contents (Elt F)),
    nullary main_c_22 (constantI S_ 32 25000#32),
    unary main_c_22 main_v136 (broadcastInDim S4096 ![] bcast_S_S4096 : (⟨S_, .i32⟩ : BufTy).Contents (Elt F) → (⟨S4096, .i32⟩ : BufTy).Contents (Elt F)),
    binary main_arg10 main_v136 main_v137 (addi : (⟨S4096, .i32⟩ : BufTy).Contents (Elt F) → (⟨S4096, .i32⟩ : BufTy).Contents (Elt F) → (⟨S4096, .i32⟩ : BufTy).Contents (Elt F)),
    ternary main_v135 main_v137 main_arg10 main_v138 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v138 main_v139 (broadcastInDim S4096x1 ![0] bcast_S4096_S4096x1_0 : (⟨S4096, .i32⟩ : BufTy).Contents (Elt F) → (⟨S4096x1, .i32⟩ : BufTy).Contents (Elt F)),
    binary main_v126 main_v139 main_v140 ((fun x i => Host.gather gather_S25000x256_S4096x1_S4096x256_1_0_n_n_0_1_1256 x i) : (⟨S25000x256, .f32⟩ : BufTy).Contents (Elt F) → (⟨S4096x1, .i32⟩ : BufTy).Contents (Elt F) → (⟨S4096x256, .f32⟩ : BufTy).Contents (Elt F)),
    binary main_v133 main_v140 main_v141 (mulf : (⟨S4096x256, .f32⟩ : BufTy).Contents (Elt F) → (⟨S4096x256, .f32⟩ : BufTy).Contents (Elt F) → (⟨S4096x256, .f32⟩ : BufTy).Contents (Elt F)),
    nullary main_cst_23 (constant S_ .f32 0x00000000#32),
    binary main_v141 main_cst_23 main_v142 ((fun x v => Host.reduceAdd x v reducesTo_S4096x256_S4096_d1 h_S_) : (⟨S4096x256, .f32⟩ : BufTy).Contents (Elt F) → (⟨S_, .f32⟩ : BufTy).Contents (Elt F) → (⟨S4096, .f32⟩ : BufTy).Contents (Elt F)) ]

/-- @main is that straight line: the three windows in order, the functions unfolded at their calls. Sequencing
    in the free monad grafts the rest of the program onto the leaves, which computes on a closed line. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨binary_bufs_sub .., unary_bufs_sub .., nullary_bufs_sub .., unary_bufs_sub .., binary_bufs_sub .., nullary_bufs_sub ..,
    unary_bufs_sub .., binary_bufs_sub .., ternary_bufs_sub .., unary_bufs_sub .., binary_bufs_sub .., unary_bufs_sub ..,
    binary_bufs_sub .., nullary_bufs_sub .., unary_bufs_sub .., unary_bufs_sub .., ternary_bufs_sub .., unary_bufs_sub ..,
    reshape_bufs_sub .., binary_bufs_sub .., unary_bufs_sub .., reshape_bufs_sub .., unary_bufs_sub .., unary_bufs_sub ..,
    binary_bufs_sub .., nullary_bufs_sub .., nullary_bufs_sub .., unary_bufs_sub .., binary_bufs_sub .., unary_bufs_sub ..,
    unary_bufs_sub .., binary_bufs_sub .., ternary_bufs_sub .., binary_bufs_sub .., unary_bufs_sub .., reshape_bufs_sub ..,
    binary_bufs_sub .., unary_bufs_sub .., reshape_bufs_sub .., unary_bufs_sub .., unary_bufs_sub .., binary_bufs_sub ..,
    nullary_bufs_sub .., nullary_bufs_sub .., unary_bufs_sub .., binary_bufs_sub .., unary_bufs_sub .., unary_bufs_sub ..,
    binary_bufs_sub .., ternary_bufs_sub .., binary_bufs_sub .., binary_bufs_sub .., nullary_bufs_sub .., binary_bufs_sub ..,
    unary_bufs_sub .., nullary_bufs_sub .., unary_bufs_sub .., binary_bufs_sub .., unary_bufs_sub .., unary_bufs_sub ..,
    binary_bufs_sub .., unary_bufs_sub .., nullary_bufs_sub .., unary_bufs_sub .., binary_bufs_sub .., nullary_bufs_sub ..,
    unary_bufs_sub .., binary_bufs_sub .., ternary_bufs_sub .., unary_bufs_sub .., binary_bufs_sub .., unary_bufs_sub ..,
    binary_bufs_sub .., nullary_bufs_sub .., unary_bufs_sub .., unary_bufs_sub .., ternary_bufs_sub .., unary_bufs_sub ..,
    reshape_bufs_sub .., binary_bufs_sub .., unary_bufs_sub .., reshape_bufs_sub .., unary_bufs_sub .., unary_bufs_sub ..,
    binary_bufs_sub .., nullary_bufs_sub .., nullary_bufs_sub .., unary_bufs_sub .., binary_bufs_sub .., unary_bufs_sub ..,
    unary_bufs_sub .., binary_bufs_sub .., ternary_bufs_sub .., binary_bufs_sub .., unary_bufs_sub .., reshape_bufs_sub ..,
    binary_bufs_sub .., unary_bufs_sub .., reshape_bufs_sub .., unary_bufs_sub .., unary_bufs_sub .., binary_bufs_sub ..,
    nullary_bufs_sub .., nullary_bufs_sub .., unary_bufs_sub .., binary_bufs_sub .., unary_bufs_sub .., unary_bufs_sub ..,
    binary_bufs_sub .., ternary_bufs_sub .., binary_bufs_sub .., binary_bufs_sub .., nullary_bufs_sub .., binary_bufs_sub ..,
    unary_bufs_sub .., nullary_bufs_sub .., unary_bufs_sub .., binary_bufs_sub .., unary_bufs_sub .., unary_bufs_sub ..,
    binary_bufs_sub .., unary_bufs_sub .., nullary_bufs_sub .., unary_bufs_sub .., binary_bufs_sub .., nullary_bufs_sub ..,
    unary_bufs_sub .., binary_bufs_sub .., ternary_bufs_sub .., unary_bufs_sub .., binary_bufs_sub .., unary_bufs_sub ..,
    binary_bufs_sub .., nullary_bufs_sub .., unary_bufs_sub .., unary_bufs_sub .., ternary_bufs_sub .., unary_bufs_sub ..,
    reshape_bufs_sub .., binary_bufs_sub .., unary_bufs_sub .., reshape_bufs_sub .., unary_bufs_sub .., unary_bufs_sub ..,
    binary_bufs_sub .., nullary_bufs_sub .., nullary_bufs_sub .., unary_bufs_sub .., binary_bufs_sub .., unary_bufs_sub ..,
    unary_bufs_sub .., binary_bufs_sub .., ternary_bufs_sub .., binary_bufs_sub .., unary_bufs_sub .., reshape_bufs_sub ..,
    binary_bufs_sub .., unary_bufs_sub .., reshape_bufs_sub .., unary_bufs_sub .., unary_bufs_sub .., binary_bufs_sub ..,
    nullary_bufs_sub .., nullary_bufs_sub .., unary_bufs_sub .., binary_bufs_sub .., unary_bufs_sub .., unary_bufs_sub ..,
    binary_bufs_sub .., ternary_bufs_sub .., binary_bufs_sub .., binary_bufs_sub .., nullary_bufs_sub .., binary_bufs_sub ..,
    unary_bufs_sub .., nullary_bufs_sub .., unary_bufs_sub .., binary_bufs_sub .., unary_bufs_sub .., unary_bufs_sub ..,
    binary_bufs_sub .., nary_bufs_sub .., unary_bufs_sub .., unary_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., binary_bufs_sub .., nullary_bufs_sub ..,
    binary_bufs_sub ..⟩

/-- Every operation determines its results. -/
theorem ops_fresh : (ops : List (HloOp τ sig (Elt F))).Forall fun op => op.fresh = ∅ := by
  simp only [List.Forall]; repeat' constructor

/-- The references the operations write: one each, in order. -/
abbrev W : List (Ref sig .tc) :=
  [main_v0, main_v1, main_c, main_v2, main_v3, main_c_0, main_v4, main_v5, main_v6, main_v7,
   main_v8, main_v9, main_v10, main_cst, main_v11, main_v12, main_v13, main_v14, main_v15, main_v16,
   main_v17, main_v18, main_v19, main_v20, main_v21, main_cst_1, main_call0_cst, main_call0_v0, main_call0_v1, main_call0_v2,
   main_call0_v3, main_call0_v4, main_v22, main_v23, main_v24, main_v25, main_v26, main_v27, main_v28, main_v29,
   main_v30, main_v31, main_cst_2, main_call1_cst, main_call1_v0, main_call1_v1, main_call1_v2, main_call1_v3, main_call1_v4, main_v32,
   main_v33, main_v34, main_cst_3, main_v35, main_v36, main_cst_4, main_v37, main_v38, main_v39, main_v40,
   main_v41, main_v42, main_c_5, main_v43, main_v44, main_c_6, main_v45, main_v46, main_v47, main_v48,
   main_v49, main_v50, main_v51, main_cst_7, main_v52, main_v53, main_v54, main_v55, main_v56, main_v57,
   main_v58, main_v59, main_v60, main_v61, main_v62, main_cst_8, main_call2_cst, main_call2_v0, main_call2_v1, main_call2_v2,
   main_call2_v3, main_call2_v4, main_v63, main_v64, main_v65, main_v66, main_v67, main_v68, main_v69, main_v70,
   main_v71, main_v72, main_cst_9, main_call3_cst, main_call3_v0, main_call3_v1, main_call3_v2, main_call3_v3, main_call3_v4, main_v73,
   main_v74, main_v75, main_cst_10, main_v76, main_v77, main_cst_11, main_v78, main_v79, main_v80, main_v81,
   main_v82, main_v83, main_c_12, main_v84, main_v85, main_c_13, main_v86, main_v87, main_v88, main_v89,
   main_v90, main_v91, main_v92, main_cst_14, main_v93, main_v94, main_v95, main_v96, main_v97, main_v98,
   main_v99, main_v100, main_v101, main_v102, main_v103, main_cst_15, main_call4_cst, main_call4_v0, main_call4_v1, main_call4_v2,
   main_call4_v3, main_call4_v4, main_v104, main_v105, main_v106, main_v107, main_v108, main_v109, main_v110, main_v111,
   main_v112, main_v113, main_cst_16, main_call5_cst, main_call5_v0, main_call5_v1, main_call5_v2, main_call5_v3, main_call5_v4, main_v114,
   main_v115, main_v116, main_cst_17, main_v117, main_v118, main_cst_18, main_v119, main_v120, main_v121, main_v122,
   main_v123, main_v124, main_v125, main_v126, main_c_19, main_v127, main_v128, main_c_20, main_v129, main_v130,
   main_v131, main_v132, main_v133, main_c_21, main_v134, main_v135, main_c_22, main_v136, main_v137, main_v138,
   main_v139, main_v140, main_v141, main_cst_23, main_v142]

/-- An operation whose one written buffer is a listed reference writes inside the list. -/
theorem writes_sub_of {op : HloOp τ sig (Elt F)} (y : Ref sig .tc) (h : op.writes = {Proc.devRef .tc y}) (hy : y ∈ W) :
    op.writes ⊆ (W.map (Proc.devRef (τ := τ) .tc)).toFinset := by
  rw [h, Finset.singleton_subset_iff, List.mem_toFinset]; exact List.mem_map_of_mem hy

theorem ops_writes : (ops : List (HloOp τ sig (Elt F))).Forall fun op => op.writes ⊆ (W.map (Proc.devRef (τ := τ) .tc)).toFinset :=
  ⟨writes_sub_of main_v0 rfl (by decide), writes_sub_of main_v1 rfl (by decide), writes_sub_of main_c rfl (by decide),
    writes_sub_of main_v2 rfl (by decide), writes_sub_of main_v3 rfl (by decide), writes_sub_of main_c_0 rfl (by decide),
    writes_sub_of main_v4 rfl (by decide), writes_sub_of main_v5 rfl (by decide), writes_sub_of main_v6 rfl (by decide),
    writes_sub_of main_v7 rfl (by decide), writes_sub_of main_v8 rfl (by decide), writes_sub_of main_v9 rfl (by decide),
    writes_sub_of main_v10 rfl (by decide), writes_sub_of main_cst rfl (by decide), writes_sub_of main_v11 rfl (by decide),
    writes_sub_of main_v12 rfl (by decide), writes_sub_of main_v13 rfl (by decide), writes_sub_of main_v14 rfl (by decide),
    writes_sub_of main_v15 rfl (by decide), writes_sub_of main_v16 rfl (by decide), writes_sub_of main_v17 rfl (by decide),
    writes_sub_of main_v18 rfl (by decide), writes_sub_of main_v19 rfl (by decide), writes_sub_of main_v20 rfl (by decide),
    writes_sub_of main_v21 rfl (by decide), writes_sub_of main_cst_1 rfl (by decide), writes_sub_of main_call0_cst rfl (by decide),
    writes_sub_of main_call0_v0 rfl (by decide), writes_sub_of main_call0_v1 rfl (by decide), writes_sub_of main_call0_v2 rfl (by decide),
    writes_sub_of main_call0_v3 rfl (by decide), writes_sub_of main_call0_v4 rfl (by decide), writes_sub_of main_v22 rfl (by decide),
    writes_sub_of main_v23 rfl (by decide), writes_sub_of main_v24 rfl (by decide), writes_sub_of main_v25 rfl (by decide),
    writes_sub_of main_v26 rfl (by decide), writes_sub_of main_v27 rfl (by decide), writes_sub_of main_v28 rfl (by decide),
    writes_sub_of main_v29 rfl (by decide), writes_sub_of main_v30 rfl (by decide), writes_sub_of main_v31 rfl (by decide),
    writes_sub_of main_cst_2 rfl (by decide), writes_sub_of main_call1_cst rfl (by decide), writes_sub_of main_call1_v0 rfl (by decide),
    writes_sub_of main_call1_v1 rfl (by decide), writes_sub_of main_call1_v2 rfl (by decide), writes_sub_of main_call1_v3 rfl (by decide),
    writes_sub_of main_call1_v4 rfl (by decide), writes_sub_of main_v32 rfl (by decide), writes_sub_of main_v33 rfl (by decide),
    writes_sub_of main_v34 rfl (by decide), writes_sub_of main_cst_3 rfl (by decide), writes_sub_of main_v35 rfl (by decide),
    writes_sub_of main_v36 rfl (by decide), writes_sub_of main_cst_4 rfl (by decide), writes_sub_of main_v37 rfl (by decide),
    writes_sub_of main_v38 rfl (by decide), writes_sub_of main_v39 rfl (by decide), writes_sub_of main_v40 rfl (by decide),
    writes_sub_of main_v41 rfl (by decide), writes_sub_of main_v42 rfl (by decide), writes_sub_of main_c_5 rfl (by decide),
    writes_sub_of main_v43 rfl (by decide), writes_sub_of main_v44 rfl (by decide), writes_sub_of main_c_6 rfl (by decide),
    writes_sub_of main_v45 rfl (by decide), writes_sub_of main_v46 rfl (by decide), writes_sub_of main_v47 rfl (by decide),
    writes_sub_of main_v48 rfl (by decide), writes_sub_of main_v49 rfl (by decide), writes_sub_of main_v50 rfl (by decide),
    writes_sub_of main_v51 rfl (by decide), writes_sub_of main_cst_7 rfl (by decide), writes_sub_of main_v52 rfl (by decide),
    writes_sub_of main_v53 rfl (by decide), writes_sub_of main_v54 rfl (by decide), writes_sub_of main_v55 rfl (by decide),
    writes_sub_of main_v56 rfl (by decide), writes_sub_of main_v57 rfl (by decide), writes_sub_of main_v58 rfl (by decide),
    writes_sub_of main_v59 rfl (by decide), writes_sub_of main_v60 rfl (by decide), writes_sub_of main_v61 rfl (by decide),
    writes_sub_of main_v62 rfl (by decide), writes_sub_of main_cst_8 rfl (by decide), writes_sub_of main_call2_cst rfl (by decide),
    writes_sub_of main_call2_v0 rfl (by decide), writes_sub_of main_call2_v1 rfl (by decide), writes_sub_of main_call2_v2 rfl (by decide),
    writes_sub_of main_call2_v3 rfl (by decide), writes_sub_of main_call2_v4 rfl (by decide), writes_sub_of main_v63 rfl (by decide),
    writes_sub_of main_v64 rfl (by decide), writes_sub_of main_v65 rfl (by decide), writes_sub_of main_v66 rfl (by decide),
    writes_sub_of main_v67 rfl (by decide), writes_sub_of main_v68 rfl (by decide), writes_sub_of main_v69 rfl (by decide),
    writes_sub_of main_v70 rfl (by decide), writes_sub_of main_v71 rfl (by decide), writes_sub_of main_v72 rfl (by decide),
    writes_sub_of main_cst_9 rfl (by decide), writes_sub_of main_call3_cst rfl (by decide), writes_sub_of main_call3_v0 rfl (by decide),
    writes_sub_of main_call3_v1 rfl (by decide), writes_sub_of main_call3_v2 rfl (by decide), writes_sub_of main_call3_v3 rfl (by decide),
    writes_sub_of main_call3_v4 rfl (by decide), writes_sub_of main_v73 rfl (by decide), writes_sub_of main_v74 rfl (by decide),
    writes_sub_of main_v75 rfl (by decide), writes_sub_of main_cst_10 rfl (by decide), writes_sub_of main_v76 rfl (by decide),
    writes_sub_of main_v77 rfl (by decide), writes_sub_of main_cst_11 rfl (by decide), writes_sub_of main_v78 rfl (by decide),
    writes_sub_of main_v79 rfl (by decide), writes_sub_of main_v80 rfl (by decide), writes_sub_of main_v81 rfl (by decide),
    writes_sub_of main_v82 rfl (by decide), writes_sub_of main_v83 rfl (by decide), writes_sub_of main_c_12 rfl (by decide),
    writes_sub_of main_v84 rfl (by decide), writes_sub_of main_v85 rfl (by decide), writes_sub_of main_c_13 rfl (by decide),
    writes_sub_of main_v86 rfl (by decide), writes_sub_of main_v87 rfl (by decide), writes_sub_of main_v88 rfl (by decide),
    writes_sub_of main_v89 rfl (by decide), writes_sub_of main_v90 rfl (by decide), writes_sub_of main_v91 rfl (by decide),
    writes_sub_of main_v92 rfl (by decide), writes_sub_of main_cst_14 rfl (by decide), writes_sub_of main_v93 rfl (by decide),
    writes_sub_of main_v94 rfl (by decide), writes_sub_of main_v95 rfl (by decide), writes_sub_of main_v96 rfl (by decide),
    writes_sub_of main_v97 rfl (by decide), writes_sub_of main_v98 rfl (by decide), writes_sub_of main_v99 rfl (by decide),
    writes_sub_of main_v100 rfl (by decide), writes_sub_of main_v101 rfl (by decide), writes_sub_of main_v102 rfl (by decide),
    writes_sub_of main_v103 rfl (by decide), writes_sub_of main_cst_15 rfl (by decide), writes_sub_of main_call4_cst rfl (by decide),
    writes_sub_of main_call4_v0 rfl (by decide), writes_sub_of main_call4_v1 rfl (by decide), writes_sub_of main_call4_v2 rfl (by decide),
    writes_sub_of main_call4_v3 rfl (by decide), writes_sub_of main_call4_v4 rfl (by decide), writes_sub_of main_v104 rfl (by decide),
    writes_sub_of main_v105 rfl (by decide), writes_sub_of main_v106 rfl (by decide), writes_sub_of main_v107 rfl (by decide),
    writes_sub_of main_v108 rfl (by decide), writes_sub_of main_v109 rfl (by decide), writes_sub_of main_v110 rfl (by decide),
    writes_sub_of main_v111 rfl (by decide), writes_sub_of main_v112 rfl (by decide), writes_sub_of main_v113 rfl (by decide),
    writes_sub_of main_cst_16 rfl (by decide), writes_sub_of main_call5_cst rfl (by decide), writes_sub_of main_call5_v0 rfl (by decide),
    writes_sub_of main_call5_v1 rfl (by decide), writes_sub_of main_call5_v2 rfl (by decide), writes_sub_of main_call5_v3 rfl (by decide),
    writes_sub_of main_call5_v4 rfl (by decide), writes_sub_of main_v114 rfl (by decide), writes_sub_of main_v115 rfl (by decide),
    writes_sub_of main_v116 rfl (by decide), writes_sub_of main_cst_17 rfl (by decide), writes_sub_of main_v117 rfl (by decide),
    writes_sub_of main_v118 rfl (by decide), writes_sub_of main_cst_18 rfl (by decide), writes_sub_of main_v119 rfl (by decide),
    writes_sub_of main_v120 rfl (by decide), writes_sub_of main_v121 rfl (by decide), writes_sub_of main_v122 rfl (by decide),
    writes_sub_of main_v123 rfl (by decide), writes_sub_of main_v124 rfl (by decide), writes_sub_of main_v125 rfl (by decide),
    writes_sub_of main_v126 rfl (by decide), writes_sub_of main_c_19 rfl (by decide), writes_sub_of main_v127 rfl (by decide),
    writes_sub_of main_v128 rfl (by decide), writes_sub_of main_c_20 rfl (by decide), writes_sub_of main_v129 rfl (by decide),
    writes_sub_of main_v130 rfl (by decide), writes_sub_of main_v131 rfl (by decide), writes_sub_of main_v132 rfl (by decide),
    writes_sub_of main_v133 rfl (by decide), writes_sub_of main_c_21 rfl (by decide), writes_sub_of main_v134 rfl (by decide),
    writes_sub_of main_v135 rfl (by decide), writes_sub_of main_c_22 rfl (by decide), writes_sub_of main_v136 rfl (by decide),
    writes_sub_of main_v137 rfl (by decide), writes_sub_of main_v138 rfl (by decide), writes_sub_of main_v139 rfl (by decide),
    writes_sub_of main_v140 rfl (by decide), writes_sub_of main_v141 rfl (by decide), writes_sub_of main_cst_23 rfl (by decide),
    writes_sub_of main_v142 rfl (by decide)⟩

/-- On every device, for any float values, from any memory with zero counters: every weakly fair execution of
    @main terminates, and every buffer ends at the operations' fold over the launch contents. -/
theorem run (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc), r.2.mem ((c.tc : Thread nD τ).loc b) = after ops (fun b => m (c, b)) (Proc.devRef .tc b) :=
  run_seq scopedRefs_eq scopedSems_eq defs main (fun _ => ops) main_eq (fun _ => ops_sub) m ρ
    (fun _ => List.forall_iff_forall_mem.1 ops_fresh)

/-- A reference no operation writes holds, after the line, what it held before. -/
theorem kept (V : Valuation τ sig (Elt F)) {r : Ref sig .tc} (h : r ∉ W) :
    after ops V (Proc.devRef .tc r) = V (Proc.devRef .tc r) :=
  after_of_writes_sub ops V ops_writes h

theorem arg0_kept (V : Valuation τ sig (Elt F)) : after ops V (Proc.devRef .tc main_arg0) = V (Proc.devRef .tc main_arg0) := kept V (by decide)
theorem arg1_kept (V : Valuation τ sig (Elt F)) : after ops V (Proc.devRef .tc main_arg1) = V (Proc.devRef .tc main_arg1) := kept V (by decide)
theorem arg2_kept (V : Valuation τ sig (Elt F)) : after ops V (Proc.devRef .tc main_arg2) = V (Proc.devRef .tc main_arg2) := kept V (by decide)
theorem arg3_kept (V : Valuation τ sig (Elt F)) : after ops V (Proc.devRef .tc main_arg3) = V (Proc.devRef .tc main_arg3) := kept V (by decide)
theorem arg4_kept (V : Valuation τ sig (Elt F)) : after ops V (Proc.devRef .tc main_arg4) = V (Proc.devRef .tc main_arg4) := kept V (by decide)
theorem arg5_kept (V : Valuation τ sig (Elt F)) : after ops V (Proc.devRef .tc main_arg5) = V (Proc.devRef .tc main_arg5) := kept V (by decide)
theorem arg6_kept (V : Valuation τ sig (Elt F)) : after ops V (Proc.devRef .tc main_arg6) = V (Proc.devRef .tc main_arg6) := kept V (by decide)
theorem arg7_kept (V : Valuation τ sig (Elt F)) : after ops V (Proc.devRef .tc main_arg7) = V (Proc.devRef .tc main_arg7) := kept V (by decide)
theorem arg8_kept (V : Valuation τ sig (Elt F)) : after ops V (Proc.devRef .tc main_arg8) = V (Proc.devRef .tc main_arg8) := kept V (by decide)
theorem arg9_kept (V : Valuation τ sig (Elt F)) : after ops V (Proc.devRef .tc main_arg9) = V (Proc.devRef .tc main_arg9) := kept V (by decide)
theorem arg10_kept (V : Valuation τ sig (Elt F)) : after ops V (Proc.devRef .tc main_arg10) = V (Proc.devRef .tc main_arg10) := kept V (by decide)

/-- No operation writes an argument: each holds after the line what it held before. -/
theorem args_kept (V : Valuation τ sig (Elt F)) :
    after ops V (Proc.devRef .tc main_arg0) = V (Proc.devRef .tc main_arg0)
    ∧ after ops V (Proc.devRef .tc main_arg1) = V (Proc.devRef .tc main_arg1)
    ∧ after ops V (Proc.devRef .tc main_arg2) = V (Proc.devRef .tc main_arg2)
    ∧ after ops V (Proc.devRef .tc main_arg3) = V (Proc.devRef .tc main_arg3)
    ∧ after ops V (Proc.devRef .tc main_arg4) = V (Proc.devRef .tc main_arg4)
    ∧ after ops V (Proc.devRef .tc main_arg5) = V (Proc.devRef .tc main_arg5)
    ∧ after ops V (Proc.devRef .tc main_arg6) = V (Proc.devRef .tc main_arg6)
    ∧ after ops V (Proc.devRef .tc main_arg7) = V (Proc.devRef .tc main_arg7)
    ∧ after ops V (Proc.devRef .tc main_arg8) = V (Proc.devRef .tc main_arg8)
    ∧ after ops V (Proc.devRef .tc main_arg9) = V (Proc.devRef .tc main_arg9)
    ∧ after ops V (Proc.devRef .tc main_arg10) = V (Proc.devRef .tc main_arg10) :=
  ⟨arg0_kept V, arg1_kept V, arg2_kept V, arg3_kept V, arg4_kept V, arg5_kept V, arg6_kept V, arg7_kept V, arg8_kept V, arg9_kept V, arg10_kept V⟩

/-- @main runs and every argument's buffer ends as launched. -/
theorem frame (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run _ _ _).mono (fun _ h c => ⟨(h c main_arg0).trans (arg0_kept _),
      (h c main_arg1).trans (arg1_kept _),
      (h c main_arg2).trans (arg2_kept _),
      (h c main_arg3).trans (arg3_kept _),
      (h c main_arg4).trans (arg4_kept _),
      (h c main_arg5).trans (arg5_kept _),
      (h c main_arg6).trans (arg6_kept _),
      (h c main_arg7).trans (arg7_kept _),
      (h c main_arg8).trans (arg8_kept _),
      (h c main_arg9).trans (arg9_kept _),
      (h c main_arg10).trans (arg10_kept _)⟩)
    (run m ρ)

end Cert.ReferenceIdeal.RefRun

end
-- ==== Proof.RefLayer.lean ====
/-
  One layer of the reference, read row by row.

  The reference computes a layer on the whole 50000 × 64 node arrays at once: two matrix products with 64 × 64
  weights, each followed by a bias laid along every row and a leaky ReLU; the sum of the two (the new embedding);
  and the new embedding scaled, row by row, by the reciprocal square root of its squared row length floored at
  1e-12. Every one of these operations acts on each row independently of the others: a matrix product's row is the
  row of the left factor times the right factor, a bias is the same for every row, the pointwise operations are
  pointwise, and the squared length is a sum along the row. So the value at row `i`, column `j` is the row-wise
  layer (`Cert.LayerRow`) applied to row `i` of the two node arrays.

  `refEgoNew` and `refNorm` are the layer's operations composed in the order the reference states them, over the
  node embeddings, the aggregated messages, and one layer's weights and biases; `refEgoNew_apply` and
  `refNorm_apply` read them at an index at the exact (extended real) values.
-/
import proofs.«103830_j35493609734828_1_alg».proof.ReferenceIdeal
import proofs.«103830_j35493609734828_1_alg».proof.Proof.Gen.ReferenceIdeal
import proofs.«103830_j35493609734828_1_alg».proof.Proof.LayerRow
import Idealize.ShloMosaic.Lib.ValueIdx
import Idealize.ShloMosaic.Lib.Pipeline.Value
import Idealize.ShloMosaic.Lib.ValueLayout
import Idealize.ShloMosaic.PureOps.Ideal.Laws

noncomputable section

namespace Cert.RefLayer

open Idealize.ShloMosaic Idealize.ShloMosaic.ValueIdx
open Cert.ReferenceIdeal (S50000x64 S64x64 S64 S1x64 S_ S50000 S50000x1 dot_S50000x64_S64x64_S50000x64_1_0_0_1_n_n)
open Cert.ReferenceIdeal.Facts₀

/-! ## The layer's operations, composed -/

section Defs
variable {F : FTy → Type} [FloatOps F]

/-- The new embedding: `lrelu (side · W_gc + b_gc) + lrelu ((ego ⊙ side) · W_bi + b_bi)`, each bias laid along
    every row, the leaky ReLU spelled as a select on `x ≥ 0` between `x` and `0.2 · x`. -/
def refEgoNew (ego side : FVec F S50000x64 .f32) (wgc : FVec F S64x64 .f32) (bgc : FVec F S64 .f32)
    (wbi : FVec F S64x64 .f32) (bbi : FVec F S64 .f32) : FVec F S50000x64 .f32 :=
  addf
    (select
      (cmpf .oge
        (addf (Host.dotGeneral (F := F) dot_S50000x64_S64x64_S50000x64_1_0_0_1_n_n none side wgc)
          (broadcastInDim S50000x64 ![0, 1] bcast_S1x64_S50000x64_0_1 (broadcastInDim S1x64 ![1] bcast_S64_S1x64_1 bgc)))
        (broadcastInDim S50000x64 ![] bcast_S_S50000x64 (constant (F := F) S_ .f32 0x00000000#32)))
      (addf (Host.dotGeneral (F := F) dot_S50000x64_S64x64_S50000x64_1_0_0_1_n_n none side wgc)
        (broadcastInDim S50000x64 ![0, 1] bcast_S1x64_S50000x64_0_1 (broadcastInDim S1x64 ![1] bcast_S64_S1x64_1 bgc)))
      (mulf (broadcastInDim S50000x64 ![] bcast_S_S50000x64 (id (constant (F := F) S_ .f32 0x3E4CCCCD#32)))
        (addf (Host.dotGeneral (F := F) dot_S50000x64_S64x64_S50000x64_1_0_0_1_n_n none side wgc)
          (broadcastInDim S50000x64 ![0, 1] bcast_S1x64_S50000x64_0_1 (broadcastInDim S1x64 ![1] bcast_S64_S1x64_1 bgc)))))
    (select
      (cmpf .oge
        (addf (Host.dotGeneral (F := F) dot_S50000x64_S64x64_S50000x64_1_0_0_1_n_n none (mulf ego side) wbi)
          (broadcastInDim S50000x64 ![0, 1] bcast_S1x64_S50000x64_0_1 (broadcastInDim S1x64 ![1] bcast_S64_S1x64_1 bbi)))
        (broadcastInDim S50000x64 ![] bcast_S_S50000x64 (constant (F := F) S_ .f32 0x00000000#32)))
      (addf (Host.dotGeneral (F := F) dot_S50000x64_S64x64_S50000x64_1_0_0_1_n_n none (mulf ego side) wbi)
        (broadcastInDim S50000x64 ![0, 1] bcast_S1x64_S50000x64_0_1 (broadcastInDim S1x64 ![1] bcast_S64_S1x64_1 bbi)))
      (mulf (broadcastInDim S50000x64 ![] bcast_S_S50000x64 (id (constant (F := F) S_ .f32 0x3E4CCCCD#32)))
        (addf (Host.dotGeneral (F := F) dot_S50000x64_S64x64_S50000x64_1_0_0_1_n_n none (mulf ego side) wbi)
          (broadcastInDim S50000x64 ![0, 1] bcast_S1x64_S50000x64_0_1 (broadcastInDim S1x64 ![1] bcast_S64_S1x64_1 bbi)))))

/-- The normalised new embedding: the new embedding times `rsqrt` of its squared row length (summed along the
    row from zero, kept as a column) floored at 1e-12 and laid along the row. -/
def refNorm (ego side : FVec F S50000x64 .f32) (wgc : FVec F S64x64 .f32) (bgc : FVec F S64 .f32)
    (wbi : FVec F S64x64 .f32) (bbi : FVec F S64 .f32) : FVec F S50000x64 .f32 :=
  mulf (refEgoNew ego side wgc bgc wbi bbi)
    (broadcastInDim S50000x64 ![0, 1] bcast_S50000x1_S50000x64_0_1
      (Host.rsqrt (F := F)
        (maximumf
          (broadcastInDim S50000x1 ![0] bcast_S50000_S50000x1_0
            (Host.reduceAdd (F := F)
              (mulf (refEgoNew ego side wgc bgc wbi bbi) (refEgoNew ego side wgc bgc wbi bbi))
              (constant (F := F) S_ .f32 0x00000000#32) reducesTo_S50000x64_S50000_d1 h_S_))
          (broadcastInDim S50000x1 ![] bcast_S_S50000x1 (constant (F := F) S_ .f32 0x2B8CBCCC#32)))))

end Defs

/-! ## Reading the operations at an index, at the exact values -/

section AtIdeal

/-- An entry of the matrix product: row `i` of the left factor against column `j` of the right one. -/
theorem dot_apply (A : FVec Ideal S50000x64 .f32) (B : FVec Ideal S64x64 .f32) (i : Fin 50000) (j : Fin 64) :
    Host.dotGeneral (F := Ideal) dot_S50000x64_S64x64_S50000x64_1_0_0_1_n_n none A B (ix2 i j)
      = ∑ k : Fin 64, A (ix2 i k) * B (ix2 k j) := by
  show FloatOps.dotGeneral _ none _ A B (ix2 i j) = _
  rw [Ideal.dotGeneral_apply,
    ← Equiv.sum_comp (contrEquiv1 dot_S50000x64_S64x64_S50000x64_1_0_0_1_n_n 64 rfl rfl).symm]
  refine Finset.sum_congr rfl fun c _ => ?_
  have c2 := contrEquiv1_symm_val dot_S50000x64_S64x64_S50000x64_1_0_0_1_n_n 64 rfl rfl c
  have l2 : dot_S50000x64_S64x64_S50000x64_1_0_0_1_n_n.lhsIdx (ix2 i j) ((contrEquiv1 _ 64 rfl rfl).symm c) = ix2 i c := by
    funext ax; apply Fin.ext
    match ax with
    | ⟨0, _⟩ => rfl
    | ⟨1, _⟩ => exact (DotDims.lhsIdx_val_of_single _ rfl _ _).trans c2
  have r2 : dot_S50000x64_S64x64_S50000x64_1_0_0_1_n_n.rhsIdx (ix2 i j) ((contrEquiv1 _ 64 rfl rfl).symm c) = ix2 c j := by
    funext ax; apply Fin.ext
    match ax with
    | ⟨0, _⟩ => exact (DotDims.rhsIdx_val_of_single _ rfl _ _).trans c2
    | ⟨1, _⟩ => rfl
  rw [l2, r2]

/-- A bias vector laid along every row reads, at row `i` and column `j`, its entry `j`. -/
theorem bias_apply (b : FVec Ideal S64 .f32) (i : Fin 50000) (j : Fin 64) :
    broadcastInDim S50000x64 ![0, 1] bcast_S1x64_S50000x64_0_1 (broadcastInDim S1x64 ![1] bcast_S64_S1x64_1 b) (ix2 i j)
      = b (ix1 j) := by
  rw [broadcastInDim_apply ![0, 1] bcast_S1x64_S50000x64_0_1 _ (ix2 i j) (ix2 (0 : Fin 1) j) (by
      intro a
      match a with
      | ⟨0, _⟩ => rfl
      | ⟨1, _⟩ => rfl),
    broadcastInDim_apply ![1] bcast_S64_S1x64_1 b (ix2 (0 : Fin 1) j) (ix1 j) (by
      intro a
      match a with
      | ⟨0, _⟩ => rfl)]

/-- The leaky ReLU as the reference spells it, at an index: a select on `x ≥ 0` between `x` and `0.2 · x`. -/
theorem lrelu_apply (x : FVec Ideal S50000x64 .f32) (p : S50000x64.Idx) :
    select
        (cmpf .oge x (broadcastInDim S50000x64 ![] bcast_S_S50000x64 (constant (F := Ideal) S_ .f32 0x00000000#32)))
        x
        (mulf (broadcastInDim S50000x64 ![] bcast_S_S50000x64 (id (constant (F := Ideal) S_ .f32 0x3E4CCCCD#32))) x) p
      = Cert.LayerRow.lrelu (x p) := rfl

/-- The reference's new embedding at row `i`, column `j` is the row-wise layer on row `i`. -/
theorem refEgoNew_apply (ego side : FVec Ideal S50000x64 .f32) (wgc : FVec Ideal S64x64 .f32) (bgc : FVec Ideal S64 .f32)
    (wbi : FVec Ideal S64x64 .f32) (bbi : FVec Ideal S64 .f32) (i : Fin 50000) (j : Fin 64) :
    refEgoNew (F := Ideal) ego side wgc bgc wbi bbi (ix2 i j)
      = Cert.LayerRow.egoNew (fun k => ego (ix2 i k)) (fun k => side (ix2 i k)) (fun k j => wgc (ix2 k j))
          (fun j => bgc (ix1 j)) (fun k j => wbi (ix2 k j)) (fun j => bbi (ix1 j)) j := by
  unfold refEgoNew
  rw [addf_apply, lrelu_apply, lrelu_apply, addf_apply, addf_apply, dot_apply, dot_apply, bias_apply, bias_apply]
  rfl

/-- The sum along a row, from an initial value: at row `i`, the initial value plus the sum of the row's entries. -/
theorem rowSum_apply (x : FVec Ideal S50000x64 .f32) (init : FVec Ideal S_ .f32) (i : Fin 50000) :
    Host.reduceAdd (F := Ideal) x init reducesTo_S50000x64_S50000_d1 h_S_ (ix1 i)
      = init ix0 + ∑ k : Fin 64, x (ix2 i k) := by
  have h : S50000x64.Reduces [1] S50000 :=
    ⟨reducesTo_S50000x64_S50000_d1.1, Nat.one_pos, reducesTo_S50000x64_S50000_d1.2⟩
  show Ideal.hostReduceAdd reducesTo_S50000x64_S50000_d1 x (init (Shape.Idx.first h_S_)) (ix1 i) = _
  rw [Ideal.hostReduceAdd_single reducesTo_S50000x64_S50000_d1 h, eq_ix0 (Shape.Idx.first h_S_)]
  refine congrArg (_ + ·) (Finset.sum_congr rfl fun k _ => ?_)
  refine congrArg x (funext fun a => Fin.ext ?_)
  match a with
  | ⟨0, _⟩ => rfl
  | ⟨1, _⟩ => rfl

/-- A column (one entry per row) laid along the row reads, at row `i` and any column, the column's entry `i`; and
    a vector made a column reads its entry `i`. -/
theorem column_apply (v : FVec Ideal S50000 .f32) (c : FVec Ideal S_ .f32) (i : Fin 50000) (j : Fin 64) :
    broadcastInDim S50000x64 ![0, 1] bcast_S50000x1_S50000x64_0_1
        (Host.rsqrt (F := Ideal)
          (maximumf (broadcastInDim S50000x1 ![0] bcast_S50000_S50000x1_0 v)
            (broadcastInDim S50000x1 ![] bcast_S_S50000x1 c))) (ix2 i j)
      = Ideal.rsqrt (max (v (ix1 i)) (c ix0)) := by
  rw [broadcastInDim_apply ![0, 1] bcast_S50000x1_S50000x64_0_1 _ (ix2 i j) (ix2 i (0 : Fin 1)) (by
      intro a
      match a with
      | ⟨0, _⟩ => rfl
      | ⟨1, _⟩ => rfl)]
  show Ideal.rsqrt (max (broadcastInDim S50000x1 ![0] bcast_S50000_S50000x1_0 v (ix2 i (0 : Fin 1)))
      (broadcastInDim S50000x1 ![] bcast_S_S50000x1 c (ix2 i (0 : Fin 1)))) = _
  rw [broadcastInDim_apply ![0] bcast_S50000_S50000x1_0 v (ix2 i (0 : Fin 1)) (ix1 i) (by
      intro a
      match a with
      | ⟨0, _⟩ => rfl),
    broadcastInDim_apply ![] bcast_S_S50000x1 c (ix2 i (0 : Fin 1)) ix0 (fun a => a.elim0)]

/-- The reference's normalised new embedding at row `i`, column `j` is the row-wise normalised layer on row `i`. -/
theorem refNorm_apply (ego side : FVec Ideal S50000x64 .f32) (wgc : FVec Ideal S64x64 .f32) (bgc : FVec Ideal S64 .f32)
    (wbi : FVec Ideal S64x64 .f32) (bbi : FVec Ideal S64 .f32) (i : Fin 50000) (j : Fin 64) :
    refNorm (F := Ideal) ego side wgc bgc wbi bbi (ix2 i j)
      = Cert.LayerRow.normed (fun k => ego (ix2 i k)) (fun k => side (ix2 i k)) (fun k j => wgc (ix2 k j))
          (fun j => bgc (ix1 j)) (fun k j => wbi (ix2 k j)) (fun j => bbi (ix1 j)) j := by
  unfold refNorm
  rw [mulf_apply, column_apply, rowSum_apply, refEgoNew_apply]
  simp only [mulf_apply, refEgoNew_apply]
  rfl

end AtIdeal

end Cert.RefLayer

end
-- ==== Proof.RefRead.lean ====
/-
  The reference's three results as one function of the eleven arguments.

  The straight line of the reference's operations is four stretches run one after the other: the three layers and the
  final assembly. A stretch reads only a few buffers of what came before — a layer reads the previous layer's new
  embeddings and the arguments; the assembly reads the initial embeddings, the three normalised copies and the requested
  indices — and no stretch writes a buffer an earlier one wrote. So each stretch is read ONCE, from an arbitrary
  valuation, as the layer function (or the assembly) applied to those few buffers; and the results compose stretch by
  stretch into the shared function of the arguments with the reference's layer at its two parameters.
-/
import proofs.«103830_j35493609734828_1_alg».proof.Proof.RefRun
import proofs.«103830_j35493609734828_1_alg».proof.Proof.RefLayer
import proofs.«103830_j35493609734828_1_alg».proof.Proof.Glue

-- a stretch of sixty operations is read in one pass, the fold unrolled: past the default depth and budget
set_option maxRecDepth 8192
set_option maxHeartbeats 1000000

noncomputable section

namespace Cert.ReferenceIdeal.RefRead

open Cert.ReferenceIdeal Cert.ReferenceIdeal.Gen Cert.ReferenceIdeal.RefRun Idealize.ShloMosaic Idealize.ShloMosaic.TcCoe Idealize.SL.Sem Idealize.ShloMosaic.StableHlo

variable {F : FTy → Type} [FloatOps F]

/-- The eleven arguments' contents, read off a valuation. -/
def argsOf (V : Valuation τ sig (Elt F)) : Cert.Glue.Args F :=
  ⟨V (Proc.devRef .tc main_arg0), V (Proc.devRef .tc main_arg1), V (Proc.devRef .tc main_arg2), V (Proc.devRef .tc main_arg3), V (Proc.devRef .tc main_arg4), V (Proc.devRef .tc main_arg5), V (Proc.devRef .tc main_arg6), V (Proc.devRef .tc main_arg7), V (Proc.devRef .tc main_arg8), V (Proc.devRef .tc main_arg9), V (Proc.devRef .tc main_arg10)⟩

/-! ## The line in four stretches -/

/-- The first layer: the node array, its aggregated messages, the new embeddings and their normalised copy. -/
abbrev L0 : List (HloOp τ sig (Elt F)) :=
  [ binary main_arg3 main_arg4 main_v0 ((fun a b => concatenate S50000x64 0 [⟨S25000x64, a⟩, ⟨S25000x64, b⟩] concatenates_S25000x64_S25000x64_S50000x64_d0) : (⟨S25000x64, .f32⟩ : BufTy).Contents (Elt F) → (⟨S25000x64, .f32⟩ : BufTy).Contents (Elt F) → (⟨S50000x64, .f32⟩ : BufTy).Contents (Elt F)),
    unary main_arg2 main_v1 (broadcastInDim S800000x1 ![0] bcast_S800000_S800000x1_0 : (⟨S800000, .f32⟩ : BufTy).Contents (Elt F) → (⟨S800000x1, .f32⟩ : BufTy).Contents (Elt F)),
    nullary main_c (constantI S_ 32 0#32),
    unary main_c main_v2 (broadcastInDim S800000 ![] bcast_S_S800000 : (⟨S_, .i32⟩ : BufTy).Contents (Elt F) → (⟨S800000, .i32⟩ : BufTy).Contents (Elt F)),
    binary main_arg1 main_v2 main_v3 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v4 (broadcastInDim S800000 ![] bcast_S_S800000 : (⟨S_, .i32⟩ : BufTy).Contents (Elt F) → (⟨S800000, .i32⟩ : BufTy).Contents (Elt F)),
    binary main_arg1 main_v4 main_v5 (addi : (⟨S800000, .i32⟩ : BufTy).Contents (Elt F) → (⟨S800000, .i32⟩ : BufTy).Contents (Elt F) → (⟨S800000, .i32⟩ : BufTy).Contents (Elt F)),
    ternary main_v3 main_v5 main_arg1 main_v6 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v6 main_v7 (broadcastInDim S800000x1 ![0] bcast_S800000_S800000x1_0 : (⟨S800000, .i32⟩ : BufTy).Contents (Elt F) → (⟨S800000x1, .i32⟩ : BufTy).Contents (Elt F)),
    binary main_v0 main_v7 main_v8 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    unary main_v1 main_v9 (broadcastInDim S800000x64 ![0, 1] bcast_S800000x1_S800000x64_0_1 : (⟨S800000x1, .f32⟩ : BufTy).Contents (Elt F) → (⟨S800000x64, .f32⟩ : BufTy).Contents (Elt F)),
    binary main_v9 main_v8 main_v10 (mulf : (⟨S800000x64, .f32⟩ : BufTy).Contents (Elt F) → (⟨S800000x64, .f32⟩ : BufTy).Contents (Elt F) → (⟨S800000x64, .f32⟩ : BufTy).Contents (Elt F)),
    nullary main_cst (constant S_ .f32 0x00000000#32),
    unary main_cst main_v11 (broadcastInDim S50000x64 ![] bcast_S_S50000x64 : (⟨S_, .f32⟩ : BufTy).Contents (Elt F) → (⟨S50000x64, .f32⟩ : BufTy).Contents (Elt F)),
    unary main_arg0 main_v12 (broadcastInDim S800000x1 ![0] bcast_S800000_S800000x1_0 : (⟨S800000, .i32⟩ : BufTy).Contents (Elt F) → (⟨S800000x1, .i32⟩ : BufTy).Contents (Elt F)),
    ternary main_v11 main_v12 main_v10 main_v13 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    unary main_arg5 main_v14 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v14 main_v15 rfl shapeCasts_S1x64x64_S64x64,
    binary main_v13 main_v15 main_v16 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg6 main_v17 ((extractStridedSlice S1x64 ![0, 0] · slices_S3x64_S1x64_0_0) : (⟨S3x64, .f32⟩ : BufTy).Contents (Elt F) → (⟨S1x64, .f32⟩ : BufTy).Contents (Elt F)),
    reshape main_v17 main_v18 rfl shapeCasts_S1x64_S64,
    unary main_v18 main_v19 (broadcastInDim S1x64 ![1] bcast_S64_S1x64_1 : (⟨S64, .f32⟩ : BufTy).Contents (Elt F) → (⟨S1x64, .f32⟩ : BufTy).Contents (Elt F)),
    unary main_v19 main_v20 (broadcastInDim S50000x64 ![0, 1] bcast_S1x64_S50000x64_0_1 : (⟨S1x64, .f32⟩ : BufTy).Contents (Elt F) → (⟨S50000x64, .f32⟩ : BufTy).Contents (Elt F)),
    binary main_v16 main_v20 main_v21 (addf : (⟨S50000x64, .f32⟩ : BufTy).Contents (Elt F) → (⟨S50000x64, .f32⟩ : BufTy).Contents (Elt F) → (⟨S50000x64, .f32⟩ : BufTy).Contents (Elt F)),
    nullary main_cst_1 (constant S_ .f32 0x3E4CCCCD#32),
    TRef.nullary main_call0.cst (constant S_ .f32 0x00000000#32),
    TRef.unary main_call0.cst main_call0.v0 (broadcastInDim S50000x64 ![] bcast_S_S50000x64),
    TRef.binary (.of main_v21) main_call0.v0 main_call0.v1 (cmpf .oge),
    TRef.unary (.of main_cst_1) main_call0.v2 id,
    TRef.unary main_call0.v2 main_call0.v3 (broadcastInDim S50000x64 ![] bcast_S_S50000x64),
    TRef.binary main_call0.v3 (.of main_v21) main_call0.v4 mulf,
    TRef.ternary main_call0.v1 (.of main_v21) main_call0.v4 main_call0.call0.v0 select,
    binary main_v0 main_v13 main_v23 (mulf : (⟨S50000x64, .f32⟩ : BufTy).Contents (Elt F) → (⟨S50000x64, .f32⟩ : BufTy).Contents (Elt F) → (⟨S50000x64, .f32⟩ : BufTy).Contents (Elt F)),
    unary main_arg7 main_v24 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v24 main_v25 rfl shapeCasts_S1x64x64_S64x64,
    binary main_v23 main_v25 main_v26 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg8 main_v27 ((extractStridedSlice S1x64 ![0, 0] · slices_S3x64_S1x64_0_0) : (⟨S3x64, .f32⟩ : BufTy).Contents (Elt F) → (⟨S1x64, .f32⟩ : BufTy).Contents (Elt F)),
    reshape main_v27 main_v28 rfl shapeCasts_S1x64_S64,
    unary main_v28 main_v29 (broadcastInDim S1x64 ![1] bcast_S64_S1x64_1 : (⟨S64, .f32⟩ : BufTy).Contents (Elt F) → (⟨S1x64, .f32⟩ : BufTy).Contents (Elt F)),
    unary main_v29 main_v30 (broadcastInDim S50000x64 ![0, 1] bcast_S1x64_S50000x64_0_1 : (⟨S1x64, .f32⟩ : BufTy).Contents (Elt F) → (⟨S50000x64, .f32⟩ : BufTy).Contents (Elt F)),
    binary main_v26 main_v30 main_v31 (addf : (⟨S50000x64, .f32⟩ : BufTy).Contents (Elt F) → (⟨S50000x64, .f32⟩ : BufTy).Contents (Elt F) → (⟨S50000x64, .f32⟩ : BufTy).Contents (Elt F)),
    nullary main_cst_2 (constant S_ .f32 0x3E4CCCCD#32),
    TRef.nullary main_call1.cst (constant S_ .f32 0x00000000#32),
    TRef.unary main_call1.cst main_call1.v0 (broadcastInDim S50000x64 ![] bcast_S_S50000x64),
    TRef.binary (.of main_v31) main_call1.v0 main_call1.v1 (cmpf .oge),
    TRef.unary (.of main_cst_2) main_call1.v2 id,
    TRef.unary main_call1.v2 main_call1.v3 (broadcastInDim S50000x64 ![] bcast_S_S50000x64),
    TRef.binary main_call1.v3 (.of main_v31) main_call1.v4 mulf,
    TRef.ternary main_call1.v1 (.of main_v31) main_call1.v4 main_call1.call0.v0 select,
    binary main_v22 main_v32 main_v33 (addf : (⟨S50000x64, .f32⟩ : BufTy).Contents (Elt F) → (⟨S50000x64, .f32⟩ : BufTy).Contents (Elt F) → (⟨S50000x64, .f32⟩ : BufTy).Contents (Elt F)),
    binary main_v33 main_v33 main_v34 (mulf : (⟨S50000x64, .f32⟩ : BufTy).Contents (Elt F) → (⟨S50000x64, .f32⟩ : BufTy).Contents (Elt F) → (⟨S50000x64, .f32⟩ : BufTy).Contents (Elt F)),
    nullary main_cst_3 (constant S_ .f32 0x00000000#32),
    binary main_v34 main_cst_3 main_v35 ((fun x v => Host.reduceAdd x v reducesTo_S50000x64_S50000_d1 h_S_) : (⟨S50000x64, .f32⟩ : BufTy).Contents (Elt F) → (⟨S_, .f32⟩ : BufTy).Contents (Elt F) → (⟨S50000, .f32⟩ : BufTy).Contents (Elt F)),
    unary main_v35 main_v36 (broadcastInDim S50000x1 ![0] bcast_S50000_S50000x1_0 : (⟨S50000, .f32⟩ : BufTy).Contents (Elt F) → (⟨S50000x1, .f32⟩ : BufTy).Contents (Elt F)),
    nullary main_cst_4 (constant S_ .f32 0x2B8CBCCC#32),
    unary main_cst_4 main_v37 (broadcastInDim S50000x1 ![] bcast_S_S50000x1 : (⟨S_, .f32⟩ : BufTy).Contents (Elt F) → (⟨S50000x1, .f32⟩ : BufTy).Contents (Elt F)),
    binary main_v36 main_v37 main_v38 (maximumf : (⟨S50000x1, .f32⟩ : BufTy).Contents (Elt F) → (⟨S50000x1, .f32⟩ : BufTy).Contents (Elt F) → (⟨S50000x1, .f32⟩ : BufTy).Contents (Elt F)),
    unary main_v38 main_v39 (Host.rsqrt : (⟨S50000x1, .f32⟩ : BufTy).Contents (Elt F) → (⟨S50000x1, .f32⟩ : BufTy).Contents (Elt F)),
    unary main_v39 main_v40 (broadcastInDim S50000x64 ![0, 1] bcast_S50000x1_S50000x64_0_1 : (⟨S50000x1, .f32⟩ : BufTy).Contents (Elt F) → (⟨S50000x64, .f32⟩ : BufTy).Contents (Elt F)),
    binary main_v33 main_v40 main_v41 (mulf : (⟨S50000x64, .f32⟩ : BufTy).Contents (Elt F) → (⟨S50000x64, .f32⟩ : BufTy).Contents (Elt F) → (⟨S50000x64, .f32⟩ : BufTy).Contents (Elt F)) ]

/-- The second layer, from the first layer's new embeddings. -/
abbrev L1 : List (HloOp τ sig (Elt F)) :=
  [ unary main_arg2 main_v42 (broadcastInDim S800000x1 ![0] bcast_S800000_S800000x1_0 : (⟨S800000, .f32⟩ : BufTy).Contents (Elt F) → (⟨S800000x1, .f32⟩ : BufTy).Contents (Elt F)),
    nullary main_c_5 (constantI S_ 32 0#32),
    unary main_c_5 main_v43 (broadcastInDim S800000 ![] bcast_S_S800000 : (⟨S_, .i32⟩ : BufTy).Contents (Elt F) → (⟨S800000, .i32⟩ : BufTy).Contents (Elt F)),
    binary main_arg1 main_v43 main_v44 (cmpi .slt : (⟨S800000, .i32⟩ : BufTy).Contents (Elt F) → (⟨S800000, .i32⟩ : BufTy).Contents (Elt F) → (⟨S800000, .i1⟩ : BufTy).Contents (Elt F)),
    nullary main_c_6 (constantI S_ 32 50000#32),
    unary main_c_6 main_v45 (broadcastInDim S800000 ![] bcast_S_S800000 : (⟨S_, .i32⟩ : BufTy).Contents (Elt F) → (⟨S800000, .i32⟩ : BufTy).Contents (Elt F)),
    binary main_arg1 main_v45 main_v46 (addi : (⟨S800000, .i32⟩ : BufTy).Contents (Elt F) → (⟨S800000, .i32⟩ : BufTy).Contents (Elt F) → (⟨S800000, .i32⟩ : BufTy).Contents (Elt F)),
    ternary main_v44 main_v46 main_arg1 main_v47 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v47 main_v48 (broadcastInDim S800000x1 ![0] bcast_S800000_S800000x1_0 : (⟨S800000, .i32⟩ : BufTy).Contents (Elt F) → (⟨S800000x1, .i32⟩ : BufTy).Contents (Elt F)),
    binary main_v33 main_v48 main_v49 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    unary main_v42 main_v50 (broadcastInDim S800000x64 ![0, 1] bcast_S800000x1_S800000x64_0_1 : (⟨S800000x1, .f32⟩ : BufTy).Contents (Elt F) → (⟨S800000x64, .f32⟩ : BufTy).Contents (Elt F)),
    binary main_v50 main_v49 main_v51 (mulf : (⟨S800000x64, .f32⟩ : BufTy).Contents (Elt F) → (⟨S800000x64, .f32⟩ : BufTy).Contents (Elt F) → (⟨S800000x64, .f32⟩ : BufTy).Contents (Elt F)),
    nullary main_cst_7 (constant S_ .f32 0x00000000#32),
    unary main_cst_7 main_v52 (broadcastInDim S50000x64 ![] bcast_S_S50000x64 : (⟨S_, .f32⟩ : BufTy).Contents (Elt F) → (⟨S50000x64, .f32⟩ : BufTy).Contents (Elt F)),
    unary main_arg0 main_v53 (broadcastInDim S800000x1 ![0] bcast_S800000_S800000x1_0 : (⟨S800000, .i32⟩ : BufTy).Contents (Elt F) → (⟨S800000x1, .i32⟩ : BufTy).Contents (Elt F)),
    ternary main_v52 main_v53 main_v51 main_v54 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    unary main_arg5 main_v55 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v55 main_v56 rfl shapeCasts_S1x64x64_S64x64,
    binary main_v54 main_v56 main_v57 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg6 main_v58 ((extractStridedSlice S1x64 ![1, 0] · slices_S3x64_S1x64_1_0) : (⟨S3x64, .f32⟩ : BufTy).Contents (Elt F) → (⟨S1x64, .f32⟩ : BufTy).Contents (Elt F)),
    reshape main_v58 main_v59 rfl shapeCasts_S1x64_S64,
    unary main_v59 main_v60 (broadcastInDim S1x64 ![1] bcast_S64_S1x64_1 : (⟨S64, .f32⟩ : BufTy).Contents (Elt F) → (⟨S1x64, .f32⟩ : BufTy).Contents (Elt F)),
    unary main_v60 main_v61 (broadcastInDim S50000x64 ![0, 1] bcast_S1x64_S50000x64_0_1 : (⟨S1x64, .f32⟩ : BufTy).Contents (Elt F) → (⟨S50000x64, .f32⟩ : BufTy).Contents (Elt F)),
    binary main_v57 main_v61 main_v62 (addf : (⟨S50000x64, .f32⟩ : BufTy).Contents (Elt F) → (⟨S50000x64, .f32⟩ : BufTy).Contents (Elt F) → (⟨S50000x64, .f32⟩ : BufTy).Contents (Elt F)),
    nullary main_cst_8 (constant S_ .f32 0x3E4CCCCD#32),
    TRef.nullary main_call2.cst (constant S_ .f32 0x00000000#32),
    TRef.unary main_call2.cst main_call2.v0 (broadcastInDim S50000x64 ![] bcast_S_S50000x64),
    TRef.binary (.of main_v62) main_call2.v0 main_call2.v1 (cmpf .oge),
    TRef.unary (.of main_cst_8) main_call2.v2 id,
    TRef.unary main_call2.v2 main_call2.v3 (broadcastInDim S50000x64 ![] bcast_S_S50000x64),
    TRef.binary main_call2.v3 (.of main_v62) main_call2.v4 mulf,
    TRef.ternary main_call2.v1 (.of main_v62) main_call2.v4 main_call2.call0.v0 select,
    binary main_v33 main_v54 main_v64 (mulf : (⟨S50000x64, .f32⟩ : BufTy).Contents (Elt F) → (⟨S50000x64, .f32⟩ : BufTy).Contents (Elt F) → (⟨S50000x64, .f32⟩ : BufTy).Contents (Elt F)),
    unary main_arg7 main_v65 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v65 main_v66 rfl shapeCasts_S1x64x64_S64x64,
    binary main_v64 main_v66 main_v67 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg8 main_v68 ((extractStridedSlice S1x64 ![1, 0] · slices_S3x64_S1x64_1_0) : (⟨S3x64, .f32⟩ : BufTy).Contents (Elt F) → (⟨S1x64, .f32⟩ : BufTy).Contents (Elt F)),
    reshape main_v68 main_v69 rfl shapeCasts_S1x64_S64,
    unary main_v69 main_v70 (broadcastInDim S1x64 ![1] bcast_S64_S1x64_1 : (⟨S64, .f32⟩ : BufTy).Contents (Elt F) → (⟨S1x64, .f32⟩ : BufTy).Contents (Elt F)),
    unary main_v70 main_v71 (broadcastInDim S50000x64 ![0, 1] bcast_S1x64_S50000x64_0_1 : (⟨S1x64, .f32⟩ : BufTy).Contents (Elt F) → (⟨S50000x64, .f32⟩ : BufTy).Contents (Elt F)),
    binary main_v67 main_v71 main_v72 (addf : (⟨S50000x64, .f32⟩ : BufTy).Contents (Elt F) → (⟨S50000x64, .f32⟩ : BufTy).Contents (Elt F) → (⟨S50000x64, .f32⟩ : BufTy).Contents (Elt F)),
    nullary main_cst_9 (constant S_ .f32 0x3E4CCCCD#32),
    TRef.nullary main_call3.cst (constant S_ .f32 0x00000000#32),
    TRef.unary main_call3.cst main_call3.v0 (broadcastInDim S50000x64 ![] bcast_S_S50000x64),
    TRef.binary (.of main_v72) main_call3.v0 main_call3.v1 (cmpf .oge),
    TRef.unary (.of main_cst_9) main_call3.v2 id,
    TRef.unary main_call3.v2 main_call3.v3 (broadcastInDim S50000x64 ![] bcast_S_S50000x64),
    TRef.binary main_call3.v3 (.of main_v72) main_call3.v4 mulf,
    TRef.ternary main_call3.v1 (.of main_v72) main_call3.v4 main_call3.call0.v0 select,
    binary main_v63 main_v73 main_v74 (addf : (⟨S50000x64, .f32⟩ : BufTy).Contents (Elt F) → (⟨S50000x64, .f32⟩ : BufTy).Contents (Elt F) → (⟨S50000x64, .f32⟩ : BufTy).Contents (Elt F)),
    binary main_v74 main_v74 main_v75 (mulf : (⟨S50000x64, .f32⟩ : BufTy).Contents (Elt F) → (⟨S50000x64, .f32⟩ : BufTy).Contents (Elt F) → (⟨S50000x64, .f32⟩ : BufTy).Contents (Elt F)),
    nullary main_cst_10 (constant S_ .f32 0x00000000#32),
    binary main_v75 main_cst_10 main_v76 ((fun x v => Host.reduceAdd x v reducesTo_S50000x64_S50000_d1 h_S_) : (⟨S50000x64, .f32⟩ : BufTy).Contents (Elt F) → (⟨S_, .f32⟩ : BufTy).Contents (Elt F) → (⟨S50000, .f32⟩ : BufTy).Contents (Elt F)),
    unary main_v76 main_v77 (broadcastInDim S50000x1 ![0] bcast_S50000_S50000x1_0 : (⟨S50000, .f32⟩ : BufTy).Contents (Elt F) → (⟨S50000x1, .f32⟩ : BufTy).Contents (Elt F)),
    nullary main_cst_11 (constant S_ .f32 0x2B8CBCCC#32),
    unary main_cst_11 main_v78 (broadcastInDim S50000x1 ![] bcast_S_S50000x1 : (⟨S_, .f32⟩ : BufTy).Contents (Elt F) → (⟨S50000x1, .f32⟩ : BufTy).Contents (Elt F)),
    binary main_v77 main_v78 main_v79 (maximumf : (⟨S50000x1, .f32⟩ : BufTy).Contents (Elt F) → (⟨S50000x1, .f32⟩ : BufTy).Contents (Elt F) → (⟨S50000x1, .f32⟩ : BufTy).Contents (Elt F)),
    unary main_v79 main_v80 (Host.rsqrt : (⟨S50000x1, .f32⟩ : BufTy).Contents (Elt F) → (⟨S50000x1, .f32⟩ : BufTy).Contents (Elt F)),
    unary main_v80 main_v81 (broadcastInDim S50000x64 ![0, 1] bcast_S50000x1_S50000x64_0_1 : (⟨S50000x1, .f32⟩ : BufTy).Contents (Elt F) → (⟨S50000x64, .f32⟩ : BufTy).Contents (Elt F)),
    binary main_v74 main_v81 main_v82 (mulf : (⟨S50000x64, .f32⟩ : BufTy).Contents (Elt F) → (⟨S50000x64, .f32⟩ : BufTy).Contents (Elt F) → (⟨S50000x64, .f32⟩ : BufTy).Contents (Elt F)) ]

/-- The third layer, from the second layer's new embeddings. -/
abbrev L2 : List (HloOp τ sig (Elt F)) :=
  [ unary main_arg2 main_v83 (broadcastInDim S800000x1 ![0] bcast_S800000_S800000x1_0 : (⟨S800000, .f32⟩ : BufTy).Contents (Elt F) → (⟨S800000x1, .f32⟩ : BufTy).Contents (Elt F)),
    nullary main_c_12 (constantI S_ 32 0#32),
    unary main_c_12 main_v84 (broadcastInDim S800000 ![] bcast_S_S800000 : (⟨S_, .i32⟩ : BufTy).Contents (Elt F) → (⟨S800000, .i32⟩ : BufTy).Contents (Elt F)),
    binary main_arg1 main_v84 main_v85 (cmpi .slt : (⟨S800000, .i32⟩ : BufTy).Contents (Elt F) → (⟨S800000, .i32⟩ : BufTy).Contents (Elt F) → (⟨S800000, .i1⟩ : BufTy).Contents (Elt F)),
    nullary main_c_13 (constantI S_ 32 50000#32),
    unary main_c_13 main_v86 (broadcastInDim S800000 ![] bcast_S_S800000 : (⟨S_, .i32⟩ : BufTy).Contents (Elt F) → (⟨S800000, .i32⟩ : BufTy).Contents (Elt F)),
    binary main_arg1 main_v86 main_v87 (addi : (⟨S800000, .i32⟩ : BufTy).Contents (Elt F) → (⟨S800000, .i32⟩ : BufTy).Contents (Elt F) → (⟨S800000, .i32⟩ : BufTy).Contents (Elt F)),
    ternary main_v85 main_v87 main_arg1 main_v88 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v88 main_v89 (broadcastInDim S800000x1 ![0] bcast_S800000_S800000x1_0 : (⟨S800000, .i32⟩ : BufTy).Contents (Elt F) → (⟨S800000x1, .i32⟩ : BufTy).Contents (Elt F)),
    binary main_v74 main_v89 main_v90 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    unary main_v83 main_v91 (broadcastInDim S800000x64 ![0, 1] bcast_S800000x1_S800000x64_0_1 : (⟨S800000x1, .f32⟩ : BufTy).Contents (Elt F) → (⟨S800000x64, .f32⟩ : BufTy).Contents (Elt F)),
    binary main_v91 main_v90 main_v92 (mulf : (⟨S800000x64, .f32⟩ : BufTy).Contents (Elt F) → (⟨S800000x64, .f32⟩ : BufTy).Contents (Elt F) → (⟨S800000x64, .f32⟩ : BufTy).Contents (Elt F)),
    nullary main_cst_14 (constant S_ .f32 0x00000000#32),
    unary main_cst_14 main_v93 (broadcastInDim S50000x64 ![] bcast_S_S50000x64 : (⟨S_, .f32⟩ : BufTy).Contents (Elt F) → (⟨S50000x64, .f32⟩ : BufTy).Contents (Elt F)),
    unary main_arg0 main_v94 (broadcastInDim S800000x1 ![0] bcast_S800000_S800000x1_0 : (⟨S800000, .i32⟩ : BufTy).Contents (Elt F) → (⟨S800000x1, .i32⟩ : BufTy).Contents (Elt F)),
    ternary main_v93 main_v94 main_v92 main_v95 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    unary main_arg5 main_v96 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v96 main_v97 rfl shapeCasts_S1x64x64_S64x64,
    binary main_v95 main_v97 main_v98 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg6 main_v99 ((extractStridedSlice S1x64 ![2, 0] · slices_S3x64_S1x64_2_0) : (⟨S3x64, .f32⟩ : BufTy).Contents (Elt F) → (⟨S1x64, .f32⟩ : BufTy).Contents (Elt F)),
    reshape main_v99 main_v100 rfl shapeCasts_S1x64_S64,
    unary main_v100 main_v101 (broadcastInDim S1x64 ![1] bcast_S64_S1x64_1 : (⟨S64, .f32⟩ : BufTy).Contents (Elt F) → (⟨S1x64, .f32⟩ : BufTy).Contents (Elt F)),
    unary main_v101 main_v102 (broadcastInDim S50000x64 ![0, 1] bcast_S1x64_S50000x64_0_1 : (⟨S1x64, .f32⟩ : BufTy).Contents (Elt F) → (⟨S50000x64, .f32⟩ : BufTy).Contents (Elt F)),
    binary main_v98 main_v102 main_v103 (addf : (⟨S50000x64, .f32⟩ : BufTy).Contents (Elt F) → (⟨S50000x64, .f32⟩ : BufTy).Contents (Elt F) → (⟨S50000x64, .f32⟩ : BufTy).Contents (Elt F)),
    nullary main_cst_15 (constant S_ .f32 0x3E4CCCCD#32),
    TRef.nullary main_call4.cst (constant S_ .f32 0x00000000#32),
    TRef.unary main_call4.cst main_call4.v0 (broadcastInDim S50000x64 ![] bcast_S_S50000x64),
    TRef.binary (.of main_v103) main_call4.v0 main_call4.v1 (cmpf .oge),
    TRef.unary (.of main_cst_15) main_call4.v2 id,
    TRef.unary main_call4.v2 main_call4.v3 (broadcastInDim S50000x64 ![] bcast_S_S50000x64),
    TRef.binary main_call4.v3 (.of main_v103) main_call4.v4 mulf,
    TRef.ternary main_call4.v1 (.of main_v103) main_call4.v4 main_call4.call0.v0 select,
    binary main_v74 main_v95 main_v105 (mulf : (⟨S50000x64, .f32⟩ : BufTy).Contents (Elt F) → (⟨S50000x64, .f32⟩ : BufTy).Contents (Elt F) → (⟨S50000x64, .f32⟩ : BufTy).Contents (Elt F)),
    unary main_arg7 main_v106 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v106 main_v107 rfl shapeCasts_S1x64x64_S64x64,
    binary main_v105 main_v107 main_v108 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg8 main_v109 ((extractStridedSlice S1x64 ![2, 0] · slices_S3x64_S1x64_2_0) : (⟨S3x64, .f32⟩ : BufTy).Contents (Elt F) → (⟨S1x64, .f32⟩ : BufTy).Contents (Elt F)),
    reshape main_v109 main_v110 rfl shapeCasts_S1x64_S64,
    unary main_v110 main_v111 (broadcastInDim S1x64 ![1] bcast_S64_S1x64_1 : (⟨S64, .f32⟩ : BufTy).Contents (Elt F) → (⟨S1x64, .f32⟩ : BufTy).Contents (Elt F)),
    unary main_v111 main_v112 (broadcastInDim S50000x64 ![0, 1] bcast_S1x64_S50000x64_0_1 : (⟨S1x64, .f32⟩ : BufTy).Contents (Elt F) → (⟨S50000x64, .f32⟩ : BufTy).Contents (Elt F)),
    binary main_v108 main_v112 main_v113 (addf : (⟨S50000x64, .f32⟩ : BufTy).Contents (Elt F) → (⟨S50000x64, .f32⟩ : BufTy).Contents (Elt F) → (⟨S50000x64, .f32⟩ : BufTy).Contents (Elt F)),
    nullary main_cst_16 (constant S_ .f32 0x3E4CCCCD#32),
    TRef.nullary main_call5.cst (constant S_ .f32 0x00000000#32),
    TRef.unary main_call5.cst main_call5.v0 (broadcastInDim S50000x64 ![] bcast_S_S50000x64),
    TRef.binary (.of main_v113) main_call5.v0 main_call5.v1 (cmpf .oge),
    TRef.unary (.of main_cst_16) main_call5.v2 id,
    TRef.unary main_call5.v2 main_call5.v3 (broadcastInDim S50000x64 ![] bcast_S_S50000x64),
    TRef.binary main_call5.v3 (.of main_v113) main_call5.v4 mulf,
    TRef.ternary main_call5.v1 (.of main_v113) main_call5.v4 main_call5.call0.v0 select,
    binary main_v104 main_v114 main_v115 (addf : (⟨S50000x64, .f32⟩ : BufTy).Contents (Elt F) → (⟨S50000x64, .f32⟩ : BufTy).Contents (Elt F) → (⟨S50000x64, .f32⟩ : BufTy).Contents (Elt F)),
    binary main_v115 main_v115 main_v116 (mulf : (⟨S50000x64, .f32⟩ : BufTy).Contents (Elt F) → (⟨S50000x64, .f32⟩ : BufTy).Contents (Elt F) → (⟨S50000x64, .f32⟩ : BufTy).Contents (Elt F)),
    nullary main_cst_17 (constant S_ .f32 0x00000000#32),
    binary main_v116 main_cst_17 main_v117 ((fun x v => Host.reduceAdd x v reducesTo_S50000x64_S50000_d1 h_S_) : (⟨S50000x64, .f32⟩ : BufTy).Contents (Elt F) → (⟨S_, .f32⟩ : BufTy).Contents (Elt F) → (⟨S50000, .f32⟩ : BufTy).Contents (Elt F)),
    unary main_v117 main_v118 (broadcastInDim S50000x1 ![0] bcast_S50000_S50000x1_0 : (⟨S50000, .f32⟩ : BufTy).Contents (Elt F) → (⟨S50000x1, .f32⟩ : BufTy).Contents (Elt F)),
    nullary main_cst_18 (constant S_ .f32 0x2B8CBCCC#32),
    unary main_cst_18 main_v119 (broadcastInDim S50000x1 ![] bcast_S_S50000x1 : (⟨S_, .f32⟩ : BufTy).Contents (Elt F) → (⟨S50000x1, .f32⟩ : BufTy).Contents (Elt F)),
    binary main_v118 main_v119 main_v120 (maximumf : (⟨S50000x1, .f32⟩ : BufTy).Contents (Elt F) → (⟨S50000x1, .f32⟩ : BufTy).Contents (Elt F) → (⟨S50000x1, .f32⟩ : BufTy).Contents (Elt F)),
    unary main_v120 main_v121 (Host.rsqrt : (⟨S50000x1, .f32⟩ : BufTy).Contents (Elt F) → (⟨S50000x1, .f32⟩ : BufTy).Contents (Elt F)),
    unary main_v121 main_v122 (broadcastInDim S50000x64 ![0, 1] bcast_S50000x1_S50000x64_0_1 : (⟨S50000x1, .f32⟩ : BufTy).Contents (Elt F) → (⟨S50000x64, .f32⟩ : BufTy).Contents (Elt F)),
    binary main_v115 main_v122 main_v123 (mulf : (⟨S50000x64, .f32⟩ : BufTy).Contents (Elt F) → (⟨S50000x64, .f32⟩ : BufTy).Contents (Elt F) → (⟨S50000x64, .f32⟩ : BufTy).Contents (Elt F)) ]

/-- The results: the four embeddings side by side, split into users and items, the requested rows and their inner products. -/
abbrev L3 : List (HloOp τ sig (Elt F)) :=
  [ nary ![main_v0, main_v41, main_v82, main_v123] main_v124 (fun u => concatenate S50000x256 1 [⟨S50000x64, u 0⟩, ⟨S50000x64, u 1⟩, ⟨S50000x64, u 2⟩, ⟨S50000x64, u 3⟩] concatenates_S50000x64_S50000x64_S50000x64_S50000x64_S50000x256_d1),
    unary main_v124 main_v125 ((extractStridedSlice S25000x256 ![0, 0] · slices_S50000x256_S25000x256_0_0) : (⟨S50000x256, .f32⟩ : BufTy).Contents (Elt F) → (⟨S25000x256, .f32⟩ : BufTy).Contents (Elt F)),
    unary main_v124 main_v126 ((extractStridedSlice S25000x256 ![25000, 0] · slices_S50000x256_S25000x256_25000_0) : (⟨S50000x256, .f32⟩ : BufTy).Contents (Elt F) → (⟨S25000x256, .f32⟩ : BufTy).Contents (Elt F)),
    nullary main_c_19 (constantI S_ 32 0#32),
    unary main_c_19 main_v127 (broadcastInDim S4096 ![] bcast_S_S4096 : (⟨S_, .i32⟩ : BufTy).Contents (Elt F) → (⟨S4096, .i32⟩ : BufTy).Contents (Elt F)),
    binary main_arg9 main_v127 main_v128 (cmpi .slt : (⟨S4096, .i32⟩ : BufTy).Contents (Elt F) → (⟨S4096, .i32⟩ : BufTy).Contents (Elt F) → (⟨S4096, .i1⟩ : BufTy).Contents (Elt F)),
    nullary main_c_20 (constantI S_ 32 25000#32),
    unary main_c_20 main_v129 (broadcastInDim S4096 ![] bcast_S_S4096 : (⟨S_, .i32⟩ : BufTy).Contents (Elt F) → (⟨S4096, .i32⟩ : BufTy).Contents (Elt F)),
    binary main_arg9 main_v129 main_v130 (addi : (⟨S4096, .i32⟩ : BufTy).Contents (Elt F) → (⟨S4096, .i32⟩ : BufTy).Contents (Elt F) → (⟨S4096, .i32⟩ : BufTy).Contents (Elt F)),
    ternary main_v128 main_v130 main_arg9 main_v131 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v131 main_v132 (broadcastInDim S4096x1 ![0] bcast_S4096_S4096x1_0 : (⟨S4096, .i32⟩ : BufTy).Contents (Elt F) → (⟨S4096x1, .i32⟩ : BufTy).Contents (Elt F)),
    binary main_v125 main_v132 main_v133 ((fun x i => Host.gather gather_S25000x256_S4096x1_S4096x256_1_0_n_n_0_1_1256 x i) : (⟨S25000x256, .f32⟩ : BufTy).Contents (Elt F) → (⟨S4096x1, .i32⟩ : BufTy).Contents (Elt F) → (⟨S4096x256, .f32⟩ : BufTy).Contents (Elt F)),
    nullary main_c_21 (constantI S_ 32 0#32),
    unary main_c_21 main_v134 (broadcastInDim S4096 ![] bcast_S_S4096 : (⟨S_, .i32⟩ : BufTy).Contents (Elt F) → (⟨S4096, .i32⟩ : BufTy).Contents (Elt F)),
    binary main_arg10 main_v134 main_v135 (cmpi .slt : (⟨S4096, .i32⟩ : BufTy).Contents (Elt F) → (⟨S4096, .i32⟩ : BufTy).Contents (Elt F) → (⟨S4096, .i1⟩ : BufTy).Contents (Elt F)),
    nullary main_c_22 (constantI S_ 32 25000#32),
    unary main_c_22 main_v136 (broadcastInDim S4096 ![] bcast_S_S4096 : (⟨S_, .i32⟩ : BufTy).Contents (Elt F) → (⟨S4096, .i32⟩ : BufTy).Contents (Elt F)),
    binary main_arg10 main_v136 main_v137 (addi : (⟨S4096, .i32⟩ : BufTy).Contents (Elt F) → (⟨S4096, .i32⟩ : BufTy).Contents (Elt F) → (⟨S4096, .i32⟩ : BufTy).Contents (Elt F)),
    ternary main_v135 main_v137 main_arg10 main_v138 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v138 main_v139 (broadcastInDim S4096x1 ![0] bcast_S4096_S4096x1_0 : (⟨S4096, .i32⟩ : BufTy).Contents (Elt F) → (⟨S4096x1, .i32⟩ : BufTy).Contents (Elt F)),
    binary main_v126 main_v139 main_v140 ((fun x i => Host.gather gather_S25000x256_S4096x1_S4096x256_1_0_n_n_0_1_1256 x i) : (⟨S25000x256, .f32⟩ : BufTy).Contents (Elt F) → (⟨S4096x1, .i32⟩ : BufTy).Contents (Elt F) → (⟨S4096x256, .f32⟩ : BufTy).Contents (Elt F)),
    binary main_v133 main_v140 main_v141 (mulf : (⟨S4096x256, .f32⟩ : BufTy).Contents (Elt F) → (⟨S4096x256, .f32⟩ : BufTy).Contents (Elt F) → (⟨S4096x256, .f32⟩ : BufTy).Contents (Elt F)),
    nullary main_cst_23 (constant S_ .f32 0x00000000#32),
    binary main_v141 main_cst_23 main_v142 ((fun x v => Host.reduceAdd x v reducesTo_S4096x256_S4096_d1 h_S_) : (⟨S4096x256, .f32⟩ : BufTy).Contents (Elt F) → (⟨S_, .f32⟩ : BufTy).Contents (Elt F) → (⟨S4096, .f32⟩ : BufTy).Contents (Elt F)) ]

/-- The line is the four stretches in order. -/
theorem ops_split : (ops : List (HloOp τ sig (Elt F))) = L0 ++ (L1 ++ (L2 ++ L3)) := rfl

/-- Running two lines one after the other is running the second from where the first ends. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- The line's end, stretch by stretch. -/
theorem after_ops (V : Valuation τ sig (Elt F)) :
    after (ops (F := F)) V = after L3 (after L2 (after L1 (after L0 V))) := by
  rw [ops_split, after_append, after_append, after_append]

-- the host operations whose bodies are searches and folds over the operands' elements stay folded: the two sides of
-- each reading below apply them to the same operands, and are compared operand by operand
attribute [local irreducible] Host.gather Host.scatterAdd Host.reduceAdd concatenate

/-! ## Each stretch read from an arbitrary valuation -/

theorem L0_v0 (V : Valuation τ sig (Elt F)) : after (L0 (F := F)) V (Proc.devRef .tc main_v0) = Cert.Glue.e0 (argsOf V) := by
  after_results_simp; rfl
theorem L0_v33 (V : Valuation τ sig (Elt F)) : after (L0 (F := F)) V (Proc.devRef .tc main_v33) = Cert.Glue.e1 Cert.RefLayer.refEgoNew (argsOf V) := by
  after_results_simp; rfl
theorem L0_v41 (V : Valuation τ sig (Elt F)) : after (L0 (F := F)) V (Proc.devRef .tc main_v41) = Cert.Glue.n1 Cert.RefLayer.refNorm (argsOf V) := by
  after_results_simp; rfl
theorem L0_arg0 (W : Valuation τ sig (Elt F)) : after (L0 (F := F)) W (Proc.devRef .tc main_arg0) = W (Proc.devRef .tc main_arg0) := by after_results_simp
theorem L0_arg1 (W : Valuation τ sig (Elt F)) : after (L0 (F := F)) W (Proc.devRef .tc main_arg1) = W (Proc.devRef .tc main_arg1) := by after_results_simp
theorem L0_arg2 (W : Valuation τ sig (Elt F)) : after (L0 (F := F)) W (Proc.devRef .tc main_arg2) = W (Proc.devRef .tc main_arg2) := by after_results_simp
theorem L0_arg5 (W : Valuation τ sig (Elt F)) : after (L0 (F := F)) W (Proc.devRef .tc main_arg5) = W (Proc.devRef .tc main_arg5) := by after_results_simp
theorem L0_arg6 (W : Valuation τ sig (Elt F)) : after (L0 (F := F)) W (Proc.devRef .tc main_arg6) = W (Proc.devRef .tc main_arg6) := by after_results_simp
theorem L0_arg7 (W : Valuation τ sig (Elt F)) : after (L0 (F := F)) W (Proc.devRef .tc main_arg7) = W (Proc.devRef .tc main_arg7) := by after_results_simp
theorem L0_arg8 (W : Valuation τ sig (Elt F)) : after (L0 (F := F)) W (Proc.devRef .tc main_arg8) = W (Proc.devRef .tc main_arg8) := by after_results_simp
theorem L0_arg9 (W : Valuation τ sig (Elt F)) : after (L0 (F := F)) W (Proc.devRef .tc main_arg9) = W (Proc.devRef .tc main_arg9) := by after_results_simp
theorem L0_arg10 (W : Valuation τ sig (Elt F)) : after (L0 (F := F)) W (Proc.devRef .tc main_arg10) = W (Proc.devRef .tc main_arg10) := by after_results_simp

theorem L1_v74 (W : Valuation τ sig (Elt F)) :
    after (L1 (F := F)) W (Proc.devRef .tc main_v74)
      = Cert.RefLayer.refEgoNew (W (Proc.devRef .tc main_v33)) (Cert.Glue.side (W (Proc.devRef .tc main_arg0)) (W (Proc.devRef .tc main_arg1)) (W (Proc.devRef .tc main_arg2)) (W (Proc.devRef .tc main_v33)))
          (Cert.Glue.w1 (W (Proc.devRef .tc main_arg5))) (Cert.Glue.b1 (W (Proc.devRef .tc main_arg6))) (Cert.Glue.w1 (W (Proc.devRef .tc main_arg7))) (Cert.Glue.b1 (W (Proc.devRef .tc main_arg8))) := by
  after_results_simp; rfl
theorem L1_v82 (W : Valuation τ sig (Elt F)) :
    after (L1 (F := F)) W (Proc.devRef .tc main_v82)
      = Cert.RefLayer.refNorm (W (Proc.devRef .tc main_v33)) (Cert.Glue.side (W (Proc.devRef .tc main_arg0)) (W (Proc.devRef .tc main_arg1)) (W (Proc.devRef .tc main_arg2)) (W (Proc.devRef .tc main_v33)))
          (Cert.Glue.w1 (W (Proc.devRef .tc main_arg5))) (Cert.Glue.b1 (W (Proc.devRef .tc main_arg6))) (Cert.Glue.w1 (W (Proc.devRef .tc main_arg7))) (Cert.Glue.b1 (W (Proc.devRef .tc main_arg8))) := by
  after_results_simp; rfl
theorem L1_v0 (W : Valuation τ sig (Elt F)) : after (L1 (F := F)) W (Proc.devRef .tc main_v0) = W (Proc.devRef .tc main_v0) := by after_results_simp
theorem L1_v41 (W : Valuation τ sig (Elt F)) : after (L1 (F := F)) W (Proc.devRef .tc main_v41) = W (Proc.devRef .tc main_v41) := by after_results_simp
theorem L1_arg0 (W : Valuation τ sig (Elt F)) : after (L1 (F := F)) W (Proc.devRef .tc main_arg0) = W (Proc.devRef .tc main_arg0) := by after_results_simp
theorem L1_arg1 (W : Valuation τ sig (Elt F)) : after (L1 (F := F)) W (Proc.devRef .tc main_arg1) = W (Proc.devRef .tc main_arg1) := by after_results_simp
theorem L1_arg2 (W : Valuation τ sig (Elt F)) : after (L1 (F := F)) W (Proc.devRef .tc main_arg2) = W (Proc.devRef .tc main_arg2) := by after_results_simp
theorem L1_arg5 (W : Valuation τ sig (Elt F)) : after (L1 (F := F)) W (Proc.devRef .tc main_arg5) = W (Proc.devRef .tc main_arg5) := by after_results_simp
theorem L1_arg6 (W : Valuation τ sig (Elt F)) : after (L1 (F := F)) W (Proc.devRef .tc main_arg6) = W (Proc.devRef .tc main_arg6) := by after_results_simp
theorem L1_arg7 (W : Valuation τ sig (Elt F)) : after (L1 (F := F)) W (Proc.devRef .tc main_arg7) = W (Proc.devRef .tc main_arg7) := by after_results_simp
theorem L1_arg8 (W : Valuation τ sig (Elt F)) : after (L1 (F := F)) W (Proc.devRef .tc main_arg8) = W (Proc.devRef .tc main_arg8) := by after_results_simp
theorem L1_arg9 (W : Valuation τ sig (Elt F)) : after (L1 (F := F)) W (Proc.devRef .tc main_arg9) = W (Proc.devRef .tc main_arg9) := by after_results_simp
theorem L1_arg10 (W : Valuation τ sig (Elt F)) : after (L1 (F := F)) W (Proc.devRef .tc main_arg10) = W (Proc.devRef .tc main_arg10) := by after_results_simp

theorem L2_v123 (W : Valuation τ sig (Elt F)) :
    after (L2 (F := F)) W (Proc.devRef .tc main_v123)
      = Cert.RefLayer.refNorm (W (Proc.devRef .tc main_v74)) (Cert.Glue.side (W (Proc.devRef .tc main_arg0)) (W (Proc.devRef .tc main_arg1)) (W (Proc.devRef .tc main_arg2)) (W (Proc.devRef .tc main_v74)))
          (Cert.Glue.w2 (W (Proc.devRef .tc main_arg5))) (Cert.Glue.b2 (W (Proc.devRef .tc main_arg6))) (Cert.Glue.w2 (W (Proc.devRef .tc main_arg7))) (Cert.Glue.b2 (W (Proc.devRef .tc main_arg8))) := by
  after_results_simp; rfl
theorem L2_v0 (W : Valuation τ sig (Elt F)) : after (L2 (F := F)) W (Proc.devRef .tc main_v0) = W (Proc.devRef .tc main_v0) := by after_results_simp
theorem L2_v41 (W : Valuation τ sig (Elt F)) : after (L2 (F := F)) W (Proc.devRef .tc main_v41) = W (Proc.devRef .tc main_v41) := by after_results_simp
theorem L2_v82 (W : Valuation τ sig (Elt F)) : after (L2 (F := F)) W (Proc.devRef .tc main_v82) = W (Proc.devRef .tc main_v82) := by after_results_simp
theorem L2_arg9 (W : Valuation τ sig (Elt F)) : after (L2 (F := F)) W (Proc.devRef .tc main_arg9) = W (Proc.devRef .tc main_arg9) := by after_results_simp
theorem L2_arg10 (W : Valuation τ sig (Elt F)) : after (L2 (F := F)) W (Proc.devRef .tc main_arg10) = W (Proc.devRef .tc main_arg10) := by after_results_simp

theorem L3_v125 (W : Valuation τ sig (Elt F)) :
    after (L3 (F := F)) W (Proc.devRef .tc main_v125) = Cert.Glue.out68 (W (Proc.devRef .tc main_v0)) (W (Proc.devRef .tc main_v41)) (W (Proc.devRef .tc main_v82)) (W (Proc.devRef .tc main_v123)) := by
  after_results_simp; rfl
theorem L3_v126 (W : Valuation τ sig (Elt F)) :
    after (L3 (F := F)) W (Proc.devRef .tc main_v126) = Cert.Glue.out69 (W (Proc.devRef .tc main_v0)) (W (Proc.devRef .tc main_v41)) (W (Proc.devRef .tc main_v82)) (W (Proc.devRef .tc main_v123)) := by
  after_results_simp; rfl
theorem L3_v142 (W : Valuation τ sig (Elt F)) :
    after (L3 (F := F)) W (Proc.devRef .tc main_v142)
      = Cert.Glue.out85 (W (Proc.devRef .tc main_v0)) (W (Proc.devRef .tc main_v41)) (W (Proc.devRef .tc main_v82)) (W (Proc.devRef .tc main_v123)) (W (Proc.devRef .tc main_arg9)) (W (Proc.devRef .tc main_arg10)) := by
  after_results_simp; rfl

/-! ## What the later stretches find, as functions of the arguments -/

section Stages
variable (V : Valuation τ sig (Elt F))

-- after the first two layers
theorem s2_arg0 : after (L1 (F := F)) (after L0 V) (Proc.devRef .tc main_arg0) = V (Proc.devRef .tc main_arg0) := by rw [L1_arg0, L0_arg0]
theorem s2_arg1 : after (L1 (F := F)) (after L0 V) (Proc.devRef .tc main_arg1) = V (Proc.devRef .tc main_arg1) := by rw [L1_arg1, L0_arg1]
theorem s2_arg2 : after (L1 (F := F)) (after L0 V) (Proc.devRef .tc main_arg2) = V (Proc.devRef .tc main_arg2) := by rw [L1_arg2, L0_arg2]
theorem s2_arg5 : after (L1 (F := F)) (after L0 V) (Proc.devRef .tc main_arg5) = V (Proc.devRef .tc main_arg5) := by rw [L1_arg5, L0_arg5]
theorem s2_arg6 : after (L1 (F := F)) (after L0 V) (Proc.devRef .tc main_arg6) = V (Proc.devRef .tc main_arg6) := by rw [L1_arg6, L0_arg6]
theorem s2_arg7 : after (L1 (F := F)) (after L0 V) (Proc.devRef .tc main_arg7) = V (Proc.devRef .tc main_arg7) := by rw [L1_arg7, L0_arg7]
theorem s2_arg8 : after (L1 (F := F)) (after L0 V) (Proc.devRef .tc main_arg8) = V (Proc.devRef .tc main_arg8) := by rw [L1_arg8, L0_arg8]
theorem s2_arg9 : after (L1 (F := F)) (after L0 V) (Proc.devRef .tc main_arg9) = V (Proc.devRef .tc main_arg9) := by rw [L1_arg9, L0_arg9]
theorem s2_arg10 : after (L1 (F := F)) (after L0 V) (Proc.devRef .tc main_arg10) = V (Proc.devRef .tc main_arg10) := by rw [L1_arg10, L0_arg10]
theorem s2_v0 : after (L1 (F := F)) (after L0 V) (Proc.devRef .tc main_v0) = Cert.Glue.e0 (argsOf V) := by rw [L1_v0, L0_v0]
theorem s2_v41 : after (L1 (F := F)) (after L0 V) (Proc.devRef .tc main_v41) = Cert.Glue.n1 Cert.RefLayer.refNorm (argsOf V) := by rw [L1_v41, L0_v41]
theorem s2_v74 : after (L1 (F := F)) (after L0 V) (Proc.devRef .tc main_v74) = Cert.Glue.e2 Cert.RefLayer.refEgoNew (argsOf V) := by
  rw [L1_v74, L0_v33, L0_arg0, L0_arg1, L0_arg2, L0_arg5, L0_arg6, L0_arg7, L0_arg8]; rfl
theorem s2_v82 : after (L1 (F := F)) (after L0 V) (Proc.devRef .tc main_v82) = Cert.Glue.n2 Cert.RefLayer.refEgoNew Cert.RefLayer.refNorm (argsOf V) := by
  rw [L1_v82, L0_v33, L0_arg0, L0_arg1, L0_arg2, L0_arg5, L0_arg6, L0_arg7, L0_arg8]; rfl

-- after the three layers
theorem s3_v0 : after (L2 (F := F)) (after L1 (after L0 V)) (Proc.devRef .tc main_v0) = Cert.Glue.e0 (argsOf V) := by rw [L2_v0, s2_v0]
theorem s3_v41 : after (L2 (F := F)) (after L1 (after L0 V)) (Proc.devRef .tc main_v41) = Cert.Glue.n1 Cert.RefLayer.refNorm (argsOf V) := by rw [L2_v41, s2_v41]
theorem s3_v82 : after (L2 (F := F)) (after L1 (after L0 V)) (Proc.devRef .tc main_v82) = Cert.Glue.n2 Cert.RefLayer.refEgoNew Cert.RefLayer.refNorm (argsOf V) := by rw [L2_v82, s2_v82]
theorem s3_v123 : after (L2 (F := F)) (after L1 (after L0 V)) (Proc.devRef .tc main_v123) = Cert.Glue.n3 Cert.RefLayer.refEgoNew Cert.RefLayer.refNorm (argsOf V) := by
  rw [L2_v123, s2_v74, s2_arg0, s2_arg1, s2_arg2, s2_arg5, s2_arg6, s2_arg7, s2_arg8]; rfl
theorem s3_arg9 : after (L2 (F := F)) (after L1 (after L0 V)) (Proc.devRef .tc main_arg9) = V (Proc.devRef .tc main_arg9) := by rw [L2_arg9, s2_arg9]
theorem s3_arg10 : after (L2 (F := F)) (after L1 (after L0 V)) (Proc.devRef .tc main_arg10) = V (Proc.devRef .tc main_arg10) := by rw [L2_arg10, s2_arg10]

end Stages

/-! ## The three results -/

/-- The requested pairs' scores. -/
theorem res142 (V : Valuation τ sig (Elt F)) :
    after (ops (F := F)) V (Proc.devRef .tc main_v142) = Cert.Glue.res85 Cert.RefLayer.refEgoNew Cert.RefLayer.refNorm (argsOf V) := by
  rw [after_ops, L3_v142, s3_v0, s3_v41, s3_v82, s3_v123, s3_arg9, s3_arg10]; rfl

/-- The users' final embeddings. -/
theorem res125 (V : Valuation τ sig (Elt F)) :
    after (ops (F := F)) V (Proc.devRef .tc main_v125) = Cert.Glue.res68 Cert.RefLayer.refEgoNew Cert.RefLayer.refNorm (argsOf V) := by
  rw [after_ops, L3_v125, s3_v0, s3_v41, s3_v82, s3_v123]; rfl

/-- The items' final embeddings. -/
theorem res126 (V : Valuation τ sig (Elt F)) :
    after (ops (F := F)) V (Proc.devRef .tc main_v126) = Cert.Glue.res69 Cert.RefLayer.refEgoNew Cert.RefLayer.refNorm (argsOf V) := by
  rw [after_ops, L3_v126, s3_v0, s3_v41, s3_v82, s3_v123]; rfl

end Cert.ReferenceIdeal.RefRead

end
-- ==== Proof.lean ====
/-
  The five claims.

  The three programs run to the end and leave their arguments as launched: the kernel program, at the word level and at
  the ideal instance, as four stretches of host operations around three launches of the layer kernel, each launch's body
  reading six blocks and storing two; the reference as one straight line of host operations. No rewrite separates the
  kernel program from its idealization. At the ideal instance the kernel program's three results are the whole
  computation — join the embeddings, three times aggregate the messages and apply the layer, join the normalised
  copies, split, gather, take inner products — with the layer read off the tiles: row by row it is
  `lrelu (s · W_gc + b_gc) + lrelu ((e ⊙ s) · W_bi + b_bi)` and that row times `rsqrt` of its floored squared length.
  The reference's results are the same whole computation with the layer spelled by host operations on the whole
  arrays, which row by row is the same function. Tiling, the order of the sums and the changes of float format are
  invisible over the extended reals; no finiteness is needed, since both sides are the same expression row by row.
-/
import proofs.«103830_j35493609734828_1_alg».proof.Defs
import proofs.«103830_j35493609734828_1_alg».proof.Proof.Gen.Kernel
import proofs.«103830_j35493609734828_1_alg».proof.Proof.Gen.KernelIdeal
import proofs.«103830_j35493609734828_1_alg».proof.Proof.Gen.ReferenceIdeal
import proofs.«103830_j35493609734828_1_alg».proof.Proof.Gen.Pre_finite_inputs
import proofs.«103830_j35493609734828_1_alg».proof.Proof.BitsRun
import proofs.«103830_j35493609734828_1_alg».proof.Proof.IdealRun
import proofs.«103830_j35493609734828_1_alg».proof.Proof.IdealRead
import proofs.«103830_j35493609734828_1_alg».proof.Proof.RefRun
import proofs.«103830_j35493609734828_1_alg».proof.Proof.RefRead
import proofs.«103830_j35493609734828_1_alg».proof.Proof.RefLayer
import proofs.«103830_j35493609734828_1_alg».proof.Proof.LayerArr
import Idealize.ShloMosaic.Adequacy
import Idealize.ShloMosaic.Init

set_option maxRecDepth 16384

noncomputable section

namespace Cert.Proof

open Idealize.ShloMosaic Idealize.ShloMosaic.ValueIdx Idealize.SL.Sem

/-- The reference's layer, spelled by host operations on whole arrays, is row by row the row-wise layer. -/
theorem refEgo_eq : (Cert.RefLayer.refEgoNew (F := Ideal)) = Cert.LayerArr.ego := by
  funext e s wg bg wb bb i
  obtain ⟨a, b, rfl⟩ : ∃ (a : Fin 50000) (b : Fin 64), i = ix2 a b := ⟨i 0, i 1, eq_ix2 i⟩
  exact Cert.RefLayer.refEgoNew_apply e s wg bg wb bb a b

theorem refNorm_eq : (Cert.RefLayer.refNorm (F := Ideal)) = Cert.LayerArr.norm := by
  funext e s wg bg wb bb i
  obtain ⟨a, b, rfl⟩ : ∃ (a : Fin 50000) (b : Fin 64), i = ix2 a b := ⟨i 0, i 1, eq_ix2 i⟩
  exact Cert.RefLayer.refNorm_apply e s wg bg wb bb a b

theorem frame_k : Cert.frame_Kernel (hKernel := Cert.Kernel.Gen.facts) (hPre_finite_inputs := Cert.Pre_finite_inputs.Gen.facts) :=
  fun m ρ _ => Cert.Kernel.Hand.frame (F := Bits) m ρ
theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ
theorem frame_ri : Cert.frame_ReferenceIdeal (hReferenceIdeal := Cert.ReferenceIdeal.Gen.facts) (hPre_finite_inputs := Cert.Pre_finite_inputs.Gen.facts) :=
  fun m ρ _ => Cert.ReferenceIdeal.RefRun.frame m ρ

/-- The arguments the reference is launched with are the kernel program's. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    Cert.ReferenceIdeal.RefRead.argsOf (F := Ideal) (fun b => m' (c, b)) = Cert.KernelIdeal.HandRead.argsOf m c := by
  obtain ⟨h0, h1, h2, h3, h4, h5, h6, h7, h8, h9, h10⟩ := h
  show Cert.Glue.Args.mk _ _ _ _ _ _ _ _ _ _ _ = Cert.Glue.Args.mk _ _ _ _ _ _ _ _ _ _ _
  exact congr (congr (congr (congr (congr (congr (congr (congr (congr (congr (congrArg Cert.Glue.Args.mk h0) h1) h2) h3) h4) h5) h6) h7) h8) h9) h10

theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Glue.res85 Cert.LayerArr.ego Cert.LayerArr.norm (Cert.KernelIdeal.HandRead.argsOf m c),
    fun c => Cert.Glue.res68 Cert.LayerArr.ego Cert.LayerArr.norm (Cert.KernelIdeal.HandRead.argsOf m c),
    fun c => Cert.Glue.res69 Cert.LayerArr.ego Cert.LayerArr.norm (Cert.KernelIdeal.HandRead.argsOf m c), ?_, ?_⟩
  · refine (θ_run _ _ _).mono (fun r h c => ?_) (Cert.KernelIdeal.Hand.run_all (F := Ideal) m ρ)
    exact ⟨(h c _ (Cert.KernelIdeal.Hand.mem_uc Cert.KernelIdeal.main_v85 (by decide))).trans (Cert.KernelIdeal.HandRead.res85 m c),
      (h c _ (Cert.KernelIdeal.Hand.mem_uc Cert.KernelIdeal.main_v68 (by decide))).trans (Cert.KernelIdeal.HandRead.res68 m c),
      (h c _ (Cert.KernelIdeal.Hand.mem_uc Cert.KernelIdeal.main_v69 (by decide))).trans (Cert.KernelIdeal.HandRead.res69 m c),
      (h c _ (Cert.KernelIdeal.Hand.mem_uc Cert.KernelIdeal.main_arg0 (by decide))).trans (Cert.KernelIdeal.Hand.W7_main_arg0 m c),
      (h c _ (Cert.KernelIdeal.Hand.mem_uc Cert.KernelIdeal.main_arg1 (by decide))).trans (Cert.KernelIdeal.Hand.W7_main_arg1 m c),
      (h c _ (Cert.KernelIdeal.Hand.mem_uc Cert.KernelIdeal.main_arg2 (by decide))).trans (Cert.KernelIdeal.Hand.W7_main_arg2 m c),
      (h c _ (Cert.KernelIdeal.Hand.mem_uc Cert.KernelIdeal.main_arg3 (by decide))).trans (Cert.KernelIdeal.Hand.W7_main_arg3 m c),
      (h c _ (Cert.KernelIdeal.Hand.mem_uc Cert.KernelIdeal.main_arg4 (by decide))).trans (Cert.KernelIdeal.Hand.W7_main_arg4 m c),
      (h c _ (Cert.KernelIdeal.Hand.mem_uc Cert.KernelIdeal.main_arg5 (by decide))).trans (Cert.KernelIdeal.Hand.W7_main_arg5 m c),
      (h c _ (Cert.KernelIdeal.Hand.mem_uc Cert.KernelIdeal.main_arg6 (by decide))).trans (Cert.KernelIdeal.Hand.W7_main_arg6 m c),
      (h c _ (Cert.KernelIdeal.Hand.mem_uc Cert.KernelIdeal.main_arg7 (by decide))).trans (Cert.KernelIdeal.Hand.W7_main_arg7 m c),
      (h c _ (Cert.KernelIdeal.Hand.mem_uc Cert.KernelIdeal.main_arg8 (by decide))).trans (Cert.KernelIdeal.Hand.W7_main_arg8 m c),
      (h c _ (Cert.KernelIdeal.Hand.mem_uc Cert.KernelIdeal.main_arg9 (by decide))).trans (Cert.KernelIdeal.Hand.W7_main_arg9 m c),
      (h c _ (Cert.KernelIdeal.Hand.mem_uc Cert.KernelIdeal.main_arg10 (by decide))).trans (Cert.KernelIdeal.Hand.W7_main_arg10 m c)⟩
  · refine (θ_run _ _ _).mono (fun r h c => ?_) (Cert.ReferenceIdeal.RefRun.run (F := Ideal) m' ρ')
    have hA := args_eq m m' c (hagree c)
    refine ⟨(h c Cert.ReferenceIdeal.main_v142).trans ?_, (h c Cert.ReferenceIdeal.main_v125).trans ?_, (h c Cert.ReferenceIdeal.main_v126).trans ?_,
      (h c Cert.ReferenceIdeal.main_arg0).trans (Cert.ReferenceIdeal.RefRun.arg0_kept _),
      (h c Cert.ReferenceIdeal.main_arg1).trans (Cert.ReferenceIdeal.RefRun.arg1_kept _),
      (h c Cert.ReferenceIdeal.main_arg2).trans (Cert.ReferenceIdeal.RefRun.arg2_kept _),
      (h c Cert.ReferenceIdeal.main_arg3).trans (Cert.ReferenceIdeal.RefRun.arg3_kept _),
      (h c Cert.ReferenceIdeal.main_arg4).trans (Cert.ReferenceIdeal.RefRun.arg4_kept _),
      (h c Cert.ReferenceIdeal.main_arg5).trans (Cert.ReferenceIdeal.RefRun.arg5_kept _),
      (h c Cert.ReferenceIdeal.main_arg6).trans (Cert.ReferenceIdeal.RefRun.arg6_kept _),
      (h c Cert.ReferenceIdeal.main_arg7).trans (Cert.ReferenceIdeal.RefRun.arg7_kept _),
      (h c Cert.ReferenceIdeal.main_arg8).trans (Cert.ReferenceIdeal.RefRun.arg8_kept _),
      (h c Cert.ReferenceIdeal.main_arg9).trans (Cert.ReferenceIdeal.RefRun.arg9_kept _),
      (h c Cert.ReferenceIdeal.main_arg10).trans (Cert.ReferenceIdeal.RefRun.arg10_kept _)⟩
    · rw [Cert.ReferenceIdeal.RefRead.res142, refEgo_eq, refNorm_eq, hA]
    · rw [Cert.ReferenceIdeal.RefRead.res125, refEgo_eq, refNorm_eq, hA]
    · rw [Cert.ReferenceIdeal.RefRead.res126, refEgo_eq, refNorm_eq, hA]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
